-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v124)) (v1 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : FVec F S100000x64 .f32) (main_arg2 : IVec S1000000 32) (main_arg3 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S100000x64 : Shape := ⟨2, ![100000, 64]⟩
abbrev S1000000 : Shape := ⟨1, ![1000000]⟩
abbrev S_ : Shape := ⟨0, ![]⟩
abbrev S1003520 : Shape := ⟨1, ![1003520]⟩
abbrev S3520 : Shape := ⟨1, ![3520]⟩
abbrev S1x1003520 : Shape := ⟨2, ![1, 1003520]⟩
abbrev S200000x64 : Shape := ⟨2, ![200000, 64]⟩
abbrev S200000x4x16 : Shape := ⟨3, ![200000, 4, 16]⟩
abbrev S4x200000x16 : Shape := ⟨3, ![4, 200000, 16]⟩
abbrev S4x1003520 : Shape := ⟨2, ![4, 1003520]⟩
abbrev S1003520x1 : Shape := ⟨2, ![1003520, 1]⟩
abbrev S4x1003520x16 : Shape := ⟨3, ![4, 1003520, 16]⟩
abbrev S4x4096x16 : Shape := ⟨3, ![4, 4096, 16]⟩
abbrev S4x4096 : Shape := ⟨2, ![4, 4096]⟩
abbrev S4x4096x1 : Shape := ⟨3, ![4, 4096, 1]⟩
abbrev S200000 : Shape := ⟨1, ![200000]⟩
abbrev S4x200000 : Shape := ⟨2, ![4, 200000]⟩
abbrev S4x200000x1 : Shape := ⟨3, ![4, 200000, 1]⟩
abbrev S200000x16 : Shape := ⟨2, ![200000, 16]⟩
abbrev S200000x1x64 : Shape := ⟨3, ![200000, 1, 64]⟩
abbrev S200000x2x64 : Shape := ⟨3, ![200000, 2, 64]⟩

abbrev nBuf : Space → Nat
  | .hbm => 161
  | .vmem => 28
  | .smem => 0
  | _ => 0

abbrev hbmTy0_0 (i : Nat) : BufTy := match i % 128 with
  | 0 => ⟨S100000x64, .f32⟩
  | 1 => ⟨S100000x64, .f32⟩
  | 2 => ⟨S1000000, .i32⟩
  | 3 => ⟨S1000000, .i32⟩
  | 4 => ⟨S_, .i32⟩
  | 5 => ⟨S_, .i32⟩
  | 6 => ⟨S1003520, .i32⟩
  | 7 => ⟨S_, .i32⟩
  | 8 => ⟨S_, .i32⟩
  | 9 => ⟨S1003520, .i32⟩
  | 10 => ⟨S_, .f32⟩
  | 11 => ⟨S1000000, .f32⟩
  | 12 => ⟨S_, .f32⟩
  | 13 => ⟨S3520, .f32⟩
  | 14 => ⟨S1003520, .f32⟩
  | 15 => ⟨S1x1003520, .f32⟩
  | 16 => ⟨S200000x64, .f32⟩
  | 17 => ⟨S200000x4x16, .f32⟩
  | 18 => ⟨S4x200000x16, .f32⟩
  | 19 => ⟨S_, .f32⟩
  | 20 => ⟨S4x1003520, .f32⟩
  | 21 => ⟨S_, .i32⟩
  | 22 => ⟨S1003520, .i32⟩
  | 23 => ⟨S1003520, .i1⟩
  | 24 => ⟨S_, .i32⟩
  | 25 => ⟨S1003520, .i32⟩
  | 26 => ⟨S1003520, .i32⟩
  | 27 => ⟨S1003520, .i32⟩
  | 28 => ⟨S1003520x1, .i32⟩
  | 29 => ⟨S4x1003520x16, .f32⟩
  | 30 => ⟨S4x1003520x16, .f32⟩
  | 31 => ⟨S_, .f32⟩
  | 32 => ⟨S1003520, .f32⟩
  | 33 => ⟨S_, .f32⟩
  | 34 => ⟨S1003520, .f32⟩
  | 35 => ⟨S1003520, .f32⟩
  | 36 => ⟨S1x1003520, .f32⟩
  | 37 => ⟨S4x1003520, .f32⟩
  | 38 => ⟨S4x1003520, .f32⟩
  | 39 => ⟨S4x1003520, .f32⟩
  | 40 => ⟨S_, .f32⟩
  | 41 => ⟨S1003520, .f32⟩
  | 42 => ⟨S1x1003520, .f32⟩
  | 43 => ⟨S4x1003520, .f32⟩
  | 44 => ⟨S4x1003520, .f32⟩
  | 45 => ⟨S4x1003520, .f32⟩
  | 46 => ⟨S4x1003520, .f32⟩
  | 47 => ⟨S_, .f32⟩
  | 48 => ⟨S200000, .f32⟩
  | 49 => ⟨S1003520x1, .i32⟩
  | 50 => ⟨S4x200000, .f32⟩
  | 51 => ⟨S4x200000, .f32⟩
  | 52 => ⟨S4x200000, .f32⟩
  | 53 => ⟨S_, .f32⟩
  | 54 => ⟨S4x200000, .f32⟩
  | 55 => ⟨S4x200000, .f32⟩
  | 56 => ⟨S4x200000x1, .f32⟩
  | 57 => ⟨S4x200000x16, .f32⟩
  | 58 => ⟨S4x200000x16, .f32⟩
  | 59 => ⟨S_, .i32⟩
  | 60 => ⟨S1003520, .i32⟩
  | 61 => ⟨S1003520, .i1⟩
  | 62 => ⟨S_, .i32⟩
  | 63 => ⟨S1003520, .i32⟩
  | 64 => ⟨S1003520, .i32⟩
  | 65 => ⟨S1003520, .i32⟩
  | 66 => ⟨S1003520x1, .i32⟩
  | 67 => ⟨S4x1003520x16, .f32⟩
  | 68 => ⟨S4x1003520x16, .f32⟩
  | 69 => ⟨S_, .f32⟩
  | 70 => ⟨S200000x16, .f32⟩
  | 71 => ⟨S1003520x1, .i32⟩
  | 72 => ⟨S4x200000x16, .f32⟩
  | 73 => ⟨S4x200000x16, .f32⟩
  | 74 => ⟨S4x200000x1, .f32⟩
  | 75 => ⟨S4x200000x16, .f32⟩
  | 76 => ⟨S4x200000x16, .f32⟩
  | 77 => ⟨S_, .i32⟩
  | 78 => ⟨S1003520, .i32⟩
  | 79 => ⟨S1003520, .i1⟩
  | 80 => ⟨S_, .i32⟩
  | 81 => ⟨S1003520, .i32⟩
  | 82 => ⟨S1003520, .i32⟩
  | 83 => ⟨S1003520, .i32⟩
  | 84 => ⟨S1003520x1, .i32⟩
  | 85 => ⟨S4x1003520x16, .f32⟩
  | 86 => ⟨S4x1003520, .f32⟩
  | 87 => ⟨S4x1003520, .f32⟩
  | 88 => ⟨S4x1003520, .f32⟩
  | 89 => ⟨S4x1003520, .f32⟩
  | 90 => ⟨S_, .f32⟩
  | 91 => ⟨S1003520, .f32⟩
  | 92 => ⟨S_, .f32⟩
  | 93 => ⟨S1003520, .f32⟩
  | 94 => ⟨S1003520, .f32⟩
  | 95 => ⟨S1x1003520, .f32⟩
  | 96 => ⟨S4x1003520, .f32⟩
  | 97 => ⟨S4x1003520, .f32⟩
  | 98 => ⟨S4x1003520, .f32⟩
  | 99 => ⟨S_, .f32⟩
  | 100 => ⟨S1003520, .f32⟩
  | 101 => ⟨S1x1003520, .f32⟩
  | 102 => ⟨S4x1003520, .f32⟩
  | 103 => ⟨S4x1003520, .f32⟩
  | 104 => ⟨S4x1003520, .f32⟩
  | 105 => ⟨S4x1003520, .f32⟩
  | 106 => ⟨S_, .f32⟩
  | 107 => ⟨S200000, .f32⟩
  | 108 => ⟨S1003520x1, .i32⟩
  | 109 => ⟨S4x200000, .f32⟩
  | 110 => ⟨S4x200000, .f32⟩
  | 111 => ⟨S4x200000, .f32⟩
  | 112 => ⟨S_, .f32⟩
  | 113 => ⟨S4x200000, .f32⟩
  | 114 => ⟨S4x200000, .f32⟩
  | 115 => ⟨S4x200000x1, .f32⟩
  | 116 => ⟨S4x200000x16, .f32⟩
  | 117 => ⟨S4x200000x16, .f32⟩
  | 118 => ⟨S_, .i32⟩
  | 119 => ⟨S1003520, .i32⟩
  | 120 => ⟨S1003520, .i1⟩
  | 121 => ⟨S_, .i32⟩
  | 122 => ⟨S1003520, .i32⟩
  | 123 => ⟨S1003520, .i32⟩
  | 124 => ⟨S1003520, .i32⟩
  | 125 => ⟨S1003520x1, .i32⟩
  | 126 => ⟨S4x1003520x16, .f32⟩
  | 127 => ⟨S4x1003520x16, .f32⟩
  | _ => ⟨S100000x64, .f32⟩

abbrev hbmTy0_1 (i : Nat) : BufTy := match i % 128 with
  | 0 => ⟨S_, .f32⟩
  | 1 => ⟨S200000x16, .f32⟩
  | 2 => ⟨S1003520x1, .i32⟩
  | 3 => ⟨S4x200000x16, .f32⟩
  | 4 => ⟨S4x200000x16, .f32⟩
  | 5 => ⟨S4x200000x1, .f32⟩
  | 6 => ⟨S4x200000x16, .f32⟩
  | 7 => ⟨S4x200000x16, .f32⟩
  | 8 => ⟨S_, .i32⟩
  | 9 => ⟨S1003520, .i32⟩
  | 10 => ⟨S1003520, .i1⟩
  | 11 => ⟨S_, .i32⟩
  | 12 => ⟨S1003520, .i32⟩
  | 13 => ⟨S1003520, .i32⟩
  | 14 => ⟨S1003520, .i32⟩
  | 15 => ⟨S1003520x1, .i32⟩
  | 16 => ⟨S4x1003520x16, .f32⟩
  | 17 => ⟨S4x1003520, .f32⟩
  | 18 => ⟨S4x1003520, .f32⟩
  | 19 => ⟨S4x1003520, .f32⟩
  | 20 => ⟨S4x1003520, .f32⟩
  | 21 => ⟨S200000x4x16, .f32⟩
  | 22 => ⟨S200000x64, .f32⟩
  | 23 => ⟨S200000x1x64, .f32⟩
  | 24 => ⟨S200000x1x64, .f32⟩
  | 25 => ⟨S200000x2x64, .f32⟩
  | 26 => ⟨S_, .f32⟩
  | 27 => ⟨S200000x64, .f32⟩
  | 28 => ⟨S_, .f32⟩
  | 29 => ⟨S200000x64, .f32⟩
  | 30 => ⟨S200000x64, .f32⟩
  | 31 => ⟨S100000x64, .f32⟩
  | 32 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4x4096x16, .f32⟩
  | .local _ .vmem, ⟨1, _⟩ => ⟨S4x4096x16, .f32⟩
  | .local _ .vmem, ⟨2, _⟩ => ⟨S4x4096x16, .f32⟩
  | .local _ .vmem, ⟨3, _⟩ => ⟨S4x4096x16, .f32⟩
  | .local _ .vmem, ⟨4, _⟩ => ⟨S4x4096, .f32⟩
  | .local _ .vmem, ⟨5, _⟩ => ⟨S4x4096, .f32⟩
  | .local _ .vmem, ⟨6, _⟩ => ⟨S4x4096x16, .f32⟩
  | .local _ .vmem, ⟨7, _⟩ => ⟨S4x4096x16, .f32⟩
  | .local _ .vmem, ⟨8, _⟩ => ⟨S4x4096x16, .f32⟩
  | .local _ .vmem, ⟨9, _⟩ => ⟨S4x4096x16, .f32⟩
  | .local _ .vmem, ⟨10, _⟩ => ⟨S4x4096x16, .f32⟩
  | .local _ .vmem, ⟨11, _⟩ => ⟨S4x4096x16, .f32⟩
  | .local _ .vmem, ⟨12, _⟩ => ⟨S4x4096x16, .f32⟩
  | .local _ .vmem, ⟨13, _⟩ => ⟨S4x4096x16, .f32⟩
  | .local _ .vmem, ⟨14, _⟩ => ⟨S4x4096, .f32⟩
  | .local _ .vmem, ⟨15, _⟩ => ⟨S4x4096, .f32⟩
  | .local _ .vmem, ⟨16, _⟩ => ⟨S4x4096, .f32⟩
  | .local _ .vmem, ⟨17, _⟩ => ⟨S4x4096, .f32⟩
  | .local _ .vmem, ⟨18, _⟩ => ⟨S4x4096x16, .f32⟩
  | .local _ .vmem, ⟨19, _⟩ => ⟨S4x4096x16, .f32⟩
  | .local _ .vmem, ⟨20, _⟩ => ⟨S4x4096x16, .f32⟩
  | .local _ .vmem, ⟨21, _⟩ => ⟨S4x4096x16, .f32⟩
  | .local _ .vmem, ⟨22, _⟩ => ⟨S4x4096x16, .f32⟩
  | .local _ .vmem, ⟨23, _⟩ => ⟨S4x4096x16, .f32⟩
  | .local _ .vmem, ⟨24, _⟩ => ⟨S4x4096x16, .f32⟩
  | .local _ .vmem, ⟨25, _⟩ => ⟨S4x4096x16, .f32⟩
  | .local _ .vmem, ⟨26, _⟩ => ⟨S4x4096, .f32⟩
  | .local _ .vmem, ⟨27, _⟩ => ⟨S4x4096, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_20 : Ref sig .tc := ⟨.hbm, 118, rfl⟩
abbrev main_v90 : Ref sig .tc := ⟨.hbm, 119, rfl⟩
abbrev main_v91 : Ref sig .tc := ⟨.hbm, 120, rfl⟩
abbrev main_c_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_23 : Ref sig .tc := ⟨.hbm, 136, rfl⟩
abbrev main_v105 : Ref sig .tc := ⟨.hbm, 137, rfl⟩
abbrev main_v106 : Ref sig .tc := ⟨.hbm, 138, rfl⟩
abbrev main_c_24 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_25 : Ref sig .tc := ⟨.hbm, 154, rfl⟩
abbrev main_v121 : Ref sig .tc := ⟨.hbm, 155, rfl⟩
abbrev main_cst_26 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![245], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x4096x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![245], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x4096x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x4096x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![245], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x4096x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x4096x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![245], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4x4096x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x4096x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  pads_S1000000_S1003520_035200 : S1000000.Pads (![0] : Fin 1 → Nat) ![3520] ![0] S1003520
  h_S_ : 0 < S_.numel
  bcast_S_S1000000 : S_.BroadcastsInDim S1000000 (![] : Fin 0 → Fin S1000000.rank)
  bcast_S_S3520 : S_.BroadcastsInDim S3520 (![] : Fin 0 → Fin S3520.rank)
  concatenates_S1000000_S3520_S1003520_d0 : Shape.Concatenates [S1000000, S3520] S1003520 0
  bcast_S1003520_S1x1003520_1 : S1003520.BroadcastsInDim S1x1003520 (![1] : Fin 1 → Fin S1x1003520.rank)
  concatenates_S100000x64_S100000x64_S200000x64_d0 : Shape.Concatenates [S100000x64, S100000x64] S200000x64 0
  shapeCasts_S200000x64_S200000x4x16 : S200000x64.ShapeCasts S200000x4x16
  transposes_S200000x4x16_S4x200000x16_1_0_2 : S200000x4x16.Transposes [1, 0, 2] S4x200000x16
  bcast_S_S4x1003520 : S_.BroadcastsInDim S4x1003520 (![] : Fin 0 → Fin S4x1003520.rank)
  bcast_S_S1003520 : S_.BroadcastsInDim S1003520 (![] : Fin 0 → Fin S1003520.rank)
  bcast_S1003520_S1003520x1_0 : S1003520.BroadcastsInDim S1003520x1 (![0] : Fin 1 → Fin S1003520x1.rank)
  inb_S4x4096x16_S4x4096x16_0_0_0 : ∀ a, (![0, 0, 0] : Fin 3 → Nat) a + S4x4096x16.size a ≤ S4x4096x16.size a
  h_S4x4096x16 : 0 < S4x4096x16.numel
  shapeCasts_S4x4096x16_S4x4096x16 : S4x4096x16.ShapeCasts S4x4096x16
  reduces_S4x4096x16_S4x4096 : S4x4096x16.Reduces [2] S4x4096
  shapeCasts_S4x4096_S4x4096x1 : S4x4096.ShapeCasts S4x4096x1
  broadcasts_S4x4096x1_S4x4096x16 : S4x4096x1.Broadcasts S4x4096x16
  reducesTo_S4x1003520_S1003520_d0 : S4x1003520.ReducesTo [0] S1003520
  bcast_S1x1003520_S4x1003520_0_1 : S1x1003520.BroadcastsInDim S4x1003520 (![0, 1] : Fin 2 → Fin S4x1003520.rank)
  bcast_S_S200000 : S_.BroadcastsInDim S200000 (![] : Fin 0 → Fin S200000.rank)
  bcast_S200000_S4x200000_1 : S200000.BroadcastsInDim S4x200000 (![1] : Fin 1 → Fin S4x200000.rank)
  bcast_S_S4x200000 : S_.BroadcastsInDim S4x200000 (![] : Fin 0 → Fin S4x200000.rank)
  bcast_S4x200000_S4x200000x1_0_1 : S4x200000.BroadcastsInDim S4x200000x1 (![0, 1] : Fin 2 → Fin S4x200000x1.rank)
  bcast_S4x200000x1_S4x200000x16_0_1_2 : S4x200000x1.BroadcastsInDim S4x200000x16 (![0, 1, 2] : Fin 3 → Fin S4x200000x16.rank)
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  bcast_S_S200000x16 : S_.BroadcastsInDim S200000x16 (![] : Fin 0 → Fin S200000x16.rank)
  bcast_S200000x16_S4x200000x16_1_2 : S200000x16.BroadcastsInDim S4x200000x16 (![1, 2] : Fin 2 → Fin S4x200000x16.rank)
  transposes_S4x200000x16_S200000x4x16_1_0_2 : S4x200000x16.Transposes [1, 0, 2] S200000x4x16
  shapeCasts_S200000x4x16_S200000x64 : S200000x4x16.ShapeCasts S200000x64
  bcast_S200000x64_S200000x1x64_0_2 : S200000x64.BroadcastsInDim S200000x1x64 (![0, 2] : Fin 2 → Fin S200000x1x64.rank)
  concatenates_S200000x1x64_S200000x1x64_S200000x2x64_d1 : Shape.Concatenates [S200000x1x64, S200000x1x64] S200000x2x64 1
  reducesTo_S200000x2x64_S200000x64_d1 : S200000x2x64.ReducesTo [1] S200000x64
  bcast_S_S200000x64 : S_.BroadcastsInDim S200000x64 (![] : Fin 0 → Fin S200000x64.rank)
  slices_S200000x64_S100000x64_0_0 : S200000x64.Slices ![0, 0] S100000x64
  slices_S200000x64_S100000x64_100000_0 : S200000x64.Slices ![100000, 0] S100000x64
  gather_S4x200000x16_S1003520x1_S4x1003520x16_02_1_n_n_1_1_4116_wf : GatherDims.WF S4x200000x16 S1003520x1 S4x1003520x16 [0, 2] [1] [] [1] [] 1 ![4, 1, 16]
  scatter_S4x200000_S1003520x1_S4x1003520_0_1_1_1_wf : ScatterDims.WF S4x200000 S1003520x1 S4x1003520 [0] [1] [1] 1
  scatter_S4x200000x16_S1003520x1_S4x1003520x16_02_1_1_1_wf : ScatterDims.WF S4x200000x16 S1003520x1 S4x1003520x16 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x16.size a ≤ S4x1003520x16.size a
  hwx0_0 : ∀ i : grid0.Coords, EltTy.bits .f32 = 32 ∨ (Rect.block (s := S4x1003520x16) S4x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4096x16.size a ≤ S4x1003520x16.size a
  hwx0_1 : ∀ i : grid0.Coords, EltTy.bits .f32 = 32 ∨ (Rect.block (s := S4x1003520x16) S4x4096x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x4096.size a ≤ S4x1003520.size a
  hwx1_0 : ∀ i : grid1.Coords, EltTy.bits .f32 = 32 ∨ (Rect.block (s := S4x1003520) S4x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x4096x16.size a ≤ S4x1003520x16.size a
  hwx1_1 : ∀ i : grid1.Coords, EltTy.bits .f32 = 32 ∨ (Rect.block (s := S4x1003520x16) S4x4096x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x4096x16.size a ≤ S4x1003520x16.size a
  hwx1_2 : ∀ i : grid1.Coords, EltTy.bits .f32 = 32 ∨ (Rect.block (s := S4x1003520x16) S4x4096x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x4096x16.size a ≤ S4x1003520x16.size a
  hwx2_0 : ∀ i : grid2.Coords, EltTy.bits .f32 = 32 ∨ (Rect.block (s := S4x1003520x16) S4x4096x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x4096x16.size a ≤ S4x1003520x16.size a
  hwx2_1 : ∀ i : grid2.Coords, EltTy.bits .f32 = 32 ∨ (Rect.block (s := S4x1003520x16) S4x4096x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x4096.size a ≤ S4x1003520.size a
  hwx2_2 : ∀ i : grid2.Coords, EltTy.bits .f32 = 32 ∨ (Rect.block (s := S4x1003520) S4x4096.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x4096.size a ≤ S4x1003520.size a
  hwx3_0 : ∀ i : grid3.Coords, EltTy.bits .f32 = 32 ∨ (Rect.block (s := S4x1003520) S4x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x4096x16.size a ≤ S4x1003520x16.size a
  hwx3_1 : ∀ i : grid3.Coords, EltTy.bits .f32 = 32 ∨ (Rect.block (s := S4x1003520x16) S4x4096x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x4096x16.size a ≤ S4x1003520x16.size a
  hwx3_2 : ∀ i : grid3.Coords, EltTy.bits .f32 = 32 ∨ (Rect.block (s := S4x1003520x16) S4x4096x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4x4096x16.size a ≤ S4x1003520x16.size a
  hwx4_0 : ∀ i : grid4.Coords, EltTy.bits .f32 = 32 ∨ (Rect.block (s := S4x1003520x16) S4x4096x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4x4096x16.size a ≤ S4x1003520x16.size a
  hwx4_1 : ∀ i : grid4.Coords, EltTy.bits .f32 = 32 ∨ (Rect.block (s := S4x1003520x16) S4x4096x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4x4096.size a ≤ S4x1003520.size a
  hwx4_2 : ∀ i : grid4.Coords, EltTy.bits .f32 = 32 ∨ (Rect.block (s := S4x1003520) S4x4096.size (cc4_transform_2 i) (hinb4_2 i)).WholeWords (EltTy.packing .f32)

variable [Facts₀]

def gather_S4x200000x16_S1003520x1_S4x1003520x16_02_1_n_n_1_1_4116 : GatherDims S4x200000x16 S1003520x1 S4x1003520x16 where
  offsetDims := [0, 2]
  collapsedSliceDims := [1]
  operandBatchingDims := []
  startIndicesBatchingDims := []
  startIndexMap := [1]
  indexVectorDim := 1
  sliceSizes := ![4, 1, 16]
  wf := gather_S4x200000x16_S1003520x1_S4x1003520x16_02_1_n_n_1_1_4116_wf
def scatter_S4x200000_S1003520x1_S4x1003520_0_1_1_1 : ScatterDims S4x200000 S1003520x1 S4x1003520 where
  updateWindowDims := [0]
  insertedWindowDims := [1]
  scatterDimsToOperandDims := [1]
  indexVectorDim := 1
  wf := scatter_S4x200000_S1003520x1_S4x1003520_0_1_1_1_wf
def scatter_S4x200000x16_S1003520x1_S4x1003520x16_02_1_1_1 : ScatterDims S4x200000x16 S1003520x1 S4x1003520x16 where
  updateWindowDims := [0, 2]
  insertedWindowDims := [1]
  scatterDimsToOperandDims := [1]
  indexVectorDim := 1
  wf := scatter_S4x200000x16_S1003520x1_S4x1003520x16_02_1_1_1_wf

abbrev win0_0 : Pipeline.Window sig grid0 :=
  Pipeline.Window.ofSpec (Memref.whole main_v16) S4x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x4096x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v30) S4x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4x4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4x4096x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S4x4096x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4x4096x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S4x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S4x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S4x4096x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S4x4096x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v111) S4x4096x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S4x4096x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v112) S4x4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S1000000 : Shape := ⟨1, ![1000000]⟩
abbrev S_ : Shape := ⟨0, ![]⟩
abbrev S4x1000000 : Shape := ⟨2, ![4, 1000000]⟩
abbrev S200000x64 : Shape := ⟨2, ![200000, 64]⟩
abbrev S200000x4x16 : Shape := ⟨3, ![200000, 4, 16]⟩
abbrev S4x200000x16 : Shape := ⟨3, ![4, 200000, 16]⟩
abbrev S1x1000000 : Shape := ⟨2, ![1, 1000000]⟩
abbrev S200000 : Shape := ⟨1, ![200000]⟩
abbrev S1000000x1 : Shape := ⟨2, ![1000000, 1]⟩
abbrev S4x200000 : Shape := ⟨2, ![4, 200000]⟩
abbrev S4x1000000x1 : Shape := ⟨3, ![4, 1000000, 1]⟩
abbrev S4x200000x1 : Shape := ⟨3, ![4, 200000, 1]⟩
abbrev S4x1000000x16 : Shape := ⟨3, ![4, 1000000, 16]⟩
abbrev S200000x16 : Shape := ⟨2, ![200000, 16]⟩
abbrev S200000x1x64 : Shape := ⟨3, ![200000, 1, 64]⟩
abbrev S200000x2x64 : Shape := ⟨3, ![200000, 2, 64]⟩

abbrev nBuf : Space → Nat
  | .hbm => 199
  | .vmem => 0
  | .smem => 0
  | _ => 0

abbrev hbmTy0_0 (i : Nat) : BufTy := match i % 128 with
  | 0 => ⟨S100000x64, .f32⟩
  | 1 => ⟨S100000x64, .f32⟩
  | 2 => ⟨S1000000, .i32⟩
  | 3 => ⟨S1000000, .i32⟩
  | 4 => ⟨S_, .f32⟩
  | 5 => ⟨S4x1000000, .f32⟩
  | 6 => ⟨S200000x64, .f32⟩
  | 7 => ⟨S200000x4x16, .f32⟩
  | 8 => ⟨S4x200000x16, .f32⟩
  | 9 => ⟨S_, .f32⟩
  | 10 => ⟨S1000000, .f32⟩
  | 11 => ⟨S_, .f32⟩
  | 12 => ⟨S1000000, .f32⟩
  | 13 => ⟨S1000000, .f32⟩
  | 14 => ⟨S1x1000000, .f32⟩
  | 15 => ⟨S4x1000000, .f32⟩
  | 16 => ⟨S4x1000000, .f32⟩
  | 17 => ⟨S4x1000000, .f32⟩
  | 18 => ⟨S_, .f32⟩
  | 19 => ⟨S1000000, .f32⟩
  | 20 => ⟨S1x1000000, .f32⟩
  | 21 => ⟨S4x1000000, .f32⟩
  | 22 => ⟨S4x1000000, .f32⟩
  | 23 => ⟨S_, .f32⟩
  | 24 => ⟨S200000, .f32⟩
  | 25 => ⟨S1000000x1, .i32⟩
  | 26 => ⟨S4x200000, .f32⟩
  | 27 => ⟨S4x200000, .f32⟩
  | 28 => ⟨S4x200000, .f32⟩
  | 29 => ⟨S_, .f32⟩
  | 30 => ⟨S4x200000, .f32⟩
  | 31 => ⟨S4x200000, .f32⟩
  | 32 => ⟨S4x1000000x1, .f32⟩
  | 33 => ⟨S4x200000x1, .f32⟩
  | 34 => ⟨S4x200000x16, .f32⟩
  | 35 => ⟨S4x200000x16, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S4x1000000x16, .f32⟩
  | 45 => ⟨S4x1000000x16, .f32⟩
  | 46 => ⟨S4x1000000x16, .f32⟩
  | 47 => ⟨S4x200000x1, .f32⟩
  | 48 => ⟨S_, .f32⟩
  | 49 => ⟨S200000x16, .f32⟩
  | 50 => ⟨S1000000x1, .i32⟩
  | 51 => ⟨S4x200000x16, .f32⟩
  | 52 => ⟨S4x200000x16, .f32⟩
  | 53 => ⟨S4x200000x16, .f32⟩
  | 54 => ⟨S4x200000x16, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S4x1000000x16, .f32⟩
  | 64 => ⟨S4x1000000x16, .f32⟩
  | 65 => ⟨S_, .f32⟩
  | 66 => ⟨S4x1000000, .f32⟩
  | 67 => ⟨S4x1000000x1, .f32⟩
  | 68 => ⟨S4x1000000x1, .f32⟩
  | 69 => ⟨S_, .f32⟩
  | 70 => ⟨S4x1000000x1, .f32⟩
  | 71 => ⟨S4x1000000x1, .f32⟩
  | 72 => ⟨S4x1000000x16, .f32⟩
  | 73 => ⟨S4x1000000x16, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S4x1000000x16, .f32⟩
  | 83 => ⟨S4x1000000x16, .f32⟩
  | 84 => ⟨S_, .f32⟩
  | 85 => ⟨S4x1000000, .f32⟩
  | 86 => ⟨S4x1000000x1, .f32⟩
  | 87 => ⟨S4x1000000x1, .f32⟩
  | 88 => ⟨S_, .f32⟩
  | 89 => ⟨S4x1000000x1, .f32⟩
  | 90 => ⟨S4x1000000x1, .f32⟩
  | 91 => ⟨S4x1000000x16, .f32⟩
  | 92 => ⟨S4x1000000x16, .f32⟩
  | 93 => ⟨S4x1000000x16, .f32⟩
  | 94 => ⟨S4x1000000x16, .f32⟩
  | 95 => ⟨S_, .f32⟩
  | 96 => ⟨S4x1000000, .f32⟩
  | 97 => ⟨S4x1000000, .f32⟩
  | 98 => ⟨S_, .f32⟩
  | 99 => ⟨S1000000, .f32⟩
  | 100 => ⟨S_, .f32⟩
  | 101 => ⟨S1000000, .f32⟩
  | 102 => ⟨S1000000, .f32⟩
  | 103 => ⟨S1x1000000, .f32⟩
  | 104 => ⟨S4x1000000, .f32⟩
  | 105 => ⟨S4x1000000, .f32⟩
  | 106 => ⟨S4x1000000, .f32⟩
  | 107 => ⟨S_, .f32⟩
  | 108 => ⟨S1000000, .f32⟩
  | 109 => ⟨S1x1000000, .f32⟩
  | 110 => ⟨S4x1000000, .f32⟩
  | 111 => ⟨S4x1000000, .f32⟩
  | 112 => ⟨S_, .f32⟩
  | 113 => ⟨S200000, .f32⟩
  | 114 => ⟨S1000000x1, .i32⟩
  | 115 => ⟨S4x200000, .f32⟩
  | 116 => ⟨S4x200000, .f32⟩
  | 117 => ⟨S4x200000, .f32⟩
  | 118 => ⟨S_, .f32⟩
  | 119 => ⟨S4x200000, .f32⟩
  | 120 => ⟨S4x200000, .f32⟩
  | 121 => ⟨S4x1000000x1, .f32⟩
  | 122 => ⟨S4x200000x1, .f32⟩
  | 123 => ⟨S4x200000x16, .f32⟩
  | 124 => ⟨S4x200000x16, .f32⟩
  | 125 => ⟨S_, .i32⟩
  | 126 => ⟨S1000000, .i32⟩
  | 127 => ⟨S1000000, .i1⟩
  | _ => ⟨S100000x64, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S4x1000000x16, .f32⟩
  | 6 => ⟨S4x1000000x16, .f32⟩
  | 7 => ⟨S4x1000000x16, .f32⟩
  | 8 => ⟨S4x200000x1, .f32⟩
  | 9 => ⟨S_, .f32⟩
  | 10 => ⟨S200000x16, .f32⟩
  | 11 => ⟨S1000000x1, .i32⟩
  | 12 => ⟨S4x200000x16, .f32⟩
  | 13 => ⟨S4x200000x16, .f32⟩
  | 14 => ⟨S4x200000x16, .f32⟩
  | 15 => ⟨S4x200000x16, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S4x1000000x16, .f32⟩
  | 25 => ⟨S4x1000000x16, .f32⟩
  | 26 => ⟨S_, .f32⟩
  | 27 => ⟨S4x1000000, .f32⟩
  | 28 => ⟨S4x1000000x1, .f32⟩
  | 29 => ⟨S4x1000000x1, .f32⟩
  | 30 => ⟨S_, .f32⟩
  | 31 => ⟨S4x1000000x1, .f32⟩
  | 32 => ⟨S4x1000000x1, .f32⟩
  | 33 => ⟨S4x1000000x16, .f32⟩
  | 34 => ⟨S4x1000000x16, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S4x1000000x16, .f32⟩
  | 44 => ⟨S4x1000000x16, .f32⟩
  | 45 => ⟨S_, .f32⟩
  | 46 => ⟨S4x1000000, .f32⟩
  | 47 => ⟨S4x1000000x1, .f32⟩
  | 48 => ⟨S4x1000000x1, .f32⟩
  | 49 => ⟨S_, .f32⟩
  | 50 => ⟨S4x1000000x1, .f32⟩
  | 51 => ⟨S4x1000000x1, .f32⟩
  | 52 => ⟨S4x1000000x16, .f32⟩
  | 53 => ⟨S4x1000000x16, .f32⟩
  | 54 => ⟨S4x1000000x16, .f32⟩
  | 55 => ⟨S4x1000000x16, .f32⟩
  | 56 => ⟨S_, .f32⟩
  | 57 => ⟨S4x1000000, .f32⟩
  | 58 => ⟨S4x1000000, .f32⟩
  | 59 => ⟨S200000x4x16, .f32⟩
  | 60 => ⟨S200000x64, .f32⟩
  | 61 => ⟨S200000x1x64, .f32⟩
  | 62 => ⟨S200000x1x64, .f32⟩
  | 63 => ⟨S200000x2x64, .f32⟩
  | 64 => ⟨S_, .f32⟩
  | 65 => ⟨S200000x64, .f32⟩
  | 66 => ⟨S_, .f32⟩
  | 67 => ⟨S200000x64, .f32⟩
  | 68 => ⟨S200000x64, .f32⟩
  | 69 => ⟨S100000x64, .f32⟩
  | 70 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_c_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_21 : Ref sig .tc := ⟨.hbm, 125, rfl⟩
abbrev main_v98 : Ref sig .tc := ⟨.hbm, 126, rfl⟩
abbrev main_v99 : Ref sig .tc := ⟨.hbm, 127, rfl⟩
abbrev main_c_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_23 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_24 : Ref sig .tc := ⟨.hbm, 144, rfl⟩
abbrev main_v114 : Ref sig .tc := ⟨.hbm, 145, rfl⟩
abbrev main_v115 : Ref sig .tc := ⟨.hbm, 146, rfl⟩
abbrev main_c_25 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_26 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_27 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_28 : Ref sig .tc := ⟨.hbm, 163, rfl⟩
abbrev main_v129 : Ref sig .tc := ⟨.hbm, 164, rfl⟩
abbrev main_v130 : Ref sig .tc := ⟨.hbm, 165, rfl⟩
abbrev main_c_29 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_30 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_31 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_32 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_33 : Ref sig .tc := ⟨.hbm, 192, rfl⟩
abbrev main_v153 : Ref sig .tc := ⟨.hbm, 193, rfl⟩
abbrev main_cst_34 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩

abbrev nD : Nat := 1
abbrev τ : Topo := Topo.v7x

variable {F : FTy → Type} [FloatOps F]

class Facts₀ : Prop where
  bcast_S_S4x1000000 : S_.BroadcastsInDim S4x1000000 (![] : Fin 0 → Fin S4x1000000.rank)
  concatenates_S100000x64_S100000x64_S200000x64_d0 : Shape.Concatenates [S100000x64, S100000x64] S200000x64 0
  shapeCasts_S200000x64_S200000x4x16 : S200000x64.ShapeCasts S200000x4x16
  transposes_S200000x4x16_S4x200000x16_1_0_2 : S200000x4x16.Transposes [1, 0, 2] S4x200000x16
  reducesTo_S4x1000000_S1000000_d0 : S4x1000000.ReducesTo [0] S1000000
  h_S_ : 0 < S_.numel
  bcast_S_S1000000 : S_.BroadcastsInDim S1000000 (![] : Fin 0 → Fin S1000000.rank)
  bcast_S1000000_S1x1000000_1 : S1000000.BroadcastsInDim S1x1000000 (![1] : Fin 1 → Fin S1x1000000.rank)
  bcast_S1x1000000_S4x1000000_0_1 : S1x1000000.BroadcastsInDim S4x1000000 (![0, 1] : Fin 2 → Fin S4x1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S200000_S4x200000_1 : S200000.BroadcastsInDim S4x200000 (![1] : Fin 1 → Fin S4x200000.rank)
  bcast_S_S4x200000 : S_.BroadcastsInDim S4x200000 (![] : Fin 0 → Fin S4x200000.rank)
  bcast_S4x1000000_S4x1000000x1_0_1 : S4x1000000.BroadcastsInDim S4x1000000x1 (![0, 1] : Fin 2 → Fin S4x1000000x1.rank)
  bcast_S4x200000_S4x200000x1_0_1 : S4x200000.BroadcastsInDim S4x200000x1 (![0, 1] : Fin 2 → Fin S4x200000x1.rank)
  bcast_S4x200000x1_S4x200000x16_0_1_2 : S4x200000x1.BroadcastsInDim S4x200000x16 (![0, 1, 2] : Fin 3 → Fin S4x200000x16.rank)
  bcast_S4x1000000x1_S4x1000000x16_0_1_2 : S4x1000000x1.BroadcastsInDim S4x1000000x16 (![0, 1, 2] : Fin 3 → Fin S4x1000000x16.rank)
  bcast_S_S200000x16 : S_.BroadcastsInDim S200000x16 (![] : Fin 0 → Fin S200000x16.rank)
  bcast_S200000x16_S4x200000x16_1_2 : S200000x16.BroadcastsInDim S4x200000x16 (![1, 2] : Fin 2 → Fin S4x200000x16.rank)
  reducesTo_S4x1000000x16_S4x1000000_d2 : S4x1000000x16.ReducesTo [2] S4x1000000
  bcast_S_S4x1000000x1 : S_.BroadcastsInDim S4x1000000x1 (![] : Fin 0 → Fin S4x1000000x1.rank)
  transposes_S4x200000x16_S200000x4x16_1_0_2 : S4x200000x16.Transposes [1, 0, 2] S200000x4x16
  shapeCasts_S200000x4x16_S200000x64 : S200000x4x16.ShapeCasts S200000x64
  bcast_S200000x64_S200000x1x64_0_2 : S200000x64.BroadcastsInDim S200000x1x64 (![0, 2] : Fin 2 → Fin S200000x1x64.rank)
  concatenates_S200000x1x64_S200000x1x64_S200000x2x64_d1 : Shape.Concatenates [S200000x1x64, S200000x1x64] S200000x2x64 1
  reducesTo_S200000x2x64_S200000x64_d1 : S200000x2x64.ReducesTo [1] S200000x64
  bcast_S_S200000x64 : S_.BroadcastsInDim S200000x64 (![] : Fin 0 → Fin S200000x64.rank)
  slices_S200000x64_S100000x64_0_0 : S200000x64.Slices ![0, 0] S100000x64
  slices_S200000x64_S100000x64_100000_0 : S200000x64.Slices ![100000, 0] S100000x64
  scatter_S4x200000_S1000000x1_S4x1000000_0_1_1_1_wf : ScatterDims.WF S4x200000 S1000000x1 S4x1000000 [0] [1] [1] 1
  gather_S4x200000x16_S1000000x1_S4x1000000x16_02_1_n_n_1_1_4116_wf : GatherDims.WF S4x200000x16 S1000000x1 S4x1000000x16 [0, 2] [1] [] [1] [] 1 ![4, 1, 16]
  scatter_S4x200000x16_S1000000x1_S4x1000000x16_02_1_1_1_wf : ScatterDims.WF S4x200000x16 S1000000x1 S4x1000000x16 [0, 2] [1] [1] 1

variable [Facts₀]

def scatter_S4x200000_S1000000x1_S4x1000000_0_1_1_1 : ScatterDims S4x200000 S1000000x1 S4x1000000 where
  updateWindowDims := [0]
  insertedWindowDims := [1]
  scatterDimsToOperandDims := [1]
  indexVectorDim := 1
  wf := scatter_S4x200000_S1000000x1_S4x1000000_0_1_1_1_wf
def gather_S4x200000x16_S1000000x1_S4x1000000x16_02_1_n_n_1_1_4116 : GatherDims S4x200000x16 S1000000x1 S4x1000000x16 where
  offsetDims := [0, 2]
  collapsedSliceDims := [1]
  operandBatchingDims := []
  startIndicesBatchingDims := []
  startIndexMap := [1]
  indexVectorDim := 1
  sliceSizes := ![4, 1, 16]
  wf := gather_S4x200000x16_S1000000x1_S4x1000000x16_02_1_n_n_1_1_4116_wf
def scatter_S4x200000x16_S1000000x1_S4x1000000x16_02_1_1_1 : ScatterDims S4x200000x16 S1000000x1 S4x1000000x16 where
  updateWindowDims := [0, 2]
  insertedWindowDims := [1]
  scatterDimsToOperandDims := [1]
  indexVectorDim := 1
  wf := scatter_S4x200000x16_S1000000x1_S4x1000000x16_02_1_1_1_wf

class Facts : Prop extends Facts₀ where

variable [Facts]
-- ==== Proof.KernelRun.lean ====
/-
  The kernel's run with its two results: every weakly fair execution of @main on the TensorCores ends with each
  result buffer, and each argument, at what the fold of buffer contents through @main's segments leaves there.
  The fold's last value is Gen.W15; the arguments end as launched.
-/
import proofs.«141132_j64287070486722_2_alg».proof.Proof.Gen.KernelIdeal.Frame

set_option maxRecDepth 16384

noncomputable section

namespace Cert.KernelIdeal.Read

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- The run over @main's segments, read at the two result buffers as well as at the arguments: the segments' chain ends
    with every unscoped buffer at the last boundary's contents, and the results are unscoped buffers. -/
theorem run_results : θ_run defs (onTc (τ := τ) (main (F := F))) ⟨m, fun _ => 0, ρ⟩ (fun r => ∀ c : Dev nD,
      r.2.mem ((c.tc : Thread nD τ).loc main_v124) = Gen.W15 m ρ c (Proc.devRef .tc main_v124)
      ∧ r.2.mem ((c.tc : Thread nD τ).loc main_v125) = Gen.W15 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v124 (by decide)),
       h c _ (mem_uc main_v125 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c)⟩)

end Cert.KernelIdeal.Read

end
-- ==== Proof.StagesK.lean ====
/-
  The idealized kernel's host side as whole-array stage functions.

  The program pads the edge list from 1,000,000 to 1,003,520 entries with self-loops at node 0 and carries a row mask
  that is 1 on the true edges and 0 on the padding.  One round of message passing is, per factor k:
    scores  = softmax over the four factors of the edge logits, times the mask;
    dcol    = 1 / sqrt (sum over the edges into a node of scores);
    message = scores(edge) * (dcol * ego)(tail of the edge)            (a kernel region);
    factor  = dcol * (sum over the edges into a node of message);
    logits' = logits + mask * sum over the 16 lanes of normalize(factor at the head) * tanh(normalize(ego at the tail))
                                                                        (two kernel regions).
  Each definition below is one stretch of host operations as a function of the arrays it reads.
-/
import proofs.«141132_j64287070486722_2_alg».proof.KernelIdeal
import proofs.«141132_j64287070486722_2_alg».proof.Proof.Gen.KernelIdeal

noncomputable section

namespace Cert.KernelIdeal.Stage

open Cert.KernelIdeal Cert.KernelIdeal.Gen Idealize.ShloMosaic

variable {F : FTy → Type} [FloatOps F]

/-- Float arrays of a shape. -/
abbrev Arr (S : Shape) : Type := (⟨S, .f32⟩ : BufTy).Contents (Elt F)
/-- 32-bit integer arrays of a shape. -/
abbrev IArr (S : Shape) : Type := (⟨S, .i32⟩ : BufTy).Contents (Elt F)

/-- The mask row: ones on the 1,000,000 true edges, zeros on the 3,520 padded ones. -/
def maskRow : Arr (F := F) S1x1003520 :=
  broadcastInDim S1x1003520 ![1] bcast_S1003520_S1x1003520_1
    (concatenate S1003520 0 [⟨S1000000, broadcastInDim S1000000 ![] bcast_S_S1000000 (constant S_ .f32 0x3F800000#32)⟩,
      ⟨S3520, broadcastInDim S3520 ![] bcast_S_S3520 (constant S_ .f32 0x00000000#32)⟩] concatenates_S1000000_S3520_S1003520_d0)

/-- The mask spread over the four factors. -/
def maskAll : Arr (F := F) S4x1003520 := broadcastInDim S4x1003520 ![0, 1] bcast_S1x1003520_S4x1003520_0_1 maskRow

/-- An edge-index vector padded with zeros to the padded edge count. -/
def padIdx (x : IArr (F := F) S1000000) : IArr (F := F) S1003520 :=
  pad S1003520 ![0] ![3520] ![0] x (constantI S_ 32 0#32) pads_S1000000_S1003520_035200 h_S_

/-- Users stacked on items. -/
def allEmb (a0 a1 : Arr (F := F) S100000x64) : Arr (F := F) S200000x64 :=
  concatenate S200000x64 0 [⟨S100000x64, a0⟩, ⟨S100000x64, a1⟩] concatenates_S100000x64_S100000x64_S200000x64_d0

/-- The embedding split into four factors of sixteen lanes, factor axis first. -/
def ego (e : Arr (F := F) S200000x64) : Arr (F := F) S4x200000x16 :=
  transpose S4x200000x16 [1, 0, 2] (shapeCast _ e shapeCasts_S200000x64_S200000x4x16) transposes_S200000x4x16_S4x200000x16_1_0_2

/-- The initial edge logits: all ones. -/
def ones : Arr (F := F) S4x1003520 := broadcastInDim S4x1003520 ![] bcast_S_S4x1003520 (constant S_ .f32 0x3F800000#32)

/-- A node-index vector with negative entries wrapped by the node count, as an index column. -/
def wrapCol (w : IArr (F := F) S1003520) : IArr (F := F) S1003520x1 :=
  broadcastInDim S1003520x1 ![0] bcast_S1003520_S1003520x1_0
    (select (cmpi .slt w (broadcastInDim S1003520 ![] bcast_S_S1003520 (constantI S_ 32 0#32)))
      (addi w (broadcastInDim S1003520 ![] bcast_S_S1003520 (constantI S_ 32 200000#32))) w)

/-- The rows of a per-node array at the nodes an index vector names, per factor. -/
def rowsAt (x : Arr (F := F) S4x200000x16) (w : IArr (F := F) S1003520) : Arr (F := F) S4x1003520x16 :=
  Host.gather gather_S4x200000x16_S1003520x1_S4x1003520x16_02_1_n_n_1_1_4116 x (wrapCol w)

/-- The exponentials of the logits shifted by their maximum over the four factors. -/
def expShift (fv : Arr (F := F) S4x1003520) : Arr (F := F) S4x1003520 :=
  Host.exp (subf fv (broadcastInDim S4x1003520 ![0, 1] bcast_S1x1003520_S4x1003520_0_1
    (broadcastInDim S1x1003520 ![1] bcast_S1003520_S1x1003520_1
      (maximumf (broadcastInDim S1003520 ![] bcast_S_S1003520 (constant S_ .f32 0xFF800000#32))
        (Host.reduce FloatOps.maximumf fv (constant S_ .f32 0xFF800000#32) reducesTo_S4x1003520_S1003520_d0 h_S_)))))

/-- Softmax over the four factors. -/
def softmax (fv : Arr (F := F) S4x1003520) : Arr (F := F) S4x1003520 :=
  Host.divf (expShift fv) (broadcastInDim S4x1003520 ![0, 1] bcast_S1x1003520_S4x1003520_0_1
    (broadcastInDim S1x1003520 ![1] bcast_S1003520_S1x1003520_1
      (Host.reduceAdd (expShift fv) (constant S_ .f32 0x00000000#32) reducesTo_S4x1003520_S1003520_d0 h_S_)))

/-- The masked edge scores. -/
def scores (fv : Arr (F := F) S4x1003520) : Arr (F := F) S4x1003520 := mulf (softmax fv) maskAll

/-- An index vector as an index column. -/
def col (w : IArr (F := F) S1003520) : IArr (F := F) S1003520x1 := broadcastInDim S1003520x1 ![0] bcast_S1003520_S1003520x1_0 w

/-- Per factor and node, the sum of an edge quantity over the edges whose head is the node. -/
def seg2 (hd : IArr (F := F) S1003520) (u : Arr (F := F) S4x1003520) : Arr (F := F) S4x200000 :=
  Host.scatterAdd scatter_S4x200000_S1003520x1_S4x1003520_0_1_1_1
    (broadcastInDim S4x200000 ![1] bcast_S200000_S4x200000_1 (broadcastInDim S200000 ![] bcast_S_S200000 (constant S_ .f32 0x00000000#32)))
    (col hd) u

/-- One over the square root of a per-node quantity. -/
def invSqrt (x : Arr (F := F) S4x200000) : Arr (F := F) S4x200000 :=
  Host.divf (broadcastInDim S4x200000 ![] bcast_S_S4x200000 (constant S_ .f32 0x3F800000#32)) (Host.sqrt x)

/-- The degree normaliser of a round. -/
def dcol (hd : IArr (F := F) S1003520) (s : Arr (F := F) S4x1003520) : Arr (F := F) S4x200000 := invSqrt (seg2 hd s)

/-- A per-node factor spread over the sixteen lanes, times a per-node array. -/
def scale (d : Arr (F := F) S4x200000) (x : Arr (F := F) S4x200000x16) : Arr (F := F) S4x200000x16 :=
  mulf (broadcastInDim S4x200000x16 ![0, 1, 2] bcast_S4x200000x1_S4x200000x16_0_1_2
    (broadcastInDim S4x200000x1 ![0, 1] bcast_S4x200000_S4x200000x1_0_1 d)) x

/-- Per factor, node and lane, the sum of an edge quantity over the edges whose head is the node. -/
def seg3 (hd : IArr (F := F) S1003520) (u : Arr (F := F) S4x1003520x16) : Arr (F := F) S4x200000x16 :=
  Host.scatterAdd scatter_S4x200000x16_S1003520x1_S4x1003520x16_02_1_1_1
    (broadcastInDim S4x200000x16 ![1, 2] bcast_S200000x16_S4x200000x16_1_2 (broadcastInDim S200000x16 ![] bcast_S_S200000x16 (constant S_ .f32 0x00000000#32)))
    (col hd) u

/-- The logits after a round: the old ones plus the masked update. -/
def nextLogits (fv delta : Arr (F := F) S4x1003520) : Arr (F := F) S4x1003520 := addf fv (mulf delta maskAll)

/-- The mean of the input embedding and the round's factor embedding laid back as 64 lanes. -/
def outMean (e : Arr (F := F) S200000x64) (fe : Arr (F := F) S4x200000x16) : Arr (F := F) S200000x64 :=
  Host.divf
    (Host.reduceAdd
      (concatenate S200000x2x64 1
        [⟨S200000x1x64, broadcastInDim S200000x1x64 ![0, 2] bcast_S200000x64_S200000x1x64_0_2 e⟩,
         ⟨S200000x1x64, broadcastInDim S200000x1x64 ![0, 2] bcast_S200000x64_S200000x1x64_0_2
            (shapeCast _ (transpose S200000x4x16 [1, 0, 2] fe transposes_S4x200000x16_S200000x4x16_1_0_2) shapeCasts_S200000x4x16_S200000x64)⟩]
        concatenates_S200000x1x64_S200000x1x64_S200000x2x64_d1)
      (constant S_ .f32 0x00000000#32) reducesTo_S200000x2x64_S200000x64_d1 h_S_)
    (broadcastInDim S200000x64 ![] bcast_S_S200000x64 (constant S_ .f32 0x40000000#32))

/-- The user half of the result. -/
def outUsers (x : Arr (F := F) S200000x64) : Arr (F := F) S100000x64 :=
  extractStridedSlice S100000x64 ![0, 0] x slices_S200000x64_S100000x64_0_0
/-- The item half of the result. -/
def outItems (x : Arr (F := F) S200000x64) : Arr (F := F) S100000x64 :=
  extractStridedSlice S100000x64 ![100000, 0] x slices_S200000x64_S100000x64_100000_0

end Cert.KernelIdeal.Stage

end
-- ==== Proof.KernelReadOps0.lean ====
/-
  The host operations before the first kernel region, read as whole-array functions of an arbitrary buffer
  valuation V: the two edge-index vectors padded with zeros, the mask row, the stacked embedding, its split
  into four factors, the initial logits, and the factor rows gathered at the edge tails.
-/
import proofs.«141132_j64287070486722_2_alg».proof.Proof.Gen.KernelIdeal.Frame
import proofs.«141132_j64287070486722_2_alg».proof.Proof.StagesK

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]
variable (V : Valuation τ sig (Elt F))

/-- The buffers that the first zero constant's operation write. -/
abbrev wr00 : List (Ref sig .tc) := [main_c]
theorem writes00 : (hostOps0 : List (HloOp τ sig (Elt F))).Forall fun op => op.writes ⊆ (wr00.map (Proc.devRef (τ := τ) .tc)).toFinset := by
  simp only [hostOps0, List.Forall]
  repeat' apply And.intro
  all_goals
    simp only [nullary_writes, unary_writes, binary_writes, ternary_writes, reshape_writes, Finset.singleton_subset_iff, List.mem_toFinset]
    exact List.mem_map_of_mem (by decide)
/-- A buffer that the first zero constant's operation do not write keeps its contents through them. -/
theorem keep00 (r : Ref sig .tc) (h : r ∉ wr00) :
    after hostOps0 V (Proc.devRef .tc r) = V (Proc.devRef .tc r) :=
  after_of_writes_sub hostOps0 V writes00 h

theorem ops00_c : after hostOps0 V (Proc.devRef .tc main_c) = (constantI S_ 32 0#32 : Stage.IArr (F := F) S_) := by
  simp only [hostOps0]
  after_results

/-- The buffers that the operations padding the edge heads write. -/
abbrev wr01 : List (Ref sig .tc) := [main_call0_v0, main_v0]
theorem writes01 : (hostOps0_1 : List (HloOp τ sig (Elt F))).Forall fun op => op.writes ⊆ (wr01.map (Proc.devRef (τ := τ) .tc)).toFinset := by
  simp only [hostOps0_1, List.Forall]
  repeat' apply And.intro
  all_goals
    simp only [nullary_writes, unary_writes, binary_writes, ternary_writes, reshape_writes, Finset.singleton_subset_iff, List.mem_toFinset]
    exact List.mem_map_of_mem (by decide)
/-- A buffer that the operations padding the edge heads do not write keeps its contents through them. -/
theorem keep01 (r : Ref sig .tc) (h : r ∉ wr01) :
    after hostOps0_1 V (Proc.devRef .tc r) = V (Proc.devRef .tc r) :=
  after_of_writes_sub hostOps0_1 V writes01 h

/-- The padded head vector: the head argument padded by the zero scalar. -/
theorem ops01_v0 (x : Stage.IArr (F := F) S1000000)
    (hc : V (Proc.devRef .tc main_c) = (constantI S_ 32 0#32 : Stage.IArr (F := F) S_)) (hx : V (Proc.devRef .tc main_arg2) = x) :
    after hostOps0_1 V (Proc.devRef .tc main_v0) = Stage.padIdx x := by
  simp only [hostOps0_1]
  after_results
  rw [hc, hx]
  rfl

/-- The buffers that the second zero constant's operation write. -/
abbrev wr02 : List (Ref sig .tc) := [main_c_0]
theorem writes02 : (hostOps0_2 : List (HloOp τ sig (Elt F))).Forall fun op => op.writes ⊆ (wr02.map (Proc.devRef (τ := τ) .tc)).toFinset := by
  simp only [hostOps0_2, List.Forall]
  repeat' apply And.intro
  all_goals
    simp only [nullary_writes, unary_writes, binary_writes, ternary_writes, reshape_writes, Finset.singleton_subset_iff, List.mem_toFinset]
    exact List.mem_map_of_mem (by decide)
/-- A buffer that the second zero constant's operation do not write keeps its contents through them. -/
theorem keep02 (r : Ref sig .tc) (h : r ∉ wr02) :
    after hostOps0_2 V (Proc.devRef .tc r) = V (Proc.devRef .tc r) :=
  after_of_writes_sub hostOps0_2 V writes02 h

theorem ops02_c : after hostOps0_2 V (Proc.devRef .tc main_c_0) = (constantI S_ 32 0#32 : Stage.IArr (F := F) S_) := by
  simp only [hostOps0_2]
  after_results

/-- The buffers that the operations padding the edge tails write. -/
abbrev wr03 : List (Ref sig .tc) := [main_call1_v0, main_v1]
theorem writes03 : (hostOps0_3 : List (HloOp τ sig (Elt F))).Forall fun op => op.writes ⊆ (wr03.map (Proc.devRef (τ := τ) .tc)).toFinset := by
  simp only [hostOps0_3, List.Forall]
  repeat' apply And.intro
  all_goals
    simp only [nullary_writes, unary_writes, binary_writes, ternary_writes, reshape_writes, Finset.singleton_subset_iff, List.mem_toFinset]
    exact List.mem_map_of_mem (by decide)
/-- A buffer that the operations padding the edge tails do not write keeps its contents through them. -/
theorem keep03 (r : Ref sig .tc) (h : r ∉ wr03) :
    after hostOps0_3 V (Proc.devRef .tc r) = V (Proc.devRef .tc r) :=
  after_of_writes_sub hostOps0_3 V writes03 h

/-- The padded tail vector: the tail argument padded by the zero scalar. -/
theorem ops03_v1 (x : Stage.IArr (F := F) S1000000)
    (hc : V (Proc.devRef .tc main_c_0) = (constantI S_ 32 0#32 : Stage.IArr (F := F) S_)) (hx : V (Proc.devRef .tc main_arg3) = x) :
    after hostOps0_3 V (Proc.devRef .tc main_v1) = Stage.padIdx x := by
  simp only [hostOps0_3]
  after_results
  rw [hc, hx]
  rfl

/-- The buffers that the operations preparing the first region write. -/
abbrev wr04 : List (Ref sig .tc) := [main_cst, main_v2, main_cst_1, main_v3, main_v4, main_v5, main_v6, main_v7, main_v8, main_cst_2, main_v9, main_c_3, main_v10, main_v11, main_c_4, main_v12, main_v13, main_v14, main_v15, main_v16]
theorem writes04 : (hostOps0_4 : List (HloOp τ sig (Elt F))).Forall fun op => op.writes ⊆ (wr04.map (Proc.devRef (τ := τ) .tc)).toFinset := by
  simp only [hostOps0_4, List.Forall]
  repeat' apply And.intro
  all_goals
    simp only [nullary_writes, unary_writes, binary_writes, ternary_writes, reshape_writes, Finset.singleton_subset_iff, List.mem_toFinset]
    exact List.mem_map_of_mem (by decide)
/-- A buffer that the operations preparing the first region do not write keeps its contents through them. -/
theorem keep04 (r : Ref sig .tc) (h : r ∉ wr04) :
    after hostOps0_4 V (Proc.devRef .tc r) = V (Proc.devRef .tc r) :=
  after_of_writes_sub hostOps0_4 V writes04 h

/-- The mask row. -/
theorem ops04_v5 : after hostOps0_4 V (Proc.devRef .tc main_v5) = Stage.maskRow := by
  simp only [hostOps0_4]
  after_results_simp
  unfold Stage.maskRow
  rfl
/-- The stacked embedding. -/
theorem ops04_v6 (a0 a1 : Stage.Arr (F := F) S100000x64) (h0 : V (Proc.devRef .tc main_arg0) = a0) (h1 : V (Proc.devRef .tc main_arg1) = a1) :
    after hostOps0_4 V (Proc.devRef .tc main_v6) = Stage.allEmb a0 a1 := by
  subst h0 h1
  simp only [hostOps0_4]
  after_results_simp
  unfold Stage.allEmb
  rfl
/-- The embedding split into factors. -/
theorem ops04_v8 (a0 a1 : Stage.Arr (F := F) S100000x64) (h0 : V (Proc.devRef .tc main_arg0) = a0) (h1 : V (Proc.devRef .tc main_arg1) = a1) :
    after hostOps0_4 V (Proc.devRef .tc main_v8) = Stage.ego (Stage.allEmb a0 a1) := by
  subst h0 h1
  simp only [hostOps0_4]
  after_results_simp
  unfold Stage.ego Stage.allEmb
  rfl
/-- The initial logits. -/
theorem ops04_v9 : after hostOps0_4 V (Proc.devRef .tc main_v9) = Stage.ones := by
  simp only [hostOps0_4]
  after_results_simp
  unfold Stage.ones
  rfl
/-- The factor rows at the edge tails. -/
theorem ops04_v16 (a0 a1 : Stage.Arr (F := F) S100000x64) (tl : Stage.IArr (F := F) S1003520)
    (h0 : V (Proc.devRef .tc main_arg0) = a0) (h1 : V (Proc.devRef .tc main_arg1) = a1) (ht : V (Proc.devRef .tc main_v1) = tl) :
    after hostOps0_4 V (Proc.devRef .tc main_v16) = Stage.rowsAt (Stage.ego (Stage.allEmb a0 a1)) tl := by
  subst h0 h1 ht
  simp only [hostOps0_4]
  after_results_simp
  unfold Stage.rowsAt Stage.wrapCol Stage.ego Stage.allEmb
  rfl

end Cert.KernelIdeal.Read

end
-- ==== Proof.KernelReadOps1.lean ====
/-
  The host operations between the first and the second kernel region, read as whole-array functions of an
  arbitrary buffer valuation V: the masked softmax scores of the logits, the degree normaliser they give, and the
  normalised factor rows gathered at the edge tails.
-/
import proofs.«141132_j64287070486722_2_alg».proof.Proof.Gen.KernelIdeal.Frame
import proofs.«141132_j64287070486722_2_alg».proof.Proof.StagesK

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]
variable (V : Valuation τ sig (Elt F))

/-- The buffers that the operations between the first two regions write. -/
abbrev wr1 : List (Ref sig .tc) := [main_cst_5, main_v18, main_cst_6, main_v19, main_v20, main_v21, main_v22, main_v23, main_v24, main_cst_7, main_v25, main_v26, main_v27, main_v28, main_v29, main_v30, main_cst_8, main_v31, main_v32, main_v33, main_v34, main_v35, main_cst_9, main_v36, main_v37, main_v38, main_v39, main_v40, main_c_10, main_v41, main_v42, main_c_11, main_v43, main_v44, main_v45, main_v46, main_v47]
theorem writes1 : (hostOps1 : List (HloOp τ sig (Elt F))).Forall fun op => op.writes ⊆ (wr1.map (Proc.devRef (τ := τ) .tc)).toFinset := by
  simp only [hostOps1, List.Forall]
  repeat' apply And.intro
  all_goals
    simp only [nullary_writes, unary_writes, binary_writes, ternary_writes, reshape_writes, Finset.singleton_subset_iff, List.mem_toFinset]
    exact List.mem_map_of_mem (by decide)
/-- A buffer that the operations between the first two regions do not write keeps its contents through them. -/
theorem keep1 (r : Ref sig .tc) (h : r ∉ wr1) :
    after hostOps1 V (Proc.devRef .tc r) = V (Proc.devRef .tc r) :=
  after_of_writes_sub hostOps1 V writes1 h

/-- The masked scores of the current logits. -/
theorem ops1_v30 (fv : Stage.Arr (F := F) S4x1003520)
    (h9 : V (Proc.devRef .tc main_v9) = fv) (h5 : V (Proc.devRef .tc main_v5) = Stage.maskRow) :
    after hostOps1 V (Proc.devRef .tc main_v30) = Stage.scores fv := by
  simp only [hostOps1]
  after_results_simp
  rw [h9, h5]
  unfold Stage.scores Stage.softmax Stage.expShift Stage.maskAll
  rfl
/-- The degree normaliser of the scores. -/
theorem ops1_v37 (fv : Stage.Arr (F := F) S4x1003520) (hd : Stage.IArr (F := F) S1003520)
    (h9 : V (Proc.devRef .tc main_v9) = fv) (h5 : V (Proc.devRef .tc main_v5) = Stage.maskRow) (h0 : V (Proc.devRef .tc main_v0) = hd) :
    after hostOps1 V (Proc.devRef .tc main_v37) = Stage.dcol hd (Stage.scores fv) := by
  simp only [hostOps1]
  after_results_simp
  rw [h9, h5, h0]
  unfold Stage.dcol Stage.invSqrt Stage.seg2 Stage.col Stage.scores Stage.softmax Stage.expShift Stage.maskAll
  rfl
/-- The normalised factor rows at the edge tails. -/
theorem ops1_v47 (fv : Stage.Arr (F := F) S4x1003520) (hd tl : Stage.IArr (F := F) S1003520) (eg : Stage.Arr (F := F) S4x200000x16)
    (h9 : V (Proc.devRef .tc main_v9) = fv) (h5 : V (Proc.devRef .tc main_v5) = Stage.maskRow) (h0 : V (Proc.devRef .tc main_v0) = hd)
    (h1 : V (Proc.devRef .tc main_v1) = tl) (h8 : V (Proc.devRef .tc main_v8) = eg) :
    after hostOps1 V (Proc.devRef .tc main_v47) = Stage.rowsAt (Stage.scale (Stage.dcol hd (Stage.scores fv)) eg) tl := by
  simp only [hostOps1]
  after_results_simp
  rw [h9, h5, h0, h1, h8]
  unfold Stage.rowsAt Stage.wrapCol Stage.scale Stage.dcol Stage.invSqrt Stage.seg2 Stage.col Stage.scores Stage.softmax Stage.expShift Stage.maskAll
  rfl

end Cert.KernelIdeal.Read

end
-- ==== Proof.KernelReadOps2.lean ====
/-
  The host operations after the second and after the fourth kernel region (the same operations on each round's
  buffers), read as whole-array functions of an arbitrary buffer valuation V: the per-node sum of the region's
  messages scaled by the degree normaliser, and its rows gathered at the edge heads.
-/
import proofs.«141132_j64287070486722_2_alg».proof.Proof.Gen.KernelIdeal.Frame
import proofs.«141132_j64287070486722_2_alg».proof.Proof.StagesK

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]
variable (V : Valuation τ sig (Elt F))

/-- The buffers that the operations after the second region write. -/
abbrev wr2 : List (Ref sig .tc) := [main_cst_12, main_v49, main_v50, main_v51, main_v52, main_v53, main_v54, main_v55, main_c_13, main_v56, main_v57, main_c_14, main_v58, main_v59, main_v60, main_v61, main_v62]
theorem writes2 : (hostOps2 : List (HloOp τ sig (Elt F))).Forall fun op => op.writes ⊆ (wr2.map (Proc.devRef (τ := τ) .tc)).toFinset := by
  simp only [hostOps2, List.Forall]
  repeat' apply And.intro
  all_goals
    simp only [nullary_writes, unary_writes, binary_writes, ternary_writes, reshape_writes, Finset.singleton_subset_iff, List.mem_toFinset]
    exact List.mem_map_of_mem (by decide)
/-- A buffer that the operations after the second region do not write keeps its contents through them. -/
theorem keep2 (r : Ref sig .tc) (h : r ∉ wr2) :
    after hostOps2 V (Proc.devRef .tc r) = V (Proc.devRef .tc r) :=
  after_of_writes_sub hostOps2 V writes2 h

/-- The round's factor embedding: the normaliser times the per-node sum of the messages. -/
theorem ops2_v55 (hd : Stage.IArr (F := F) S1003520) (d : Stage.Arr (F := F) S4x200000) (u : Stage.Arr (F := F) S4x1003520x16)
    (h0 : V (Proc.devRef .tc main_v0) = hd) (h37 : V (Proc.devRef .tc main_v37) = d) (h48 : V (Proc.devRef .tc main_v48) = u) :
    after hostOps2 V (Proc.devRef .tc main_v55) = Stage.scale d (Stage.seg3 hd u) := by
  simp only [hostOps2]
  after_results_simp
  rw [h0, h37, h48]
  unfold Stage.scale Stage.seg3 Stage.col
  rfl
/-- Its rows at the edge heads. -/
theorem ops2_v62 (hd : Stage.IArr (F := F) S1003520) (d : Stage.Arr (F := F) S4x200000) (u : Stage.Arr (F := F) S4x1003520x16)
    (h0 : V (Proc.devRef .tc main_v0) = hd) (h37 : V (Proc.devRef .tc main_v37) = d) (h48 : V (Proc.devRef .tc main_v48) = u) :
    after hostOps2 V (Proc.devRef .tc main_v62) = Stage.rowsAt (Stage.scale d (Stage.seg3 hd u)) hd := by
  simp only [hostOps2]
  after_results_simp
  rw [h0, h37, h48]
  unfold Stage.rowsAt Stage.wrapCol Stage.scale Stage.seg3 Stage.col
  rfl

/-- The buffers that the operations after the fourth region write. -/
abbrev wr4 : List (Ref sig .tc) := [main_cst_22, main_v98, main_v99, main_v100, main_v101, main_v102, main_v103, main_v104, main_c_23, main_v105, main_v106, main_c_24, main_v107, main_v108, main_v109, main_v110, main_v111]
theorem writes4 : (hostOps4 : List (HloOp τ sig (Elt F))).Forall fun op => op.writes ⊆ (wr4.map (Proc.devRef (τ := τ) .tc)).toFinset := by
  simp only [hostOps4, List.Forall]
  repeat' apply And.intro
  all_goals
    simp only [nullary_writes, unary_writes, binary_writes, ternary_writes, reshape_writes, Finset.singleton_subset_iff, List.mem_toFinset]
    exact List.mem_map_of_mem (by decide)
/-- A buffer that the operations after the fourth region do not write keeps its contents through them. -/
theorem keep4 (r : Ref sig .tc) (h : r ∉ wr4) :
    after hostOps4 V (Proc.devRef .tc r) = V (Proc.devRef .tc r) :=
  after_of_writes_sub hostOps4 V writes4 h

/-- The second round's factor embedding. -/
theorem ops4_v104 (hd : Stage.IArr (F := F) S1003520) (d : Stage.Arr (F := F) S4x200000) (u : Stage.Arr (F := F) S4x1003520x16)
    (h0 : V (Proc.devRef .tc main_v0) = hd) (h86 : V (Proc.devRef .tc main_v86) = d) (h97 : V (Proc.devRef .tc main_v97) = u) :
    after hostOps4 V (Proc.devRef .tc main_v104) = Stage.scale d (Stage.seg3 hd u) := by
  simp only [hostOps4]
  after_results_simp
  rw [h0, h86, h97]
  unfold Stage.scale Stage.seg3 Stage.col
  rfl

end Cert.KernelIdeal.Read

end
-- ==== Proof.KernelReadOps3.lean ====
/-
  The host operations between the third and the fourth kernel region, read as whole-array functions of an
  arbitrary buffer valuation V: the logits after the first round, their masked softmax scores, the degree normaliser
  they give, and the normalised factor rows gathered at the edge tails.
-/
import proofs.«141132_j64287070486722_2_alg».proof.Proof.Gen.KernelIdeal.Frame
import proofs.«141132_j64287070486722_2_alg».proof.Proof.StagesK

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]
variable (V : Valuation τ sig (Elt F))

/-- The buffers that the operations between the third and the fourth region write. -/
abbrev wr3 : List (Ref sig .tc) := [main_v64, main_v65, main_v66, main_cst_15, main_v67, main_cst_16, main_v68, main_v69, main_v70, main_v71, main_v72, main_v73, main_cst_17, main_v74, main_v75, main_v76, main_v77, main_v78, main_v79, main_cst_18, main_v80, main_v81, main_v82, main_v83, main_v84, main_cst_19, main_v85, main_v86, main_v87, main_v88, main_v89, main_c_20, main_v90, main_v91, main_c_21, main_v92, main_v93, main_v94, main_v95, main_v96]
theorem writes3 : (hostOps3 : List (HloOp τ sig (Elt F))).Forall fun op => op.writes ⊆ (wr3.map (Proc.devRef (τ := τ) .tc)).toFinset := by
  simp only [hostOps3, List.Forall]
  repeat' apply And.intro
  all_goals
    simp only [nullary_writes, unary_writes, binary_writes, ternary_writes, reshape_writes, Finset.singleton_subset_iff, List.mem_toFinset]
    exact List.mem_map_of_mem (by decide)
/-- A buffer that the operations between the third and the fourth region do not write keeps its contents through them. -/
theorem keep3 (r : Ref sig .tc) (h : r ∉ wr3) :
    after hostOps3 V (Proc.devRef .tc r) = V (Proc.devRef .tc r) :=
  after_of_writes_sub hostOps3 V writes3 h

/-- The logits after the round: the old logits plus the masked update the third region computed. -/
theorem ops3_v66 (fv dl : Stage.Arr (F := F) S4x1003520)
    (h9 : V (Proc.devRef .tc main_v9) = fv) (h63 : V (Proc.devRef .tc main_v63) = dl) (h5 : V (Proc.devRef .tc main_v5) = Stage.maskRow) :
    after hostOps3 V (Proc.devRef .tc main_v66) = Stage.nextLogits fv dl := by
  simp only [hostOps3]
  after_results_simp
  rw [h9, h63, h5]
  unfold Stage.nextLogits Stage.maskAll
  rfl
/-- The masked scores of the new logits. -/
theorem ops3_v79 (fv dl : Stage.Arr (F := F) S4x1003520)
    (h9 : V (Proc.devRef .tc main_v9) = fv) (h63 : V (Proc.devRef .tc main_v63) = dl) (h5 : V (Proc.devRef .tc main_v5) = Stage.maskRow) :
    after hostOps3 V (Proc.devRef .tc main_v79) = Stage.scores (Stage.nextLogits fv dl) := by
  simp only [hostOps3]
  after_results_simp
  rw [h9, h63, h5]
  unfold Stage.scores Stage.softmax Stage.expShift Stage.nextLogits Stage.maskAll
  rfl
/-- The degree normaliser of the new scores. -/
theorem ops3_v86 (fv dl : Stage.Arr (F := F) S4x1003520) (hd : Stage.IArr (F := F) S1003520)
    (h9 : V (Proc.devRef .tc main_v9) = fv) (h63 : V (Proc.devRef .tc main_v63) = dl) (h5 : V (Proc.devRef .tc main_v5) = Stage.maskRow) (h0 : V (Proc.devRef .tc main_v0) = hd) :
    after hostOps3 V (Proc.devRef .tc main_v86) = Stage.dcol hd (Stage.scores (Stage.nextLogits fv dl)) := by
  simp only [hostOps3]
  after_results_simp
  rw [h9, h63, h5, h0]
  unfold Stage.dcol Stage.invSqrt Stage.seg2 Stage.col Stage.scores Stage.softmax Stage.expShift Stage.nextLogits Stage.maskAll
  rfl
/-- The normalised factor rows at the edge tails. -/
theorem ops3_v96 (fv dl : Stage.Arr (F := F) S4x1003520) (hd tl : Stage.IArr (F := F) S1003520) (eg : Stage.Arr (F := F) S4x200000x16)
    (h9 : V (Proc.devRef .tc main_v9) = fv) (h63 : V (Proc.devRef .tc main_v63) = dl) (h5 : V (Proc.devRef .tc main_v5) = Stage.maskRow) (h0 : V (Proc.devRef .tc main_v0) = hd)
    (h1 : V (Proc.devRef .tc main_v1) = tl) (h8 : V (Proc.devRef .tc main_v8) = eg) :
    after hostOps3 V (Proc.devRef .tc main_v96) = Stage.rowsAt (Stage.scale (Stage.dcol hd (Stage.scores (Stage.nextLogits fv dl))) eg) tl := by
  simp only [hostOps3]
  after_results_simp
  rw [h9, h63, h5, h0, h1, h8]
  unfold Stage.rowsAt Stage.wrapCol Stage.scale Stage.dcol Stage.invSqrt Stage.seg2 Stage.col Stage.scores Stage.softmax Stage.expShift Stage.nextLogits Stage.maskAll
  rfl

end Cert.KernelIdeal.Read

end
-- ==== Proof.KernelReadOps5.lean ====
/-
  The host operations after the last kernel region, read as whole-array functions of an arbitrary buffer
  valuation V: the mean of the input embedding and the second round's factor embedding laid back as 64 lanes, and
  its user and item halves.
-/
import proofs.«141132_j64287070486722_2_alg».proof.Proof.Gen.KernelIdeal.Frame
import proofs.«141132_j64287070486722_2_alg».proof.Proof.StagesK

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]
variable (V : Valuation τ sig (Elt F))

/-- The buffers that the operations after the last region write. -/
abbrev wr5 : List (Ref sig .tc) := [main_v113, main_v114, main_v115, main_v116, main_v117, main_v118, main_v119, main_v120, main_cst_25, main_v121, main_cst_26, main_v122, main_v123, main_v124, main_v125]
theorem writes5 : (hostOps5 : List (HloOp τ sig (Elt F))).Forall fun op => op.writes ⊆ (wr5.map (Proc.devRef (τ := τ) .tc)).toFinset := by
  simp only [hostOps5, List.Forall]
  repeat' apply And.intro
  all_goals
    simp only [nullary_writes, unary_writes, binary_writes, ternary_writes, reshape_writes, Finset.singleton_subset_iff, List.mem_toFinset]
    exact List.mem_map_of_mem (by decide)
/-- A buffer that the operations after the last region do not write keeps its contents through them. -/
theorem keep5 (r : Ref sig .tc) (h : r ∉ wr5) :
    after hostOps5 V (Proc.devRef .tc r) = V (Proc.devRef .tc r) :=
  after_of_writes_sub hostOps5 V writes5 h

/-- The user half of the mean. -/
theorem ops5_v124 (e : Stage.Arr (F := F) S200000x64) (fe : Stage.Arr (F := F) S4x200000x16)
    (h6 : V (Proc.devRef .tc main_v6) = e) (h104 : V (Proc.devRef .tc main_v104) = fe) :
    after hostOps5 V (Proc.devRef .tc main_v124) = Stage.outUsers (Stage.outMean e fe) := by
  subst h6 h104
  simp only [hostOps5]
  after_results_simp
  unfold Stage.outUsers Stage.outMean
  rfl
/-- The item half of the mean. -/
theorem ops5_v125 (e : Stage.Arr (F := F) S200000x64) (fe : Stage.Arr (F := F) S4x200000x16)
    (h6 : V (Proc.devRef .tc main_v6) = e) (h104 : V (Proc.devRef .tc main_v104) = fe) :
    after hostOps5 V (Proc.devRef .tc main_v125) = Stage.outItems (Stage.outMean e fe) := by
  subst h6 h104
  simp only [hostOps5]
  after_results_simp
  unfold Stage.outItems Stage.outMean
  rfl

end Cert.KernelIdeal.Read

end
-- ==== Proof.KernelRead.lean ====
/-
  The kernel's buffer contents read back to the host side's whole-array functions.

  The generated frame folds the buffer contents through @main's segments: a stretch of host operations applies its
  operations to the contents before it, a kernel region replaces its windows' arrays by what its pipeline leaves and
  keeps every other buffer.  Here that fold is read buffer by buffer: each region is entered with the stage functions
  of the arguments and of the earlier regions' output arrays, and the two results are the halves of the mean of the
  input embedding and the second round's factor embedding.  The fifth region's output feeds no result and is never read.
-/
import proofs.«141132_j64287070486722_2_alg».proof.Proof.Gen.KernelIdeal.Frame
import proofs.«141132_j64287070486722_2_alg».proof.Proof.StagesK
import proofs.«141132_j64287070486722_2_alg».proof.Proof.KernelReadOps0
import proofs.«141132_j64287070486722_2_alg».proof.Proof.KernelReadOps1
import proofs.«141132_j64287070486722_2_alg».proof.Proof.KernelReadOps2
import proofs.«141132_j64287070486722_2_alg».proof.Proof.KernelReadOps3
import proofs.«141132_j64287070486722_2_alg».proof.Proof.KernelReadOps5

set_option maxRecDepth 16384

noncomputable section

namespace Cert.KernelIdeal.Read

open Cert.KernelIdeal Cert.KernelIdeal.Gen Idealize.ShloMosaic Idealize.ShloMosaic.TcCoe
open Idealize.ShloMosaic.StableHlo

variable {F : FTy → Type} [FloatOps F]

/-! ## The values the kernel's run passes through

The four arguments as launched; the host side's whole-array values built from them; and each region's output array,
kept as the term the pipeline leaves (what each region computes is read elsewhere). -/

section Values

/-- The user embedding as launched. -/
def A0 (m : (ℓ : Loc nD τ sig) → Buf (Elt F) ℓ) (ρ : Dev nD → PrngReg) (c : Dev nD) : Stage.Arr (F := F) S100000x64 := m ((c.tc : Thread nD τ).loc main_arg0)
/-- The item embedding as launched. -/
def A1 (m : (ℓ : Loc nD τ sig) → Buf (Elt F) ℓ) (ρ : Dev nD → PrngReg) (c : Dev nD) : Stage.Arr (F := F) S100000x64 := m ((c.tc : Thread nD τ).loc main_arg1)
/-- The edge heads as launched. -/
def A2 (m : (ℓ : Loc nD τ sig) → Buf (Elt F) ℓ) (ρ : Dev nD → PrngReg) (c : Dev nD) : Stage.IArr (F := F) S1000000 := m ((c.tc : Thread nD τ).loc main_arg2)
/-- The edge tails as launched. -/
def A3 (m : (ℓ : Loc nD τ sig) → Buf (Elt F) ℓ) (ρ : Dev nD → PrngReg) (c : Dev nD) : Stage.IArr (F := F) S1000000 := m ((c.tc : Thread nD τ).loc main_arg3)

/-- The padded edge heads. -/
def hdP (m : (ℓ : Loc nD τ sig) → Buf (Elt F) ℓ) (ρ : Dev nD → PrngReg) (c : Dev nD) : Stage.IArr (F := F) S1003520 := Stage.padIdx (A2 m ρ c)
/-- The padded edge tails. -/
def tlP (m : (ℓ : Loc nD τ sig) → Buf (Elt F) ℓ) (ρ : Dev nD → PrngReg) (c : Dev nD) : Stage.IArr (F := F) S1003520 := Stage.padIdx (A3 m ρ c)
/-- Users stacked on items. -/
def emb (m : (ℓ : Loc nD τ sig) → Buf (Elt F) ℓ) (ρ : Dev nD → PrngReg) (c : Dev nD) : Stage.Arr (F := F) S200000x64 := Stage.allEmb (A0 m ρ c) (A1 m ρ c)
/-- The stacked embedding split into four factors. -/
def eg (m : (ℓ : Loc nD τ sig) → Buf (Elt F) ℓ) (ρ : Dev nD → PrngReg) (c : Dev nD) : Stage.Arr (F := F) S4x200000x16 := Stage.ego (emb m ρ c)
/-- The first region's output array. -/
def T17 (m : (ℓ : Loc nD τ sig) → Buf (Elt F) ℓ) (ρ : Dev nD → PrngReg) (c : Dev nD) : Stage.Arr (F := F) S4x1003520x16 := (Gen.dat0 (Gen.V5 m ρ) c).arrAt 1 cfg0.N
/-- The first round's masked scores: those of the all-ones logits. -/
def S1 : Stage.Arr (F := F) S4x1003520 := Stage.scores Stage.ones
/-- The first round's degree normaliser. -/
def D1 (m : (ℓ : Loc nD τ sig) → Buf (Elt F) ℓ) (ρ : Dev nD → PrngReg) (c : Dev nD) : Stage.Arr (F := F) S4x200000 := Stage.dcol (hdP m ρ c) S1
/-- The second region's output array. -/
def T48 (m : (ℓ : Loc nD τ sig) → Buf (Elt F) ℓ) (ρ : Dev nD → PrngReg) (c : Dev nD) : Stage.Arr (F := F) S4x1003520x16 := (Gen.dat1 (Gen.V7 m ρ) c).arrAt 2 cfg1.N
/-- The first round's factor embedding. -/
def F1 (m : (ℓ : Loc nD τ sig) → Buf (Elt F) ℓ) (ρ : Dev nD → PrngReg) (c : Dev nD) : Stage.Arr (F := F) S4x200000x16 := Stage.scale (D1 m ρ c) (Stage.seg3 (hdP m ρ c) (T48 m ρ c))
/-- The third region's output array. -/
def T63 (m : (ℓ : Loc nD τ sig) → Buf (Elt F) ℓ) (ρ : Dev nD → PrngReg) (c : Dev nD) : Stage.Arr (F := F) S4x1003520 := (Gen.dat2 (Gen.V9 m ρ) c).arrAt 2 cfg2.N
/-- The logits after the first round. -/
def fv1 (m : (ℓ : Loc nD τ sig) → Buf (Elt F) ℓ) (ρ : Dev nD → PrngReg) (c : Dev nD) : Stage.Arr (F := F) S4x1003520 := Stage.nextLogits Stage.ones (T63 m ρ c)
/-- The second round's masked scores. -/
def S2 (m : (ℓ : Loc nD τ sig) → Buf (Elt F) ℓ) (ρ : Dev nD → PrngReg) (c : Dev nD) : Stage.Arr (F := F) S4x1003520 := Stage.scores (fv1 m ρ c)
/-- The second round's degree normaliser. -/
def D2 (m : (ℓ : Loc nD τ sig) → Buf (Elt F) ℓ) (ρ : Dev nD → PrngReg) (c : Dev nD) : Stage.Arr (F := F) S4x200000 := Stage.dcol (hdP m ρ c) (S2 m ρ c)
/-- The fourth region's output array. -/
def T97 (m : (ℓ : Loc nD τ sig) → Buf (Elt F) ℓ) (ρ : Dev nD → PrngReg) (c : Dev nD) : Stage.Arr (F := F) S4x1003520x16 := (Gen.dat3 (Gen.V11 m ρ) c).arrAt 2 cfg3.N
/-- The second round's factor embedding. -/
def F2 (m : (ℓ : Loc nD τ sig) → Buf (Elt F) ℓ) (ρ : Dev nD → PrngReg) (c : Dev nD) : Stage.Arr (F := F) S4x200000x16 := Stage.scale (D2 m ρ c) (Stage.seg3 (hdP m ρ c) (T97 m ρ c))

end Values

/-! ## The fold of buffer contents through @main, read buffer by buffer

One lemma per segment boundary and buffer a later segment reads: a host stretch's own results by its stretch lemma at
the previous boundary's contents; a region's output array by the region's boundary lemma; every other buffer kept. -/

variable (m : (ℓ : Loc nD τ sig) → Buf (Elt F) ℓ) (ρ : Dev nD → PrngReg) (c : Dev nD)

/-! ### The launch memory -/

theorem w0_arg0 : Gen.W0 m ρ c (Proc.devRef .tc main_arg0) = A0 m ρ c :=
  rfl
theorem w0_arg1 : Gen.W0 m ρ c (Proc.devRef .tc main_arg1) = A1 m ρ c :=
  rfl
theorem w0_arg2 : Gen.W0 m ρ c (Proc.devRef .tc main_arg2) = A2 m ρ c :=
  rfl
theorem w0_arg3 : Gen.W0 m ρ c (Proc.devRef .tc main_arg3) = A3 m ρ c :=
  rfl

/-! ### Through the host operations before the first region -/

theorem w1_c : Gen.W1 m ρ c (Proc.devRef .tc main_c) = (constantI S_ 32 0#32 : Stage.IArr (F := F) S_) :=
  ops00_c (Gen.W0 m ρ c)
theorem w1_arg0 : Gen.W1 m ρ c (Proc.devRef .tc main_arg0) = A0 m ρ c :=
  (keep00 (Gen.W0 m ρ c) main_arg0 (by decide)).trans (w0_arg0 m ρ c)
theorem w1_arg1 : Gen.W1 m ρ c (Proc.devRef .tc main_arg1) = A1 m ρ c :=
  (keep00 (Gen.W0 m ρ c) main_arg1 (by decide)).trans (w0_arg1 m ρ c)
theorem w1_arg2 : Gen.W1 m ρ c (Proc.devRef .tc main_arg2) = A2 m ρ c :=
  (keep00 (Gen.W0 m ρ c) main_arg2 (by decide)).trans (w0_arg2 m ρ c)
theorem w1_arg3 : Gen.W1 m ρ c (Proc.devRef .tc main_arg3) = A3 m ρ c :=
  (keep00 (Gen.W0 m ρ c) main_arg3 (by decide)).trans (w0_arg3 m ρ c)
theorem w2_v0 : Gen.W2 m ρ c (Proc.devRef .tc main_v0) = hdP m ρ c :=
  ops01_v0 (Gen.W1 m ρ c) (A2 m ρ c) (w1_c m ρ c) (w1_arg2 m ρ c)
theorem w2_arg0 : Gen.W2 m ρ c (Proc.devRef .tc main_arg0) = A0 m ρ c :=
  (keep01 (Gen.W1 m ρ c) main_arg0 (by decide)).trans (w1_arg0 m ρ c)
theorem w2_arg1 : Gen.W2 m ρ c (Proc.devRef .tc main_arg1) = A1 m ρ c :=
  (keep01 (Gen.W1 m ρ c) main_arg1 (by decide)).trans (w1_arg1 m ρ c)
theorem w2_arg3 : Gen.W2 m ρ c (Proc.devRef .tc main_arg3) = A3 m ρ c :=
  (keep01 (Gen.W1 m ρ c) main_arg3 (by decide)).trans (w1_arg3 m ρ c)
theorem w3_c_0 : Gen.W3 m ρ c (Proc.devRef .tc main_c_0) = (constantI S_ 32 0#32 : Stage.IArr (F := F) S_) :=
  ops02_c (Gen.W2 m ρ c)
theorem w3_v0 : Gen.W3 m ρ c (Proc.devRef .tc main_v0) = hdP m ρ c :=
  (keep02 (Gen.W2 m ρ c) main_v0 (by decide)).trans (w2_v0 m ρ c)
theorem w3_arg0 : Gen.W3 m ρ c (Proc.devRef .tc main_arg0) = A0 m ρ c :=
  (keep02 (Gen.W2 m ρ c) main_arg0 (by decide)).trans (w2_arg0 m ρ c)
theorem w3_arg1 : Gen.W3 m ρ c (Proc.devRef .tc main_arg1) = A1 m ρ c :=
  (keep02 (Gen.W2 m ρ c) main_arg1 (by decide)).trans (w2_arg1 m ρ c)
theorem w3_arg3 : Gen.W3 m ρ c (Proc.devRef .tc main_arg3) = A3 m ρ c :=
  (keep02 (Gen.W2 m ρ c) main_arg3 (by decide)).trans (w2_arg3 m ρ c)
theorem w4_v1 : Gen.W4 m ρ c (Proc.devRef .tc main_v1) = tlP m ρ c :=
  ops03_v1 (Gen.W3 m ρ c) (A3 m ρ c) (w3_c_0 m ρ c) (w3_arg3 m ρ c)
theorem w4_v0 : Gen.W4 m ρ c (Proc.devRef .tc main_v0) = hdP m ρ c :=
  (keep03 (Gen.W3 m ρ c) main_v0 (by decide)).trans (w3_v0 m ρ c)
theorem w4_arg0 : Gen.W4 m ρ c (Proc.devRef .tc main_arg0) = A0 m ρ c :=
  (keep03 (Gen.W3 m ρ c) main_arg0 (by decide)).trans (w3_arg0 m ρ c)
theorem w4_arg1 : Gen.W4 m ρ c (Proc.devRef .tc main_arg1) = A1 m ρ c :=
  (keep03 (Gen.W3 m ρ c) main_arg1 (by decide)).trans (w3_arg1 m ρ c)
theorem w5_v5 : Gen.W5 m ρ c (Proc.devRef .tc main_v5) = Stage.maskRow :=
  ops04_v5 (Gen.W4 m ρ c)
theorem w5_v6 : Gen.W5 m ρ c (Proc.devRef .tc main_v6) = emb m ρ c :=
  ops04_v6 (Gen.W4 m ρ c) (A0 m ρ c) (A1 m ρ c) (w4_arg0 m ρ c) (w4_arg1 m ρ c)
theorem w5_v8 : Gen.W5 m ρ c (Proc.devRef .tc main_v8) = eg m ρ c :=
  ops04_v8 (Gen.W4 m ρ c) (A0 m ρ c) (A1 m ρ c) (w4_arg0 m ρ c) (w4_arg1 m ρ c)
theorem w5_v9 : Gen.W5 m ρ c (Proc.devRef .tc main_v9) = Stage.ones :=
  ops04_v9 (Gen.W4 m ρ c)
theorem w5_v16 : Gen.W5 m ρ c (Proc.devRef .tc main_v16) = Stage.rowsAt (eg m ρ c) (tlP m ρ c) :=
  ops04_v16 (Gen.W4 m ρ c) (A0 m ρ c) (A1 m ρ c) (tlP m ρ c) (w4_arg0 m ρ c) (w4_arg1 m ρ c) (w4_v1 m ρ c)
theorem w5_v0 : Gen.W5 m ρ c (Proc.devRef .tc main_v0) = hdP m ρ c :=
  (keep04 (Gen.W4 m ρ c) main_v0 (by decide)).trans (w4_v0 m ρ c)
theorem w5_v1 : Gen.W5 m ρ c (Proc.devRef .tc main_v1) = tlP m ρ c :=
  (keep04 (Gen.W4 m ρ c) main_v1 (by decide)).trans (w4_v1 m ρ c)

/-! ### Through the first region: its output array; every other buffer as entered -/

theorem w6_v17 : Gen.W6 m ρ c (Proc.devRef .tc main_v17) = T17 m ρ c :=
  Gen.W6_arr m ρ c 1
theorem w6_v0 : Gen.W6 m ρ c (Proc.devRef .tc main_v0) = hdP m ρ c :=
  (Gen.W6_of_ne m ρ c main_v0 (by decide)).trans (w5_v0 m ρ c)
theorem w6_v1 : Gen.W6 m ρ c (Proc.devRef .tc main_v1) = tlP m ρ c :=
  (Gen.W6_of_ne m ρ c main_v1 (by decide)).trans (w5_v1 m ρ c)
theorem w6_v5 : Gen.W6 m ρ c (Proc.devRef .tc main_v5) = Stage.maskRow :=
  (Gen.W6_of_ne m ρ c main_v5 (by decide)).trans (w5_v5 m ρ c)
theorem w6_v6 : Gen.W6 m ρ c (Proc.devRef .tc main_v6) = emb m ρ c :=
  (Gen.W6_of_ne m ρ c main_v6 (by decide)).trans (w5_v6 m ρ c)
theorem w6_v8 : Gen.W6 m ρ c (Proc.devRef .tc main_v8) = eg m ρ c :=
  (Gen.W6_of_ne m ρ c main_v8 (by decide)).trans (w5_v8 m ρ c)
theorem w6_v9 : Gen.W6 m ρ c (Proc.devRef .tc main_v9) = Stage.ones :=
  (Gen.W6_of_ne m ρ c main_v9 (by decide)).trans (w5_v9 m ρ c)

/-! ### Through the operations before the second region -/

theorem w7_v30 : Gen.W7 m ρ c (Proc.devRef .tc main_v30) = S1 :=
  ops1_v30 (Gen.W6 m ρ c) Stage.ones (w6_v9 m ρ c) (w6_v5 m ρ c)
theorem w7_v37 : Gen.W7 m ρ c (Proc.devRef .tc main_v37) = D1 m ρ c :=
  ops1_v37 (Gen.W6 m ρ c) Stage.ones (hdP m ρ c) (w6_v9 m ρ c) (w6_v5 m ρ c) (w6_v0 m ρ c)
theorem w7_v47 : Gen.W7 m ρ c (Proc.devRef .tc main_v47) = Stage.rowsAt (Stage.scale (D1 m ρ c) (eg m ρ c)) (tlP m ρ c) :=
  ops1_v47 (Gen.W6 m ρ c) Stage.ones (hdP m ρ c) (tlP m ρ c) (eg m ρ c) (w6_v9 m ρ c) (w6_v5 m ρ c) (w6_v0 m ρ c) (w6_v1 m ρ c) (w6_v8 m ρ c)
theorem w7_v0 : Gen.W7 m ρ c (Proc.devRef .tc main_v0) = hdP m ρ c :=
  (keep1 (Gen.W6 m ρ c) main_v0 (by decide)).trans (w6_v0 m ρ c)
theorem w7_v1 : Gen.W7 m ρ c (Proc.devRef .tc main_v1) = tlP m ρ c :=
  (keep1 (Gen.W6 m ρ c) main_v1 (by decide)).trans (w6_v1 m ρ c)
theorem w7_v5 : Gen.W7 m ρ c (Proc.devRef .tc main_v5) = Stage.maskRow :=
  (keep1 (Gen.W6 m ρ c) main_v5 (by decide)).trans (w6_v5 m ρ c)
theorem w7_v6 : Gen.W7 m ρ c (Proc.devRef .tc main_v6) = emb m ρ c :=
  (keep1 (Gen.W6 m ρ c) main_v6 (by decide)).trans (w6_v6 m ρ c)
theorem w7_v8 : Gen.W7 m ρ c (Proc.devRef .tc main_v8) = eg m ρ c :=
  (keep1 (Gen.W6 m ρ c) main_v8 (by decide)).trans (w6_v8 m ρ c)
theorem w7_v9 : Gen.W7 m ρ c (Proc.devRef .tc main_v9) = Stage.ones :=
  (keep1 (Gen.W6 m ρ c) main_v9 (by decide)).trans (w6_v9 m ρ c)
theorem w7_v17 : Gen.W7 m ρ c (Proc.devRef .tc main_v17) = T17 m ρ c :=
  (keep1 (Gen.W6 m ρ c) main_v17 (by decide)).trans (w6_v17 m ρ c)

/-! ### Through the second region -/

theorem w8_v48 : Gen.W8 m ρ c (Proc.devRef .tc main_v48) = T48 m ρ c :=
  Gen.W8_arr m ρ c 2
theorem w8_v0 : Gen.W8 m ρ c (Proc.devRef .tc main_v0) = hdP m ρ c :=
  (Gen.W8_of_ne m ρ c main_v0 (by decide)).trans (w7_v0 m ρ c)
theorem w8_v1 : Gen.W8 m ρ c (Proc.devRef .tc main_v1) = tlP m ρ c :=
  (Gen.W8_of_ne m ρ c main_v1 (by decide)).trans (w7_v1 m ρ c)
theorem w8_v5 : Gen.W8 m ρ c (Proc.devRef .tc main_v5) = Stage.maskRow :=
  (Gen.W8_of_ne m ρ c main_v5 (by decide)).trans (w7_v5 m ρ c)
theorem w8_v6 : Gen.W8 m ρ c (Proc.devRef .tc main_v6) = emb m ρ c :=
  (Gen.W8_of_ne m ρ c main_v6 (by decide)).trans (w7_v6 m ρ c)
theorem w8_v8 : Gen.W8 m ρ c (Proc.devRef .tc main_v8) = eg m ρ c :=
  (Gen.W8_of_ne m ρ c main_v8 (by decide)).trans (w7_v8 m ρ c)
theorem w8_v9 : Gen.W8 m ρ c (Proc.devRef .tc main_v9) = Stage.ones :=
  (Gen.W8_of_ne m ρ c main_v9 (by decide)).trans (w7_v9 m ρ c)
theorem w8_v17 : Gen.W8 m ρ c (Proc.devRef .tc main_v17) = T17 m ρ c :=
  (Gen.W8_of_ne m ρ c main_v17 (by decide)).trans (w7_v17 m ρ c)
theorem w8_v37 : Gen.W8 m ρ c (Proc.devRef .tc main_v37) = D1 m ρ c :=
  (Gen.W8_of_ne m ρ c main_v37 (by decide)).trans (w7_v37 m ρ c)

/-! ### Through the operations before the third region -/

theorem w9_v62 : Gen.W9 m ρ c (Proc.devRef .tc main_v62) = Stage.rowsAt (F1 m ρ c) (hdP m ρ c) :=
  ops2_v62 (Gen.W8 m ρ c) (hdP m ρ c) (D1 m ρ c) (T48 m ρ c) (w8_v0 m ρ c) (w8_v37 m ρ c) (w8_v48 m ρ c)
theorem w9_v0 : Gen.W9 m ρ c (Proc.devRef .tc main_v0) = hdP m ρ c :=
  (keep2 (Gen.W8 m ρ c) main_v0 (by decide)).trans (w8_v0 m ρ c)
theorem w9_v1 : Gen.W9 m ρ c (Proc.devRef .tc main_v1) = tlP m ρ c :=
  (keep2 (Gen.W8 m ρ c) main_v1 (by decide)).trans (w8_v1 m ρ c)
theorem w9_v5 : Gen.W9 m ρ c (Proc.devRef .tc main_v5) = Stage.maskRow :=
  (keep2 (Gen.W8 m ρ c) main_v5 (by decide)).trans (w8_v5 m ρ c)
theorem w9_v6 : Gen.W9 m ρ c (Proc.devRef .tc main_v6) = emb m ρ c :=
  (keep2 (Gen.W8 m ρ c) main_v6 (by decide)).trans (w8_v6 m ρ c)
theorem w9_v8 : Gen.W9 m ρ c (Proc.devRef .tc main_v8) = eg m ρ c :=
  (keep2 (Gen.W8 m ρ c) main_v8 (by decide)).trans (w8_v8 m ρ c)
theorem w9_v9 : Gen.W9 m ρ c (Proc.devRef .tc main_v9) = Stage.ones :=
  (keep2 (Gen.W8 m ρ c) main_v9 (by decide)).trans (w8_v9 m ρ c)
theorem w9_v17 : Gen.W9 m ρ c (Proc.devRef .tc main_v17) = T17 m ρ c :=
  (keep2 (Gen.W8 m ρ c) main_v17 (by decide)).trans (w8_v17 m ρ c)

/-! ### Through the third region -/

theorem w10_v63 : Gen.W10 m ρ c (Proc.devRef .tc main_v63) = T63 m ρ c :=
  Gen.W10_arr m ρ c 2
theorem w10_v0 : Gen.W10 m ρ c (Proc.devRef .tc main_v0) = hdP m ρ c :=
  (Gen.W10_of_ne m ρ c main_v0 (by decide)).trans (w9_v0 m ρ c)
theorem w10_v1 : Gen.W10 m ρ c (Proc.devRef .tc main_v1) = tlP m ρ c :=
  (Gen.W10_of_ne m ρ c main_v1 (by decide)).trans (w9_v1 m ρ c)
theorem w10_v5 : Gen.W10 m ρ c (Proc.devRef .tc main_v5) = Stage.maskRow :=
  (Gen.W10_of_ne m ρ c main_v5 (by decide)).trans (w9_v5 m ρ c)
theorem w10_v6 : Gen.W10 m ρ c (Proc.devRef .tc main_v6) = emb m ρ c :=
  (Gen.W10_of_ne m ρ c main_v6 (by decide)).trans (w9_v6 m ρ c)
theorem w10_v8 : Gen.W10 m ρ c (Proc.devRef .tc main_v8) = eg m ρ c :=
  (Gen.W10_of_ne m ρ c main_v8 (by decide)).trans (w9_v8 m ρ c)
theorem w10_v9 : Gen.W10 m ρ c (Proc.devRef .tc main_v9) = Stage.ones :=
  (Gen.W10_of_ne m ρ c main_v9 (by decide)).trans (w9_v9 m ρ c)

/-! ### Through the operations before the fourth region -/

theorem w11_v66 : Gen.W11 m ρ c (Proc.devRef .tc main_v66) = fv1 m ρ c :=
  ops3_v66 (Gen.W10 m ρ c) Stage.ones (T63 m ρ c) (w10_v9 m ρ c) (w10_v63 m ρ c) (w10_v5 m ρ c)
theorem w11_v79 : Gen.W11 m ρ c (Proc.devRef .tc main_v79) = S2 m ρ c :=
  ops3_v79 (Gen.W10 m ρ c) Stage.ones (T63 m ρ c) (w10_v9 m ρ c) (w10_v63 m ρ c) (w10_v5 m ρ c)
theorem w11_v86 : Gen.W11 m ρ c (Proc.devRef .tc main_v86) = D2 m ρ c :=
  ops3_v86 (Gen.W10 m ρ c) Stage.ones (T63 m ρ c) (hdP m ρ c) (w10_v9 m ρ c) (w10_v63 m ρ c) (w10_v5 m ρ c) (w10_v0 m ρ c)
theorem w11_v96 : Gen.W11 m ρ c (Proc.devRef .tc main_v96) = Stage.rowsAt (Stage.scale (D2 m ρ c) (eg m ρ c)) (tlP m ρ c) :=
  ops3_v96 (Gen.W10 m ρ c) Stage.ones (T63 m ρ c) (hdP m ρ c) (tlP m ρ c) (eg m ρ c) (w10_v9 m ρ c) (w10_v63 m ρ c) (w10_v5 m ρ c) (w10_v0 m ρ c) (w10_v1 m ρ c) (w10_v8 m ρ c)
theorem w11_v0 : Gen.W11 m ρ c (Proc.devRef .tc main_v0) = hdP m ρ c :=
  (keep3 (Gen.W10 m ρ c) main_v0 (by decide)).trans (w10_v0 m ρ c)
theorem w11_v6 : Gen.W11 m ρ c (Proc.devRef .tc main_v6) = emb m ρ c :=
  (keep3 (Gen.W10 m ρ c) main_v6 (by decide)).trans (w10_v6 m ρ c)

/-! ### Through the fourth region -/

theorem w12_v97 : Gen.W12 m ρ c (Proc.devRef .tc main_v97) = T97 m ρ c :=
  Gen.W12_arr m ρ c 2
theorem w12_v0 : Gen.W12 m ρ c (Proc.devRef .tc main_v0) = hdP m ρ c :=
  (Gen.W12_of_ne m ρ c main_v0 (by decide)).trans (w11_v0 m ρ c)
theorem w12_v6 : Gen.W12 m ρ c (Proc.devRef .tc main_v6) = emb m ρ c :=
  (Gen.W12_of_ne m ρ c main_v6 (by decide)).trans (w11_v6 m ρ c)
theorem w12_v86 : Gen.W12 m ρ c (Proc.devRef .tc main_v86) = D2 m ρ c :=
  (Gen.W12_of_ne m ρ c main_v86 (by decide)).trans (w11_v86 m ρ c)

/-! ### Through the operations before the last region -/

theorem w13_v104 : Gen.W13 m ρ c (Proc.devRef .tc main_v104) = F2 m ρ c :=
  ops4_v104 (Gen.W12 m ρ c) (hdP m ρ c) (D2 m ρ c) (T97 m ρ c) (w12_v0 m ρ c) (w12_v86 m ρ c) (w12_v97 m ρ c)
theorem w13_v6 : Gen.W13 m ρ c (Proc.devRef .tc main_v6) = emb m ρ c :=
  (keep4 (Gen.W12 m ρ c) main_v6 (by decide)).trans (w12_v6 m ρ c)

/-! ### Through the last region, whose output no result reads -/

theorem w14_v6 : Gen.W14 m ρ c (Proc.devRef .tc main_v6) = emb m ρ c :=
  (Gen.W14_of_ne m ρ c main_v6 (by decide)).trans (w13_v6 m ρ c)
theorem w14_v104 : Gen.W14 m ρ c (Proc.devRef .tc main_v104) = F2 m ρ c :=
  (Gen.W14_of_ne m ρ c main_v104 (by decide)).trans (w13_v104 m ρ c)

/-! ### The results -/

theorem w15_v124 : Gen.W15 m ρ c (Proc.devRef .tc main_v124) = Stage.outUsers (Stage.outMean (emb m ρ c) (F2 m ρ c)) :=
  ops5_v124 (Gen.W14 m ρ c) (emb m ρ c) (F2 m ρ c) (w14_v6 m ρ c) (w14_v104 m ρ c)
theorem w15_v125 : Gen.W15 m ρ c (Proc.devRef .tc main_v125) = Stage.outItems (Stage.outMean (emb m ρ c) (F2 m ρ c)) :=
  ops5_v125 (Gen.W14 m ρ c) (emb m ρ c) (F2 m ρ c) (w14_v6 m ρ c) (w14_v104 m ρ c)

/-! ## What each region is entered with, and the results -/

/-- The first region's input: the factor rows at the edge tails. -/
theorem entry0 : Gen.V5 m ρ c main_v16 = Stage.rowsAt (eg m ρ c) (tlP m ρ c) := w5_v16 m ρ c
/-- The second region's inputs: the first round's scores, and the normalised factor rows at the edge tails. -/
theorem entry1 : Gen.V7 m ρ c main_v30 = S1
    ∧ Gen.V7 m ρ c main_v47 = Stage.rowsAt (Stage.scale (D1 m ρ c) (eg m ρ c)) (tlP m ρ c) :=
  ⟨w7_v30 m ρ c, w7_v47 m ρ c⟩
/-- The third region's inputs: the first round's factor rows at the edge heads, and the first region's output. -/
theorem entry2 : Gen.V9 m ρ c main_v62 = Stage.rowsAt (F1 m ρ c) (hdP m ρ c) ∧ Gen.V9 m ρ c main_v17 = T17 m ρ c :=
  ⟨w9_v62 m ρ c, w9_v17 m ρ c⟩
/-- The fourth region's inputs: the second round's scores, and the normalised factor rows at the edge tails. -/
theorem entry3 : Gen.V11 m ρ c main_v79 = S2 m ρ c
    ∧ Gen.V11 m ρ c main_v96 = Stage.rowsAt (Stage.scale (D2 m ρ c) (eg m ρ c)) (tlP m ρ c) :=
  ⟨w11_v79 m ρ c, w11_v96 m ρ c⟩
/-- The two result buffers at the end of the run: the user and item halves of the mean of the input embedding and
    the second round's factor embedding. -/
theorem result : Gen.W15 m ρ c (Proc.devRef .tc main_v124) = Stage.outUsers (Stage.outMean (emb m ρ c) (F2 m ρ c))
    ∧ Gen.W15 m ρ c (Proc.devRef .tc main_v125) = Stage.outItems (Stage.outMean (emb m ρ c) (F2 m ρ c)) :=
  ⟨w15_v124 m ρ c, w15_v125 m ρ c⟩

end Cert.KernelIdeal.Read

end
-- ==== Proof.EdgeMath.lean ====
/-
  Functions of one edge's column of values, shared by the padded and the unpadded programs.
-/
import Idealize.ShloMosaic.Lib.ValueIdx
import Idealize.ShloMosaic.PureOps.Ideal
import Idealize.ShloMosaic.Lib.IdealHost

noncomputable section

open scoped BigOperators

namespace Cert.EdgeMath

open Idealize.ShloMosaic Idealize.ShloMosaic.ValueIdx

/-- The true edges inside the padded edge range. -/
abbrev up (e : Fin 1000000) : Fin 1003520 := Fin.castLE (by decide) e

/-- A node number with a negative value wrapped by the node count, as both programs compute it before a gather. -/
def wrapW (v : BitVec 32) : BitVec 32 :=
  select (cmpi .slt (fun _ : (⟨0, ![]⟩ : Shape).Idx => v) (fun _ => (0#32 : BitVec 32)))
    (addi (fun _ : (⟨0, ![]⟩ : Shape).Idx => v) (fun _ => (200000#32 : BitVec 32))) (fun _ => v) ix0

/-- The maximum of an edge's four logits, started from the minus-infinity word as the programs compute it. -/
def colMax (v : Fin 4 → EReal) : EReal :=
  max (Ideal.ofBits .f32 0xFF800000#32) ((Finset.univ : Finset (Fin 4)).fold max (Ideal.ofBits .f32 0xFF800000#32) v)

/-- Softmax of an edge's four logits, as the programs compute it: exponentials of the logits less their maximum, divided by
    their sum from the zero word. -/
def smCol (v : Fin 4 → EReal) (k : Fin 4) : EReal :=
  Ideal.div (Ideal.exp (v k - colMax v)) (Ideal.ofBits .f32 0x00000000#32 + ∑ k' : Fin 4, Ideal.exp (v k' - colMax v))

/-- A row of sixteen lanes divided by the larger of its norm and the small constant. -/
def normLane (x : Fin 16 → EReal) (a : Fin 16) : EReal :=
  Ideal.div (x a) (max (Ideal.sqrt (Ideal.ofBits .f32 0x00000000#32 + ∑ a' : Fin 16, x a' * x a')) (Ideal.ofBits .f32 0x2B8CBCCC#32))

/-- The update of one edge logit: the lane sum of the normalised head row times the tanh of the normalised tail row. -/
def deltaCol (hg tt : Fin 16 → EReal) : EReal :=
  Ideal.ofBits .f32 0x00000000#32 + ∑ a : Fin 16, normLane hg a * Ideal.tanh (normLane tt a)

end Cert.EdgeMath

end
-- ==== Proof.LibMidAxis.lean ====
/-
  Per-factor arrays indexed (factor, node, lane) or (factor, node), gathered and scatter-added along the NODE axis by a
  column of node numbers, one per edge.

  * The gather: result element (k, e, a) is the operand at (k, row, a), where row is the e-th node number read signed and
    clamped into the node range.
  * The accumulating scatter at the ideal instance: update element (k, e[, a]) lands on operand element (k, n[, a]) where n
    is the e-th node number read signed and NOT clamped, and is dropped when that is no node.
  * The padding law: extend the edge list by further entries whose updates are all zero. Whatever node numbers the extra
    entries carry, every node receives the same sum, because the extra terms are zeros. So the scatter over the longer
    list equals the scatter over the shorter one.
-/
import Idealize.ShloMosaic.Lib.ValueIdx
import Idealize.ShloMosaic.PureOps.Ideal

noncomputable section

open scoped BigOperators

namespace Idealize.ShloMosaic.MidAxis

open Idealize.ShloMosaic Idealize.ShloMosaic.ValueIdx

/-! ## Sums -/

/-- A sum over a longer range whose terms vanish past the shorter range is the sum over the shorter range. -/
theorem sum_castLE {M : Type*} [AddCommMonoid M] {E E' : Nat} (hE : E ≤ E') (f : Fin E' → M) (g : Fin E → M)
    (h1 : ∀ e, f (Fin.castLE hE e) = g e) (h0 : ∀ e' : Fin E', E ≤ e'.val → f e' = 0) : ∑ e', f e' = ∑ e, g e := by
  rw [← Finset.sum_subset (Finset.subset_univ (Finset.univ.image (Fin.castLE hE)))
    (fun e' _ hn => h0 e' (by
      by_contra hlt
      exact hn (Finset.mem_image.mpr ⟨⟨e'.val, by omega⟩, Finset.mem_univ _, Fin.ext rfl⟩)))]
  rw [Finset.sum_image (fun a _ b _ h => Fin.ext (by have := congrArg Fin.val h; simpa using this))]
  exact Finset.sum_congr rfl fun e _ => h1 e

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather along the node axis -/

variable {α : Type}

/-- The dimension numbers of a gather from [B, N, A] by an [E, 1] column of node numbers into [B, E, A]. -/
abbrev gdims (B N A E : Nat)
    (wf : GatherDims.WF ⟨3, ![B, N, A]⟩ ⟨2, ![E, 1]⟩ ⟨3, ![B, E, A]⟩ [0, 2] [1] [] [1] [] 1 ![B, 1, A]) :
    GatherDims ⟨3, ![B, N, A]⟩ ⟨2, ![E, 1]⟩ ⟨3, ![B, E, A]⟩ where
  offsetDims := [0, 2]
  collapsedSliceDims := [1]
  operandBatchingDims := []
  startIndicesBatchingDims := []
  startIndexMap := [1]
  indexVectorDim := 1
  sliceSizes := ![B, 1, A]
  wf := wf

/-- The node a start index selects: its signed value clamped into [0, N - 1]. -/
def rowOf (N : Nat) (hN : 0 < N) {w : Nat} (v : BitVec w) : Fin N := ⟨min v.toInt.toNat (N - 1), by omega⟩

/-- THE READ of the gather at (k, e, a). -/
theorem gather_apply {B N A E w : Nat} (hN : 0 < N)
    (wf : GatherDims.WF ⟨3, ![B, N, A]⟩ ⟨2, ![E, 1]⟩ ⟨3, ![B, E, A]⟩ [0, 2] [1] [] [1] [] 1 ![B, 1, A])
    (x : (⟨3, ![B, N, A]⟩ : Shape).Idx → α) (idx : IVec ⟨2, ![E, 1]⟩ w) (k : Fin B) (e : Fin E) (a : Fin A) :
    Host.gather (gdims B N A E wf) x idx (ix3 k e a) = x (ix3 k (rowOf N hN (idx (ix2 e (0 : Fin 1)))) a) := by
  unfold Host.gather
  refine congrArg x ?_
  funext ax
  refine Fin.ext ?_
  show (gdims B N A E wf).start (ix3 k e a) idx ax + (gdims B N A E wf).batchCoord (ix3 k e a) ax + (gdims B N A E wf).offCoord (ix3 k e a) ax = _
  rw [GatherDims.batchCoord_eq_zero _ _ _ List.not_mem_nil]
  match ax with
  | ⟨0, _⟩ =>
    unfold GatherDims.start
    rw [dif_neg (show ¬ (⟨0, _⟩ : Fin 3) ∈ (gdims B N A E wf).startIndexMap by
      show ¬ (⟨0, _⟩ : Fin 3) ∈ [(1 : Fin 3)]
      simp [Fin.ext_iff])]
    unfold GatherDims.offCoord
    rw [dif_pos (show (⟨0, _⟩ : Fin 3) ∈ (gdims B N A E wf).sKept from
      (GatherDims.mem_sKept _ _).mpr ⟨by show ¬ (⟨0, _⟩ : Fin 3) ∈ [(1 : Fin 3)]; simp [Fin.ext_iff], List.not_mem_nil⟩)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, _⟩ : Fin 3) ∈ (gdims B N A E wf).startIndexMap from List.mem_singleton.mpr rfl)]
    have hsi : (gdims B N A E wf).siIdx (ix3 k e a) ⟨List.idxOf (⟨1, by decide⟩ : Fin 3) (gdims B N A E wf).startIndexMap,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
    rfl
  | ⟨2, _⟩ =>
    unfold GatherDims.start
    rw [dif_neg (show ¬ (⟨2, _⟩ : Fin 3) ∈ (gdims B N A E wf).startIndexMap by
      show ¬ (⟨2, _⟩ : Fin 3) ∈ [(1 : Fin 3)]
      simp [Fin.ext_iff])]
    unfold GatherDims.offCoord
    rw [dif_pos (show (⟨2, _⟩ : Fin 3) ∈ (gdims B N A E wf).sKept from
      (GatherDims.mem_sKept _ _).mpr ⟨by show ¬ (⟨2, _⟩ : Fin 3) ∈ [(1 : Fin 3)]; simp [Fin.ext_iff], List.not_mem_nil⟩)]
    simp only [Nat.zero_add]
    rfl

/-! ## Where an update of the scatter lands -/

/-- The operand index at the coordinates `g`, when they are all inside the operand. -/
def landing (s : Shape) (g : Fin s.rank → Int) : Option s.Idx :=
  if h : ∀ a, 0 ≤ g a ∧ g a < s.size a then some fun a => ⟨(g a).toNat, by have := h a; omega⟩ else none

/-- An update lands at its start plus its window coordinate on every axis. -/
theorem resultIdx?_eq_landing {s si su : Shape} (d : ScatterDims s si su) {w : Nat} (j : su.Idx) (idx : IVec si w) :
    d.resultIdx? j idx = landing s (fun a => d.start j idx a + d.window j a) := rfl

/-- The dimension numbers of a scatter into [B, N] by an [E, 1] column of node numbers with updates [B, E]. -/
abbrev sdims2 (B N E : Nat) (wf : ScatterDims.WF ⟨2, ![B, N]⟩ ⟨2, ![E, 1]⟩ ⟨2, ![B, E]⟩ [0] [1] [1] 1) :
    ScatterDims ⟨2, ![B, N]⟩ ⟨2, ![E, 1]⟩ ⟨2, ![B, E]⟩ where
  updateWindowDims := [0]
  insertedWindowDims := [1]
  scatterDimsToOperandDims := [1]
  indexVectorDim := 1
  wf := wf

/-- The dimension numbers of a scatter into [B, N, A] by an [E, 1] column of node numbers with updates [B, E, A]. -/
abbrev sdims3 (B N A E : Nat) (wf : ScatterDims.WF ⟨3, ![B, N, A]⟩ ⟨2, ![E, 1]⟩ ⟨3, ![B, E, A]⟩ [0, 2] [1] [1] 1) :
    ScatterDims ⟨3, ![B, N, A]⟩ ⟨2, ![E, 1]⟩ ⟨3, ![B, E, A]⟩ where
  updateWindowDims := [0, 2]
  insertedWindowDims := [1]
  scatterDimsToOperandDims := [1]
  indexVectorDim := 1
  wf := wf

/-- Update (k, e) of the rank-2 scatter aims at factor k and at the e-th node number read signed. -/
theorem land2 {B N E w : Nat} (wf : ScatterDims.WF ⟨2, ![B, N]⟩ ⟨2, ![E, 1]⟩ ⟨2, ![B, E]⟩ [0] [1] [1] 1)
    (idx : IVec ⟨2, ![E, 1]⟩ w) (k : Fin B) (e : Fin E) :
    (fun a => (sdims2 B N E wf).start (ix2 k e) idx a + ((sdims2 B N E wf).window (ix2 k e) a : Int))
      = fun a : Fin 2 => match a with | ⟨0, _⟩ => (k.val : Int) | ⟨1, _⟩ => (idx (ix2 e (0 : Fin 1))).toInt := by
  funext ax
  match ax with
  | ⟨0, _⟩ =>
    have hs : (sdims2 B N E wf).start (ix2 k e) idx (⟨0, by decide⟩ : Fin 2) = 0 := by
      unfold ScatterDims.start
      rw [dif_neg (show ¬ (⟨0, _⟩ : Fin 2) ∈ (sdims2 B N E wf).scatterDimsToOperandDims by
        show ¬ (⟨0, _⟩ : Fin 2) ∈ [(1 : Fin 2)]
        simp [Fin.ext_iff])]
    have hw : (sdims2 B N E wf).window (ix2 k e) (⟨0, by decide⟩ : Fin 2) = k.val := by
      unfold ScatterDims.window
      rw [dif_pos (show (⟨0, _⟩ : Fin 2) ∈ (sdims2 B N E wf).sKept from
        List.mem_filter.mpr ⟨List.mem_finRange _, decide_eq_true (by
          show ¬ (⟨0, _⟩ : Fin 2) ∈ [(1 : Fin 2)]
          simp [Fin.ext_iff])⟩)]
      rfl
    show (sdims2 B N E wf).start (ix2 k e) idx (⟨0, by decide⟩ : Fin 2) + ((sdims2 B N E wf).window (ix2 k e) (⟨0, by decide⟩ : Fin 2) : Int) = (k.val : Int)
    rw [hs, hw]; simp
  | ⟨1, _⟩ =>
    have hs : (sdims2 B N E wf).start (ix2 k e) idx (⟨1, by decide⟩ : Fin 2) = (idx (ix2 e (0 : Fin 1))).toInt := by
      unfold ScatterDims.start
      rw [dif_pos (show (⟨1, _⟩ : Fin 2) ∈ (sdims2 B N E wf).scatterDimsToOperandDims from List.mem_singleton.mpr rfl)]
      have hsi : (sdims2 B N E wf).siIdx (ix2 k e) ⟨List.idxOf (⟨1, by decide⟩ : Fin 2) (sdims2 B N E wf).scatterDimsToOperandDims,
          List.idxOf_lt_length_iff.2 (List.mem_singleton.mpr rfl)⟩ = ix2 e (0 : Fin 1) := by
        funext d; refine Fin.ext ?_
        match d with
        | ⟨0, _⟩ => rfl
        | ⟨1, _⟩ => rfl
      rw [hsi]
    have hw : (sdims2 B N E wf).window (ix2 k e) (⟨1, by decide⟩ : Fin 2) = 0 := by
      unfold ScatterDims.window
      rw [dif_neg (show ¬ (⟨1, _⟩ : Fin 2) ∈ (sdims2 B N E wf).sKept from fun h =>
        of_decide_eq_true (List.mem_filter.mp h).2 (List.mem_singleton.mpr rfl))]
    show (sdims2 B N E wf).start (ix2 k e) idx (⟨1, by decide⟩ : Fin 2) + ((sdims2 B N E wf).window (ix2 k e) (⟨1, by decide⟩ : Fin 2) : Int) = _
    rw [hs, hw]; simp

/-- Update (k, e, a) of the rank-3 scatter aims at factor k, at the e-th node number read signed, and at lane a. -/
theorem land3 {B N A E w : Nat} (wf : ScatterDims.WF ⟨3, ![B, N, A]⟩ ⟨2, ![E, 1]⟩ ⟨3, ![B, E, A]⟩ [0, 2] [1] [1] 1)
    (idx : IVec ⟨2, ![E, 1]⟩ w) (k : Fin B) (e : Fin E) (a : Fin A) :
    (fun ax => (sdims3 B N A E wf).start (ix3 k e a) idx ax + ((sdims3 B N A E wf).window (ix3 k e a) ax : Int))
      = fun ax : Fin 3 => match ax with | ⟨0, _⟩ => (k.val : Int) | ⟨1, _⟩ => (idx (ix2 e (0 : Fin 1))).toInt | ⟨2, _⟩ => (a.val : Int) := by
  funext ax
  match ax with
  | ⟨0, _⟩ =>
    have hs : (sdims3 B N A E wf).start (ix3 k e a) idx (⟨0, by decide⟩ : Fin 3) = 0 := by
      unfold ScatterDims.start
      rw [dif_neg (show ¬ (⟨0, _⟩ : Fin 3) ∈ (sdims3 B N A E wf).scatterDimsToOperandDims by
        show ¬ (⟨0, _⟩ : Fin 3) ∈ [(1 : Fin 3)]
        simp [Fin.ext_iff])]
    have hw : (sdims3 B N A E wf).window (ix3 k e a) (⟨0, by decide⟩ : Fin 3) = k.val := by
      unfold ScatterDims.window
      rw [dif_pos (show (⟨0, _⟩ : Fin 3) ∈ (sdims3 B N A E wf).sKept from
        List.mem_filter.mpr ⟨List.mem_finRange _, decide_eq_true (by
          show ¬ (⟨0, _⟩ : Fin 3) ∈ [(1 : Fin 3)]
          simp [Fin.ext_iff])⟩)]
      rfl
    show (sdims3 B N A E wf).start (ix3 k e a) idx (⟨0, by decide⟩ : Fin 3) + ((sdims3 B N A E wf).window (ix3 k e a) (⟨0, by decide⟩ : Fin 3) : Int) = (k.val : Int)
    rw [hs, hw]; simp
  | ⟨1, _⟩ =>
    have hs : (sdims3 B N A E wf).start (ix3 k e a) idx (⟨1, by decide⟩ : Fin 3) = (idx (ix2 e (0 : Fin 1))).toInt := by
      unfold ScatterDims.start
      rw [dif_pos (show (⟨1, _⟩ : Fin 3) ∈ (sdims3 B N A E wf).scatterDimsToOperandDims from List.mem_singleton.mpr rfl)]
      have hsi : (sdims3 B N A E wf).siIdx (ix3 k e a) ⟨List.idxOf (⟨1, by decide⟩ : Fin 3) (sdims3 B N A E wf).scatterDimsToOperandDims,
          List.idxOf_lt_length_iff.2 (List.mem_singleton.mpr rfl)⟩ = ix2 e (0 : Fin 1) := by
        funext d; refine Fin.ext ?_
        match d with
        | ⟨0, _⟩ => rfl
        | ⟨1, _⟩ => rfl
      rw [hsi]
    have hw : (sdims3 B N A E wf).window (ix3 k e a) (⟨1, by decide⟩ : Fin 3) = 0 := by
      unfold ScatterDims.window
      rw [dif_neg (show ¬ (⟨1, _⟩ : Fin 3) ∈ (sdims3 B N A E wf).sKept from fun h =>
        of_decide_eq_true (List.mem_filter.mp h).2 (List.mem_singleton.mpr rfl))]
    show (sdims3 B N A E wf).start (ix3 k e a) idx (⟨1, by decide⟩ : Fin 3) + ((sdims3 B N A E wf).window (ix3 k e a) (⟨1, by decide⟩ : Fin 3) : Int) = _
    rw [hs, hw]; simp
  | ⟨2, _⟩ =>
    have hs : (sdims3 B N A E wf).start (ix3 k e a) idx (⟨2, by decide⟩ : Fin 3) = 0 := by
      unfold ScatterDims.start
      rw [dif_neg (show ¬ (⟨2, _⟩ : Fin 3) ∈ (sdims3 B N A E wf).scatterDimsToOperandDims by
        show ¬ (⟨2, _⟩ : Fin 3) ∈ [(1 : Fin 3)]
        simp [Fin.ext_iff])]
    have hw : (sdims3 B N A E wf).window (ix3 k e a) (⟨2, by decide⟩ : Fin 3) = a.val := by
      unfold ScatterDims.window
      rw [dif_pos (show (⟨2, _⟩ : Fin 3) ∈ (sdims3 B N A E wf).sKept from
        List.mem_filter.mpr ⟨List.mem_finRange _, decide_eq_true (by
          show ¬ (⟨2, _⟩ : Fin 3) ∈ [(1 : Fin 3)]
          simp [Fin.ext_iff])⟩)]
      rfl
    show (sdims3 B N A E wf).start (ix3 k e a) idx (⟨2, by decide⟩ : Fin 3) + ((sdims3 B N A E wf).window (ix3 k e a) (⟨2, by decide⟩ : Fin 3) : Int) = (a.val : Int)
    rw [hs, hw]; simp

/-! ## The padding law -/

/-- THE PADDING LAW, rank 2: a scatter-add over E' ≥ E edges whose node numbers and updates agree with those of an
    E-edge scatter on the first E edges, and whose updates are zero on the others, is that E-edge scatter. -/
theorem scatterAdd2_pad {B N E E' w : Nat} (hE : E ≤ E')
    (wf : ScatterDims.WF ⟨2, ![B, N]⟩ ⟨2, ![E, 1]⟩ ⟨2, ![B, E]⟩ [0] [1] [1] 1)
    (wf' : ScatterDims.WF ⟨2, ![B, N]⟩ ⟨2, ![E', 1]⟩ ⟨2, ![B, E']⟩ [0] [1] [1] 1)
    (x : (⟨2, ![B, N]⟩ : Shape).Idx → EReal) (idx : IVec ⟨2, ![E, 1]⟩ w) (idx' : IVec ⟨2, ![E', 1]⟩ w)
    (u : (⟨2, ![B, E]⟩ : Shape).Idx → EReal) (u' : (⟨2, ![B, E']⟩ : Shape).Idx → EReal)
    (hidx : ∀ e : Fin E, idx' (ix2 (Fin.castLE hE e) (0 : Fin 1)) = idx (ix2 e (0 : Fin 1)))
    (hu : ∀ (k : Fin B) (e : Fin E), u' (ix2 k (Fin.castLE hE e)) = u (ix2 k e))
    (hz : ∀ (k : Fin B) (e' : Fin E'), E ≤ e'.val → u' (ix2 k e') = 0) :
    Ideal.hostScatterAdd (sdims2 B N E' wf') x idx' u' = Ideal.hostScatterAdd (sdims2 B N E wf) x idx u := by
  funext i
  unfold Ideal.hostScatterAdd
  refine congrArg (fun t => x i + t) ?_
  rw [Finset.sum_filter, Finset.sum_filter, sum_idx2, sum_idx2]
  refine Finset.sum_congr rfl fun k _ => ?_
  refine sum_castLE hE _ _ (fun e => ?_) (fun e' he' => ?_)
  · rw [resultIdx?_eq_landing, resultIdx?_eq_landing, land2, land2, hidx e, hu k e]
  · rw [hz k e' he']; exact ite_self _

/-- THE PADDING LAW, rank 3. -/
theorem scatterAdd3_pad {B N A E E' w : Nat} (hE : E ≤ E')
    (wf : ScatterDims.WF ⟨3, ![B, N, A]⟩ ⟨2, ![E, 1]⟩ ⟨3, ![B, E, A]⟩ [0, 2] [1] [1] 1)
    (wf' : ScatterDims.WF ⟨3, ![B, N, A]⟩ ⟨2, ![E', 1]⟩ ⟨3, ![B, E', A]⟩ [0, 2] [1] [1] 1)
    (x : (⟨3, ![B, N, A]⟩ : Shape).Idx → EReal) (idx : IVec ⟨2, ![E, 1]⟩ w) (idx' : IVec ⟨2, ![E', 1]⟩ w)
    (u : (⟨3, ![B, E, A]⟩ : Shape).Idx → EReal) (u' : (⟨3, ![B, E', A]⟩ : Shape).Idx → EReal)
    (hidx : ∀ e : Fin E, idx' (ix2 (Fin.castLE hE e) (0 : Fin 1)) = idx (ix2 e (0 : Fin 1)))
    (hu : ∀ (k : Fin B) (e : Fin E) (a : Fin A), u' (ix3 k (Fin.castLE hE e) a) = u (ix3 k e a))
    (hz : ∀ (k : Fin B) (e' : Fin E') (a : Fin A), E ≤ e'.val → u' (ix3 k e' a) = 0) :
    Ideal.hostScatterAdd (sdims3 B N A E' wf') x idx' u' = Ideal.hostScatterAdd (sdims3 B N A E wf) x idx u := by
  funext i
  unfold Ideal.hostScatterAdd
  refine congrArg (fun t => x i + t) ?_
  rw [Finset.sum_filter, Finset.sum_filter, sum_idx3, sum_idx3]
  refine Finset.sum_congr rfl fun k _ => ?_
  refine sum_castLE hE _ _ (fun e => ?_) (fun e' he' => ?_)
  · refine Finset.sum_congr rfl fun a _ => ?_
    rw [resultIdx?_eq_landing, resultIdx?_eq_landing, land3, land3, hidx e, hu k e a]
  · refine Finset.sum_eq_zero fun a _ => ?_
    rw [hz k e' a he']; exact ite_self _

end Idealize.ShloMosaic.MidAxis

end
-- ==== Proof.ReadsK.lean ====
/-
  The idealized kernel's host stages read at an index: on a true edge (inside the first 1,000,000 of the padded range)
  and, for the masked stages, on a padded edge, where they vanish.
-/
import proofs.«141132_j64287070486722_2_alg».proof.Proof.StagesK
import proofs.«141132_j64287070486722_2_alg».proof.Proof.EdgeMath
import proofs.«141132_j64287070486722_2_alg».proof.Proof.LibMidAxis
import Idealize.ShloMosaic.Lib.Pipeline.Value
import Idealize.ShloMosaic.Lib.KernelVsHost
import Idealize.ShloMosaic.Lib.IdealHost
import Idealize.ShloMosaic.PureOps.Ideal.Laws

noncomputable section

open scoped BigOperators

namespace Cert.KernelIdeal.Reads

open Cert.KernelIdeal Cert.KernelIdeal.Gen Cert.KernelIdeal.Stage Cert.EdgeMath Idealize.ShloMosaic Idealize.ShloMosaic.ValueIdx

/-- The host's pointwise operations at an index, at the ideal instance. -/
theorem hdiv_apply {s : Shape} (a b : FVec Ideal s .f32) (i : s.Idx) : Host.divf (F := Ideal) a b i = Ideal.div (a i) (b i) := rfl
theorem hexp_apply {s : Shape} (a : FVec Ideal s .f32) (i : s.Idx) : Host.exp (F := Ideal) a i = Ideal.exp (a i) := rfl
theorem hsqrt_apply {s : Shape} (a : FVec Ideal s .f32) (i : s.Idx) : Host.sqrt (F := Ideal) a i = Ideal.sqrt (a i) := rfl
theorem htanh_apply {s : Shape} (a : FVec Ideal s .f32) (i : s.Idx) : Host.tanh (F := Ideal) a i = Ideal.tanh (a i) := rfl

/-- A scalar spread over any shape reads the scalar. -/
theorem bc_scalar {α : Type} {s : Shape} (h : S_.BroadcastsInDim s (![] : Fin 0 → Fin s.rank)) (x : S_.Idx → α) (j : s.Idx) :
    broadcastInDim s ![] h x j = x ix0 :=
  broadcastInDim_apply _ h x j ix0 (fun a => a.elim0)

/-- A per-edge vector spread over the four factors reads the vector at the edge. -/
theorem bc_edge {α : Type} (x : S1003520.Idx → α) (k : Fin 4) (e : Fin 1003520) :
    broadcastInDim S4x1003520 ![0, 1] bcast_S1x1003520_S4x1003520_0_1 (broadcastInDim S1x1003520 ![1] bcast_S1003520_S1x1003520_1 x) (ix2 k e)
      = x (ix1 e) := by
  rw [broadcastInDim_apply _ _ _ (ix2 k e) (ix2 (0 : Fin 1) e) (fun a => by match a with | ⟨0, _⟩ => rfl | ⟨1, _⟩ => rfl)]
  exact broadcastInDim_apply _ _ _ _ (ix1 e) (fun a => by match a with | ⟨0, _⟩ => rfl)

theorem red0 : S4x1003520.Reduces [0] S1003520 := by decide

theorem lift0 (e : Fin 1003520) (k : Fin (S4x1003520.size 0)) : red0.lift (ix1 e) k = ix2 (n0 := 4) k e := by
  funext a; refine Fin.ext ?_
  match a with
  | ⟨0, _⟩ => rfl
  | ⟨1, _⟩ => rfl

/-- The maximum over the four factors, read at an edge. -/
theorem colMax_read (fv : Arr (F := Ideal) S4x1003520) (e : Fin 1003520) :
    maximumf (F := Ideal) (broadcastInDim S1003520 ![] bcast_S_S1003520 (constant (F := Ideal) S_ .f32 0xFF800000#32))
        (Host.reduce FloatOps.maximumf fv (constant (F := Ideal) S_ .f32 0xFF800000#32) reducesTo_S4x1003520_S1003520_d0 h_S_) (ix1 e)
      = colMax (fun k => fv (ix2 k e)) := by
  rw [maximumf_apply, bc_scalar]
  have h := Host.reduce_eq_fold_single (FloatOps.maximumf (F := Ideal) (φ := .f32)) fv (constant (F := Ideal) S_ .f32 0xFF800000#32)
    reducesTo_S4x1003520_S1003520_d0 red0 h_S_ (ix1 e)
  refine (congrArg (max _) h).trans ?_
  unfold colMax
  simp only [constant_apply, Function.comp_def, lift0, Ideal.maximumf_def]
  rfl

/-- The shifted exponentials, read at an index. -/
theorem expShift_read (fv : Arr (F := Ideal) S4x1003520) (k : Fin 4) (e : Fin 1003520) :
    expShift fv (ix2 k e) = Ideal.exp (fv (ix2 k e) - colMax (fun k' => fv (ix2 k' e))) := by
  unfold expShift
  rw [hexp_apply, subf_apply, bc_edge, colMax_read]

/-- The sum over the four factors from the zero word, read at an edge. -/
theorem facSum_read (x : Arr (F := Ideal) S4x1003520) (e : Fin 1003520) :
    Host.reduceAdd (F := Ideal) x (constant (F := Ideal) S_ .f32 0x00000000#32) reducesTo_S4x1003520_S1003520_d0 h_S_ (ix1 e)
      = Ideal.ofBits .f32 0x00000000#32 + ∑ k : Fin 4, x (ix2 k e) := by
  simp only [Host.reduceAdd, Ideal.hostReduceAdd_def]
  rw [Ideal.hostReduceAdd_single reducesTo_S4x1003520_S1003520_d0 red0]
  simp only [lift0, constant_apply]
  rfl

/-- An array divided by its sum over the four factors, read at an index. -/
theorem divSum_read (x : Arr (F := Ideal) S4x1003520) (k : Fin 4) (e : Fin 1003520) :
    Host.divf (F := Ideal) x (broadcastInDim S4x1003520 ![0, 1] bcast_S1x1003520_S4x1003520_0_1
      (broadcastInDim S1x1003520 ![1] bcast_S1003520_S1x1003520_1
        (Host.reduceAdd (F := Ideal) x (constant (F := Ideal) S_ .f32 0x00000000#32) reducesTo_S4x1003520_S1003520_d0 h_S_))) (ix2 k e)
      = Ideal.div (x (ix2 k e)) (Ideal.ofBits .f32 0x00000000#32 + ∑ k' : Fin 4, x (ix2 k' e)) := by
  rw [hdiv_apply, bc_edge, facSum_read]

/-- Softmax over the four factors, read at an index. -/
theorem softmax_read (fv : Arr (F := Ideal) S4x1003520) (k : Fin 4) (e : Fin 1003520) :
    softmax fv (ix2 k e) = smCol (fun k' => fv (ix2 k' e)) k := by
  unfold softmax
  rw [divSum_read]
  unfold smCol
  simp only [expShift_read]

/-- The initial logits are the one word everywhere. -/
theorem ones_read (k : Fin 4) (e : Fin 1003520) : ones (F := Ideal) (ix2 k e) = Ideal.ofBits .f32 0x3F800000#32 := by
  unfold ones; rw [bc_scalar]; rfl

/-- An index vector as a column reads the vector. -/
theorem col_read (w : IArr (F := Ideal) S1003520) (e : Fin 1003520) : col w (ix2 e (0 : Fin 1)) = w (ix1 e) :=
  broadcastInDim_apply _ _ _ _ (ix1 e) (fun b => by match b with | ⟨0, _⟩ => rfl)

/-- The wrapped index column reads the wrapped word of the vector's entry. -/
theorem wrapCol_read (w : IArr (F := Ideal) S1003520) (e : Fin 1003520) : wrapCol w (ix2 e (0 : Fin 1)) = wrapW (w (ix1 e)) := by
  unfold wrapCol
  rw [broadcastInDim_apply _ _ _ _ (ix1 e) (fun b => by match b with | ⟨0, _⟩ => rfl)]
  rfl

/-- The gathered rows, read at an index: the row the wrapped word names, clamped into the node range. -/
theorem rowsAt_read (x : Arr (F := Ideal) S4x200000x16) (w : IArr (F := Ideal) S1003520) (k : Fin 4) (e : Fin 1003520) (a : Fin 16) :
    rowsAt x w (ix3 k e a) = x (ix3 k (MidAxis.rowOf 200000 (by decide) (wrapW (w (ix1 e)))) a) := by
  unfold rowsAt
  show Host.gather (MidAxis.gdims 4 200000 16 1003520 gather_S4x200000x16_S1003520x1_S4x1003520x16_02_1_n_n_1_1_4116_wf) x (wrapCol w) (ix3 k e a) = _
  rw [MidAxis.gather_apply (by decide), wrapCol_read]

/-! ## The padding and the mask -/

/-- The padded index vector on a true edge is the given vector's entry. -/
theorem padIdx_read (w : IArr (F := Ideal) S1000000) (e : Fin 1000000) : padIdx w (ix1 (up e)) = w (ix1 e) := by
  unfold padIdx
  exact pad_apply_of_inside _ _ _ w _ pads_S1000000_S1003520_035200 h_S_ (ix1 (up e)) (ix1 e)
    (fun a => by match a with | ⟨0, _⟩ => show e.val = 0 + e.val * (0 + 1); omega)

/-- The mask row is one on a true edge. -/
theorem maskRow_true (e : Fin 1000000) : maskRow (F := Ideal) (ix2 (0 : Fin 1) (up e)) = 1 := by
  unfold maskRow
  rw [broadcastInDim_apply _ _ _ _ (ix1 (up e)) (fun b => by match b with | ⟨0, _⟩ => rfl)]
  rw [concatenate_pair_apply_left (t := S1003520) (s₁ := S1000000) (s₂ := S3520) (0 : Fin 1) _ _ concatenates_S1000000_S3520_S1003520_d0 (ix1 (up e)) rfl (ix1 e)
    (fun b => by match b with | ⟨0, _⟩ => rfl)]
  rw [bc_scalar, constant_apply, Ideal.ofBits_one_f32]

/-- The mask row is zero on a padded edge. -/
theorem maskRow_pad (e' : Fin 1003520) (h : 1000000 ≤ e'.val) : maskRow (F := Ideal) (ix2 (0 : Fin 1) e') = 0 := by
  unfold maskRow
  rw [broadcastInDim_apply _ _ _ _ (ix1 e') (fun b => by match b with | ⟨0, _⟩ => rfl)]
  rw [concatenate_pair_apply_right (t := S1003520) (s₁ := S1000000) (s₂ := S3520) (0 : Fin 1) _ _ concatenates_S1000000_S3520_S1003520_d0 (ix1 e') rfl rfl
    (ix1 (⟨e'.val - 1000000, by have := e'.isLt; omega⟩ : Fin 3520))
    (fun b hb => absurd (by match b with | ⟨0, _⟩ => rfl) hb)
    (by show e'.val - 1000000 + 1000000 = e'.val; omega)]
  rw [bc_scalar, constant_apply, Ideal.ofBits_zero_f32]

/-- The mask over the four factors reads the mask row. -/
theorem maskAll_read (k : Fin 4) (e' : Fin 1003520) : maskAll (F := Ideal) (ix2 k e') = maskRow (F := Ideal) (ix2 (0 : Fin 1) e') := by
  unfold maskAll
  exact broadcastInDim_apply _ _ _ _ (ix2 (0 : Fin 1) e') (fun b => by match b with | ⟨0, _⟩ => rfl | ⟨1, _⟩ => rfl)

/-- The masked scores on a true edge are the softmax of the edge's logits. -/
theorem scores_true (fv : Arr (F := Ideal) S4x1003520) (k : Fin 4) (e : Fin 1000000) :
    scores fv (ix2 k (up e)) = smCol (fun k' => fv (ix2 k' (up e))) k := by
  unfold scores
  rw [mulf_apply, maskAll_read, maskRow_true, mul_one, softmax_read]

/-- The masked scores vanish on a padded edge. -/
theorem scores_pad (fv : Arr (F := Ideal) S4x1003520) (k : Fin 4) (e' : Fin 1003520) (h : 1000000 ≤ e'.val) :
    scores fv (ix2 k e') = 0 := by
  unfold scores
  rw [mulf_apply, maskAll_read, maskRow_pad e' h, mul_zero]

/-- The next logits on a true edge: the old logit plus the update. -/
theorem nextLogits_true (fv d : Arr (F := Ideal) S4x1003520) (k : Fin 4) (e : Fin 1000000) :
    nextLogits fv d (ix2 k (up e)) = fv (ix2 k (up e)) + d (ix2 k (up e)) := by
  unfold nextLogits
  rw [addf_apply, mulf_apply, maskAll_read, maskRow_true, mul_one]

end Cert.KernelIdeal.Reads

end
-- ==== Proof.StagesR.lean ====
/-
  The idealized reference as whole-array stage functions, and its run's result as their composition.

  The reference works on the 1,000,000 edges as given, with no mask.  One round of message passing is, per factor k:
    scores  = softmax over the four factors of the edge logits;
    dcol    = 1 / sqrt (sum over the edges into a node of scores);
    message = scores(edge) * (dcol * ego)(tail of the edge);
    factor  = dcol * (sum over the edges into a node of message);
    logits' = logits + sum over the 16 lanes of normalize(factor at the head) * tanh(normalize(ego at the tail)).
  Two rounds are run; the result is the mean of the input embedding and the second round's factor embedding.
-/
import proofs.«141132_j64287070486722_2_alg».proof.Proof.Gen.ReferenceIdeal.Run

noncomputable section

namespace Cert.ReferenceIdeal.Stage

open Cert.ReferenceIdeal Cert.ReferenceIdeal.Gen Idealize.ShloMosaic Idealize.ShloMosaic.StableHlo

variable {F : FTy → Type} [FloatOps F]

/-- Float arrays of a shape. -/
abbrev Arr (S : Shape) : Type := (⟨S, .f32⟩ : BufTy).Contents (Elt F)
/-- 32-bit integer arrays of a shape. -/
abbrev IArr (S : Shape) : Type := (⟨S, .i32⟩ : BufTy).Contents (Elt F)

/-- Users stacked on items. -/
def allEmb (a0 a1 : Arr (F := F) S100000x64) : Arr (F := F) S200000x64 :=
  concatenate S200000x64 0 [⟨S100000x64, a0⟩, ⟨S100000x64, a1⟩] concatenates_S100000x64_S100000x64_S200000x64_d0

/-- The embedding split into four factors of sixteen lanes, factor axis first. -/
def ego (e : Arr (F := F) S200000x64) : Arr (F := F) S4x200000x16 :=
  transpose S4x200000x16 [1, 0, 2] (shapeCast _ e shapeCasts_S200000x64_S200000x4x16) transposes_S200000x4x16_S4x200000x16_1_0_2

/-- The initial edge logits: all ones. -/
def ones : Arr (F := F) S4x1000000 := broadcastInDim S4x1000000 ![] bcast_S_S4x1000000 (constant S_ .f32 0x3F800000#32)

/-- A node-index vector with negative entries wrapped by the node count, as an index column. -/
def wrapCol (w : IArr (F := F) S1000000) : IArr (F := F) S1000000x1 :=
  broadcastInDim S1000000x1 ![0] bcast_S1000000_S1000000x1_0
    (select (cmpi .slt w (broadcastInDim S1000000 ![] bcast_S_S1000000 (constantI S_ 32 0#32)))
      (addi w (broadcastInDim S1000000 ![] bcast_S_S1000000 (constantI S_ 32 200000#32))) w)

/-- The rows of a per-node array at the nodes an index vector names, per factor. -/
def rowsAt (x : Arr (F := F) S4x200000x16) (w : IArr (F := F) S1000000) : Arr (F := F) S4x1000000x16 :=
  Host.gather gather_S4x200000x16_S1000000x1_S4x1000000x16_02_1_n_n_1_1_4116 x (wrapCol w)

/-- The exponentials of the logits shifted by their maximum over the four factors. -/
def expShift (fv : Arr (F := F) S4x1000000) : Arr (F := F) S4x1000000 :=
  Host.exp (subf fv (broadcastInDim S4x1000000 ![0, 1] bcast_S1x1000000_S4x1000000_0_1
    (broadcastInDim S1x1000000 ![1] bcast_S1000000_S1x1000000_1
      (maximumf (broadcastInDim S1000000 ![] bcast_S_S1000000 (constant S_ .f32 0xFF800000#32))
        (Host.reduce FloatOps.maximumf fv (constant S_ .f32 0xFF800000#32) reducesTo_S4x1000000_S1000000_d0 h_S_)))))

/-- Softmax over the four factors. -/
def softmax (fv : Arr (F := F) S4x1000000) : Arr (F := F) S4x1000000 :=
  Host.divf (expShift fv) (broadcastInDim S4x1000000 ![0, 1] bcast_S1x1000000_S4x1000000_0_1
    (broadcastInDim S1x1000000 ![1] bcast_S1000000_S1x1000000_1
      (Host.reduceAdd (expShift fv) (constant S_ .f32 0x00000000#32) reducesTo_S4x1000000_S1000000_d0 h_S_)))

/-- An index vector as an index column. -/
def col (w : IArr (F := F) S1000000) : IArr (F := F) S1000000x1 := broadcastInDim S1000000x1 ![0] bcast_S1000000_S1000000x1_0 w

/-- Per factor and node, the sum of an edge quantity over the edges whose head is the node. -/
def seg2 (hd : IArr (F := F) S1000000) (u : Arr (F := F) S4x1000000) : Arr (F := F) S4x200000 :=
  Host.scatterAdd scatter_S4x200000_S1000000x1_S4x1000000_0_1_1_1
    (broadcastInDim S4x200000 ![1] bcast_S200000_S4x200000_1 (broadcastInDim S200000 ![] bcast_S_S200000 (constant S_ .f32 0x00000000#32)))
    (col hd) u

/-- One over the square root of a per-node quantity. -/
def invSqrt (x : Arr (F := F) S4x200000) : Arr (F := F) S4x200000 :=
  Host.divf (broadcastInDim S4x200000 ![] bcast_S_S4x200000 (constant S_ .f32 0x3F800000#32)) (Host.sqrt x)

/-- The degree normaliser of a round. -/
def dcol (hd : IArr (F := F) S1000000) (s : Arr (F := F) S4x1000000) : Arr (F := F) S4x200000 := invSqrt (seg2 hd s)

/-- A per-node factor spread over the sixteen lanes, times a per-node array. -/
def scale (d : Arr (F := F) S4x200000) (x : Arr (F := F) S4x200000x16) : Arr (F := F) S4x200000x16 :=
  mulf (broadcastInDim S4x200000x16 ![0, 1, 2] bcast_S4x200000x1_S4x200000x16_0_1_2
    (broadcastInDim S4x200000x1 ![0, 1] bcast_S4x200000_S4x200000x1_0_1 d)) x

/-- Per factor, node and lane, the sum of an edge quantity over the edges whose head is the node. -/
def seg3 (hd : IArr (F := F) S1000000) (u : Arr (F := F) S4x1000000x16) : Arr (F := F) S4x200000x16 :=
  Host.scatterAdd scatter_S4x200000x16_S1000000x1_S4x1000000x16_02_1_1_1
    (broadcastInDim S4x200000x16 ![1, 2] bcast_S200000x16_S4x200000x16_1_2 (broadcastInDim S200000x16 ![] bcast_S_S200000x16 (constant S_ .f32 0x00000000#32)))
    (col hd) u

/-- An edge's score spread over the sixteen lanes, times a per-edge array. -/
def msg (s : Arr (F := F) S4x1000000) (g : Arr (F := F) S4x1000000x16) : Arr (F := F) S4x1000000x16 :=
  mulf (broadcastInDim S4x1000000x16 ![0, 1, 2] bcast_S4x1000000x1_S4x1000000x16_0_1_2
    (broadcastInDim S4x1000000x1 ![0, 1] bcast_S4x1000000_S4x1000000x1_0_1 s)) g

/-- A per-edge array divided, lane by lane, by the larger of its norm over the sixteen lanes and a small constant. -/
def normalize (x : Arr (F := F) S4x1000000x16) : Arr (F := F) S4x1000000x16 :=
  Host.divf x (broadcastInDim S4x1000000x16 ![0, 1, 2] bcast_S4x1000000x1_S4x1000000x16_0_1_2
    (maximumf (Host.sqrt (broadcastInDim S4x1000000x1 ![0, 1] bcast_S4x1000000_S4x1000000x1_0_1
        (Host.reduceAdd (mulf x x) (constant S_ .f32 0x00000000#32) reducesTo_S4x1000000x16_S4x1000000_d2 h_S_)))
      (broadcastInDim S4x1000000x1 ![] bcast_S_S4x1000000x1 (constant S_ .f32 0x2B8CBCCC#32))))

/-- The update of the edge logits: the lane sum of the normalised head rows times the tanh of the normalised tail rows. -/
def delta (hg tt : Arr (F := F) S4x1000000x16) : Arr (F := F) S4x1000000 :=
  Host.reduceAdd (mulf (normalize hg) (Host.tanh (normalize tt))) (constant S_ .f32 0x00000000#32) reducesTo_S4x1000000x16_S4x1000000_d2 h_S_

/-- The mean of the input embedding and the round's factor embedding laid back as 64 lanes. -/
def outMean (e : Arr (F := F) S200000x64) (fe : Arr (F := F) S4x200000x16) : Arr (F := F) S200000x64 :=
  Host.divf
    (Host.reduceAdd
      (concatenate S200000x2x64 1
        [⟨S200000x1x64, broadcastInDim S200000x1x64 ![0, 2] bcast_S200000x64_S200000x1x64_0_2 e⟩,
         ⟨S200000x1x64, broadcastInDim S200000x1x64 ![0, 2] bcast_S200000x64_S200000x1x64_0_2
            (shapeCast _ (transpose S200000x4x16 [1, 0, 2] fe transposes_S4x200000x16_S200000x4x16_1_0_2) shapeCasts_S200000x4x16_S200000x64)⟩]
        concatenates_S200000x1x64_S200000x1x64_S200000x2x64_d1)
      (constant S_ .f32 0x00000000#32) reducesTo_S200000x2x64_S200000x64_d1 h_S_)
    (broadcastInDim S200000x64 ![] bcast_S_S200000x64 (constant S_ .f32 0x40000000#32))

/-- The user half of the result. -/
def outUsers (x : Arr (F := F) S200000x64) : Arr (F := F) S100000x64 :=
  extractStridedSlice S100000x64 ![0, 0] x slices_S200000x64_S100000x64_0_0
/-- The item half of the result. -/
def outItems (x : Arr (F := F) S200000x64) : Arr (F := F) S100000x64 :=
  extractStridedSlice S100000x64 ![100000, 0] x slices_S200000x64_S100000x64_100000_0

/-! ## The two rounds as a composition -/

section Rounds
variable (a0 a1 : Arr (F := F) S100000x64) (hd tl : IArr (F := F) S1000000)

/-- One round's factor embedding from the edge scores. -/
def factorOf (eg : Arr (F := F) S4x200000x16) (s : Arr (F := F) S4x1000000) : Arr (F := F) S4x200000x16 :=
  scale (dcol hd s) (seg3 hd (msg s (rowsAt (scale (dcol hd s) eg) tl)))

/-- The edge logits after the first round. -/
def logits1 : Arr (F := F) S4x1000000 :=
  addf ones (delta (rowsAt (factorOf hd tl (ego (allEmb a0 a1)) (softmax ones)) hd) (rowsAt (ego (allEmb a0 a1)) tl))

/-- The second round's factor embedding. -/
def factor2 : Arr (F := F) S4x200000x16 := factorOf hd tl (ego (allEmb a0 a1)) (softmax (logits1 a0 a1 hd tl))

end Rounds

/-- The reference run's mean embedding is the two rounds' composition. -/
theorem res_eq (V0 : Valuation τ sig (Elt F)) :
    Value.res_main_v155 V0 = outMean (allEmb (V0 (Proc.devRef .tc main_arg0)) (V0 (Proc.devRef .tc main_arg1)))
      (factor2 (V0 (Proc.devRef .tc main_arg0)) (V0 (Proc.devRef .tc main_arg1)) (V0 (Proc.devRef .tc main_arg2)) (V0 (Proc.devRef .tc main_arg3))) := by
  unfold Value.res_main_v155 Value.res_main_v113 Value.res_main_v93 Value.res_main_v86 Value.res_main_v82 Value.res_main_v75
    Value.res_main_v63 Value.res_main_v48 Value.res_main_v21 Value.res_main_v14 Value.res_main_v10 Value.res_main_v3 Value.res_main_v1 Value.res_main_v0
  rfl

end Cert.ReferenceIdeal.Stage

end
-- ==== Proof.ReadsR.lean ====
/-
  The reference's stages read at an index.
-/
import proofs.«141132_j64287070486722_2_alg».proof.Proof.StagesR
import proofs.«141132_j64287070486722_2_alg».proof.Proof.EdgeMath
import proofs.«141132_j64287070486722_2_alg».proof.Proof.LibMidAxis
import Idealize.ShloMosaic.Lib.Pipeline.Value
import Idealize.ShloMosaic.PureOps.Ideal.Laws

noncomputable section

open scoped BigOperators

namespace Cert.ReferenceIdeal.Reads

open Cert.ReferenceIdeal Cert.ReferenceIdeal.Gen Cert.ReferenceIdeal.Stage Cert.EdgeMath Idealize.ShloMosaic Idealize.ShloMosaic.ValueIdx

/-- The host's pointwise operations at an index, at the ideal instance. -/
theorem hdiv_apply {s : Shape} (a b : FVec Ideal s .f32) (i : s.Idx) : Host.divf (F := Ideal) a b i = Ideal.div (a i) (b i) := rfl
theorem hexp_apply {s : Shape} (a : FVec Ideal s .f32) (i : s.Idx) : Host.exp (F := Ideal) a i = Ideal.exp (a i) := rfl
theorem hsqrt_apply {s : Shape} (a : FVec Ideal s .f32) (i : s.Idx) : Host.sqrt (F := Ideal) a i = Ideal.sqrt (a i) := rfl
theorem htanh_apply {s : Shape} (a : FVec Ideal s .f32) (i : s.Idx) : Host.tanh (F := Ideal) a i = Ideal.tanh (a i) := rfl

/-- A scalar spread over any shape reads the scalar. -/
theorem bc_scalar {α : Type} {s : Shape} (h : S_.BroadcastsInDim s (![] : Fin 0 → Fin s.rank)) (x : S_.Idx → α) (j : s.Idx) :
    broadcastInDim s ![] h x j = x ix0 :=
  broadcastInDim_apply _ h x j ix0 (fun a => a.elim0)

/-- A per-edge vector spread over the four factors reads the vector at the edge. -/
theorem bc_edge {α : Type} (x : S1000000.Idx → α) (k : Fin 4) (e : Fin 1000000) :
    broadcastInDim S4x1000000 ![0, 1] bcast_S1x1000000_S4x1000000_0_1 (broadcastInDim S1x1000000 ![1] bcast_S1000000_S1x1000000_1 x) (ix2 k e)
      = x (ix1 e) := by
  rw [broadcastInDim_apply _ _ _ (ix2 k e) (ix2 (0 : Fin 1) e) (fun a => by match a with | ⟨0, _⟩ => rfl | ⟨1, _⟩ => rfl)]
  exact broadcastInDim_apply _ _ _ _ (ix1 e) (fun a => by match a with | ⟨0, _⟩ => rfl)

theorem red0 : S4x1000000.Reduces [0] S1000000 := by decide

theorem lift0 (e : Fin 1000000) (k : Fin (S4x1000000.size 0)) : red0.lift (ix1 e) k = ix2 (n0 := 4) k e := by
  funext a; refine Fin.ext ?_
  match a with
  | ⟨0, _⟩ => rfl
  | ⟨1, _⟩ => rfl

/-- The maximum over the four factors, read at an edge. -/
theorem colMax_read (fv : Arr (F := Ideal) S4x1000000) (e : Fin 1000000) :
    maximumf (F := Ideal) (broadcastInDim S1000000 ![] bcast_S_S1000000 (constant (F := Ideal) S_ .f32 0xFF800000#32))
        (Host.reduce FloatOps.maximumf fv (constant (F := Ideal) S_ .f32 0xFF800000#32) reducesTo_S4x1000000_S1000000_d0 h_S_) (ix1 e)
      = colMax (fun k => fv (ix2 k e)) := by
  rw [maximumf_apply, bc_scalar]
  have h := Host.reduce_eq_fold_single (FloatOps.maximumf (F := Ideal) (φ := .f32)) fv (constant (F := Ideal) S_ .f32 0xFF800000#32)
    reducesTo_S4x1000000_S1000000_d0 red0 h_S_ (ix1 e)
  refine (congrArg (max _) h).trans ?_
  unfold colMax
  simp only [constant_apply, Function.comp_def, lift0, Ideal.maximumf_def]
  rfl

/-- The shifted exponentials, read at an index. -/
theorem expShift_read (fv : Arr (F := Ideal) S4x1000000) (k : Fin 4) (e : Fin 1000000) :
    expShift fv (ix2 k e) = Ideal.exp (fv (ix2 k e) - colMax (fun k' => fv (ix2 k' e))) := by
  unfold expShift
  rw [hexp_apply, subf_apply, bc_edge, colMax_read]

/-- The sum over the four factors from the zero word, read at an edge. -/
theorem facSum_read (x : Arr (F := Ideal) S4x1000000) (e : Fin 1000000) :
    Host.reduceAdd (F := Ideal) x (constant (F := Ideal) S_ .f32 0x00000000#32) reducesTo_S4x1000000_S1000000_d0 h_S_ (ix1 e)
      = Ideal.ofBits .f32 0x00000000#32 + ∑ k : Fin 4, x (ix2 k e) := by
  simp only [Host.reduceAdd, Ideal.hostReduceAdd_def]
  rw [Ideal.hostReduceAdd_single reducesTo_S4x1000000_S1000000_d0 red0]
  simp only [lift0, constant_apply]
  rfl

/-- An array divided by its sum over the four factors, read at an index. -/
theorem divSum_read (x : Arr (F := Ideal) S4x1000000) (k : Fin 4) (e : Fin 1000000) :
    Host.divf (F := Ideal) x (broadcastInDim S4x1000000 ![0, 1] bcast_S1x1000000_S4x1000000_0_1
      (broadcastInDim S1x1000000 ![1] bcast_S1000000_S1x1000000_1
        (Host.reduceAdd (F := Ideal) x (constant (F := Ideal) S_ .f32 0x00000000#32) reducesTo_S4x1000000_S1000000_d0 h_S_))) (ix2 k e)
      = Ideal.div (x (ix2 k e)) (Ideal.ofBits .f32 0x00000000#32 + ∑ k' : Fin 4, x (ix2 k' e)) := by
  rw [hdiv_apply, bc_edge, facSum_read]

/-- Softmax over the four factors, read at an index. -/
theorem softmax_read (fv : Arr (F := Ideal) S4x1000000) (k : Fin 4) (e : Fin 1000000) :
    softmax fv (ix2 k e) = smCol (fun k' => fv (ix2 k' e)) k := by
  unfold softmax
  rw [divSum_read]
  unfold smCol
  simp only [expShift_read]

/-! ## The other stages -/

/-- The initial logits are the one word everywhere. -/
theorem ones_read (k : Fin 4) (e : Fin 1000000) : ones (F := Ideal) (ix2 k e) = Ideal.ofBits .f32 0x3F800000#32 := by
  unfold ones; rw [bc_scalar]; rfl

/-- A per-edge value spread over the sixteen lanes reads the value at the edge. -/
theorem bc_lane {α : Type} (s : S4x1000000.Idx → α) (k : Fin 4) (e : Fin 1000000) (a : Fin 16) :
    broadcastInDim S4x1000000x16 ![0, 1, 2] bcast_S4x1000000x1_S4x1000000x16_0_1_2
        (broadcastInDim S4x1000000x1 ![0, 1] bcast_S4x1000000_S4x1000000x1_0_1 s) (ix3 k e a) = s (ix2 k e) := by
  rw [broadcastInDim_apply _ _ _ (ix3 k e a) (ix3 k e (0 : Fin 1)) (fun b => by match b with | ⟨0, _⟩ => rfl | ⟨1, _⟩ => rfl | ⟨2, _⟩ => rfl)]
  exact broadcastInDim_apply _ _ _ _ (ix2 k e) (fun b => by match b with | ⟨0, _⟩ => rfl | ⟨1, _⟩ => rfl)

/-- A keep-dimension column read at its one lane. -/
theorem bc_col {α : Type} (s : S4x1000000.Idx → α) (k : Fin 4) (e : Fin 1000000) :
    broadcastInDim S4x1000000x1 ![0, 1] bcast_S4x1000000_S4x1000000x1_0_1 s (ix3 k e (0 : Fin 1)) = s (ix2 k e) :=
  broadcastInDim_apply _ _ _ _ (ix2 k e) (fun b => by match b with | ⟨0, _⟩ => rfl | ⟨1, _⟩ => rfl)

/-- A keep-dimension column spread over the sixteen lanes. -/
theorem bc_lanes {α : Type} (s : S4x1000000x1.Idx → α) (k : Fin 4) (e : Fin 1000000) (a : Fin 16) :
    broadcastInDim S4x1000000x16 ![0, 1, 2] bcast_S4x1000000x1_S4x1000000x16_0_1_2 s (ix3 k e a) = s (ix3 k e (0 : Fin 1)) :=
  broadcastInDim_apply _ _ _ (ix3 k e a) (ix3 k e (0 : Fin 1)) (fun b => by match b with | ⟨0, _⟩ => rfl | ⟨1, _⟩ => rfl | ⟨2, _⟩ => rfl)

/-- The message: the edge's score times the gathered row, lane by lane. -/
theorem msg_read (s : Arr (F := Ideal) S4x1000000) (g : Arr (F := Ideal) S4x1000000x16) (k : Fin 4) (e : Fin 1000000) (a : Fin 16) :
    msg s g (ix3 k e a) = s (ix2 k e) * g (ix3 k e a) := by
  unfold msg; rw [mulf_apply, bc_lane]

theorem red2 : S4x1000000x16.Reduces [2] S4x1000000 := by decide

theorem lift2 (k : Fin 4) (e : Fin 1000000) (c : Fin (S4x1000000x16.size 2)) : red2.lift (ix2 k e) c = ix3 (n2 := 16) k e c := by
  funext a; refine Fin.ext ?_
  match a with
  | ⟨0, _⟩ => rfl
  | ⟨1, _⟩ => rfl
  | ⟨2, _⟩ => rfl

/-- A lane sum from the zero word, read at an edge. -/
theorem laneSum_read (x : Arr (F := Ideal) S4x1000000x16) (k : Fin 4) (e : Fin 1000000) :
    Host.reduceAdd (F := Ideal) x (constant (F := Ideal) S_ .f32 0x00000000#32) reducesTo_S4x1000000x16_S4x1000000_d2 h_S_ (ix2 k e)
      = Ideal.ofBits .f32 0x00000000#32 + ∑ c : Fin 16, x (ix3 k e c) := by
  simp only [Host.reduceAdd, Ideal.hostReduceAdd_def]
  rw [Ideal.hostReduceAdd_single reducesTo_S4x1000000x16_S4x1000000_d2 red2]
  simp only [lift2, constant_apply]
  rfl

/-- The normalised rows, read at an index. -/
theorem normalize_read (x : Arr (F := Ideal) S4x1000000x16) (k : Fin 4) (e : Fin 1000000) (a : Fin 16) :
    Stage.normalize x (ix3 k e a) = normLane (fun c => x (ix3 k e c)) a := by
  unfold Stage.normalize normLane
  rw [hdiv_apply, bc_lanes, maximumf_apply, bc_scalar, hsqrt_apply, bc_col, laneSum_read]
  simp only [mulf_apply, constant_apply]

/-- The update of the logits, read at an edge. -/
theorem delta_read (hg tt : Arr (F := Ideal) S4x1000000x16) (k : Fin 4) (e : Fin 1000000) :
    delta hg tt (ix2 k e) = deltaCol (fun c => hg (ix3 k e c)) (fun c => tt (ix3 k e c)) := by
  unfold delta deltaCol
  refine (laneSum_read _ k e).trans ?_
  refine congrArg (fun t => Ideal.ofBits .f32 0x00000000#32 + t) (Finset.sum_congr rfl fun a _ => ?_)
  rw [mulf_apply, htanh_apply, normalize_read, normalize_read]

/-- An index vector as a column reads the vector. -/
theorem col_read (w : IArr (F := Ideal) S1000000) (e : Fin 1000000) : col w (ix2 e (0 : Fin 1)) = w (ix1 e) :=
  broadcastInDim_apply _ _ _ _ (ix1 e) (fun b => by match b with | ⟨0, _⟩ => rfl)

/-- The wrapped index column reads the wrapped word of the vector's entry. -/
theorem wrapCol_read (w : IArr (F := Ideal) S1000000) (e : Fin 1000000) : wrapCol w (ix2 e (0 : Fin 1)) = wrapW (w (ix1 e)) := by
  unfold wrapCol
  rw [broadcastInDim_apply _ _ _ _ (ix1 e) (fun b => by match b with | ⟨0, _⟩ => rfl)]
  rfl

/-- The gathered rows, read at an index: the row the wrapped word names, clamped into the node range. -/
theorem rowsAt_read (x : Arr (F := Ideal) S4x200000x16) (w : IArr (F := Ideal) S1000000) (k : Fin 4) (e : Fin 1000000) (a : Fin 16) :
    rowsAt x w (ix3 k e a) = x (ix3 k (MidAxis.rowOf 200000 (by decide) (wrapW (w (ix1 e)))) a) := by
  unfold rowsAt
  show Host.gather (MidAxis.gdims 4 200000 16 1000000 gather_S4x200000x16_S1000000x1_S4x1000000x16_02_1_n_n_1_1_4116_wf) x (wrapCol w) (ix3 k e a) = _
  rw [MidAxis.gather_apply (by decide), wrapCol_read]

end Cert.ReferenceIdeal.Reads

end
-- ==== Proof.RegionTail.lean ====
import proofs.«141132_j64287070486722_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionTail

open Idealize.ShloMosaic Idealize.ShloMosaic.ValueIdx Idealize.ShloMosaic.TcCoe Cert.KernelIdeal
open Idealize.ShloMosaic.Pipeline (Dat Cfg Window)

/-! ## Layout steps of the body, read at coordinates -/

/-- A [4, 4096] vector viewed as a [4, 4096, 1] column reads, at (k, r, u), the vector at (k, r). -/
theorem col_apply {α : Type} (v : S4x4096.Idx → α) (h : S4x4096.ShapeCasts S4x4096x1)
    (k : Fin 4) (r : Fin 4096) (u : Fin 1) :
    shapeCast S4x4096x1 v h (ix3 k r u) = v (ix2 k r) :=
  shapeCast_apply v h _ _ (by
    have hu : u.val = 0 := by omega
    rw [Shape.rowMajor_val_three, Shape.rowMajor_val_two]
    show k.val * 4096 + r.val = (k.val * 4096 + r.val) * 1 + u.val
    omega)

/-- A [4, 4096, 1] column broadcast along the lanes reads, at (k, r, a), the column at (k, r, 0). -/
theorem lanes_apply {α : Type} (v : S4x4096x1.Idx → α) (h : S4x4096x1.Broadcasts S4x4096x16)
    (k : Fin 4) (r : Fin 4096) (a : Fin 16) :
    broadcastTo S4x4096x16 v h (ix3 k r a) = v (ix3 k r (0 : Fin 1)) := by
  refine broadcastTo_apply v h (ix3 k r a) (ix3 k r (0 : Fin 1)) fun ax => ?_
  match ax with
  | ⟨0, _⟩ => rfl
  | ⟨1, _⟩ => rfl
  | ⟨2, _⟩ => rfl

/-- The sum over the 16 lanes of a [4, 4096, 16] vector, read at (k, r). -/
theorem laneSum_apply (src : FVec Ideal S4x4096x16 .f32) (h : S4x4096x16.Reduces [2] S4x4096)
    (hφ : FKind.Formats .f32) (hacc : (0x00000000#32 : BitVec 32) = 0x00000000#32)
    (k : Fin 4) (r : Fin 4096) :
    multiReduction (F := Ideal) .add [2] S4x4096 src 0x00000000#32 h hφ hacc (ix2 k r)
      = ∑ c : Fin 16, src (ix3 k r c) := by
  refine (Ideal.multiReduction_add_single src 0x00000000#32 h hφ hacc (ix2 k r)).trans ?_
  refine Finset.sum_congr rfl fun c _ => congrArg src ?_
  funext ax
  match ax with
  | ⟨0, _⟩ => rfl
  | ⟨1, _⟩ => rfl
  | ⟨2, _⟩ => rfl

/-! ## The body's value at one element -/

/-- What the body stores at row (k, r), lane a, of a block x0: tanh of the element divided by the larger of the
    row's Euclidean norm over its 16 lanes and the guard word's value. The lane sum starts from the zero word. -/
theorem pay_apply (x0 : Vec Ideal S4x4096x16 .f32) (k : Fin 4) (r : Fin 4096) (a : Fin 16) :
    Gen.k0_pay1 (F := Ideal) x0 (ix3 k r a)
      = Ideal.tanh (Ideal.div (x0 (ix3 k r a))
          (max (Ideal.sqrt (Ideal.ofBits .f32 0x00000000#32 + ∑ c : Fin 16, x0 (ix3 k r c) * x0 (ix3 k r c)))
            (Ideal.ofBits .f32 0x2B8CBCCC#32))) := by
  unfold Gen.k0_pay1
  simp only [shapeCast_self]
  refine congrArg Ideal.tanh (congrArg (Ideal.div (x0 (ix3 k r a))) ?_)
  refine (lanes_apply _ _ k r a).trans ?_
  refine congrArg (fun z => max (Ideal.sqrt z) (Ideal.ofBits .f32 0x2B8CBCCC#32)) ?_
  refine (col_apply _ _ k r 0).trans ?_
  refine (laneSum_apply _ _ _ _ k r).trans ?_
  rw [Ideal.ofBits_zero_f32, zero_add]
  rfl

/-! ## The whole output array as one function of the input array -/

/-- The output at row (k, e), lane a: tanh of the input element divided by the larger of its row's Euclidean norm
    over the 16 lanes and the guard word's value. -/
def tailAt (x : S4x1003520x16.Idx → EReal) (k : Fin 4) (e : Fin 1003520) (a : Fin 16) : EReal :=
  Ideal.tanh (Ideal.div (x (ix3 k e a))
    (max (Ideal.sqrt (Ideal.ofBits .f32 0x00000000#32 + ∑ c : Fin 16, x (ix3 k e c) * x (ix3 k e c)))
      (Ideal.ofBits .f32 0x2B8CBCCC#32)))

/-- The output array as a function of the input array. -/
def tailOut (x : S4x1003520x16.Idx → EReal) : S4x1003520x16.Idx → EReal :=
  fun i => tailAt x (i 0) (i 1) (i 2)

/-- The output array read at coordinates (k, e, a). -/
theorem tailOut_apply (x : S4x1003520x16.Idx → EReal) (k : Fin 4) (e : Fin 1003520) (a : Fin 16) :
    tailOut x (ix3 k e a)
      = Ideal.tanh (Ideal.div (x (ix3 k e a))
          (max (Ideal.sqrt (Ideal.ofBits .f32 0x00000000#32 + ∑ c : Fin 16, x (ix3 k e c) * x (ix3 k e c)))
            (Ideal.ofBits .f32 0x2B8CBCCC#32))) := rfl

/-- A block x0 that holds, at y, the array at E y, where E keeps the leading and lane coordinates and shifts the row
    by T * 4096, carries the body's value at y to the array's function at E y. -/
theorem pay_at (X : S4x1003520x16.Idx → EReal) (x0 : Vec Ideal S4x4096x16 .f32)
    (E : S4x4096x16.Idx → S4x1003520x16.Idx) (T : Nat)
    (hE : ∀ y : S4x4096x16.Idx, (E y 0).val = (y 0).val ∧ (E y 1).val = T * 4096 + (y 1).val ∧ (E y 2).val = (y 2).val)
    (hx : ∀ y, x0 y = X (E y)) (j : S4x4096x16.Idx) :
    Gen.k0_pay1 (F := Ideal) x0 j = tailOut X (E j) := by
  obtain ⟨k, r, a, rfl⟩ : ∃ (k : Fin 4) (r : Fin 4096) (a : Fin 16), j = ix3 k r a := ⟨j 0, j 1, j 2, eq_ix3 j⟩
  have hq : T * 4096 + r.val < 1003520 := by
    have h1 : (E (ix3 k r a) 1).val < 1003520 := (E (ix3 k r a) 1).isLt
    have h2 := (hE (ix3 k r a)).2.1
    show T * 4096 + (ix3 k r a 1).val < 1003520
    omega
  have hlane : ∀ c : Fin 16, E (ix3 k r c) = ix3 k (⟨T * 4096 + r.val, hq⟩ : Fin 1003520) c := by
    intro c
    obtain ⟨c0, c1, c2⟩ := hE (ix3 k r c)
    funext ax; apply Fin.ext
    match ax with
    | ⟨0, _⟩ => exact c0
    | ⟨1, _⟩ => exact c1
    | ⟨2, _⟩ => exact c2
  rw [pay_apply, hlane a, tailOut_apply]
  simp only [hx, hlane]

/-! ## From blocks to the array -/

/-- The zero offsets of a whole-block access, as a constant function. -/
theorem zero_offsets : (![0, 0, 0] : Fin 3 → Nat) = fun _ => 0 := funext fun a => by fin_cases a <;> rfl

/-- The windows' index maps over the grid: at point t both windows' block is block (0, t, 0). -/
theorem block_index : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

-- the buffer contents when the region is entered
variable (V : (c : Dev nD) → (b : Ref sig .tc) → Buf (Elt Ideal) ((c : Thread nD τ).loc b))

/-- What point t writes back is block t of tailOut of the input array: the body's block reads the input's rows
    t * 4096 + r, and the output's block sits at the same rows. -/
theorem block_written (c : Dev nD) (t : Fin cfg0.N) :
    (Gen.dat0 (F := Ideal) V c).flushed 1 t
      = ((cfg0.win 1).blk t).view.read (Elt Ideal) (tailOut (V c main_v16)) := by
  show (cfg0.win 1).cut (grid0.coords t) ((Gen.dat0 V c).after 1 t) = _
  rw [Gen.after0_1]
  unfold Gen.out0_1
  rw [View.canon_unit_zero zero_offsets]
  simp only [View.ld_unit_zero (S := S4x4096x16) zero_offsets]
  obtain ⟨e0, e1, e2, e3, e4, e5⟩ := block_index t
  funext j
  refine pay_at (V c main_v16) (Gen.iblk0 V c 0 t) (fun y => ((cfg0.win 1).blk t).view.emb y) t.val ?_ ?_ j
  · intro y
    refine ⟨?_, ?_, ?_⟩
    · show win0_1.index t (0 : Fin 3) * 4 + 1 * (y 0).val = (y 0).val
      omega
    · show win0_1.index t (1 : Fin 3) * 4096 + 1 * (y 1).val = t.val * 4096 + (y 1).val
      omega
    · show win0_1.index t (2 : Fin 3) * 16 + 1 * (y 2).val = (y 2).val
      omega
  · intro y
    show V c main_v16 (((cfg0.win 0).blk t).view.emb y) = V c main_v16 (((cfg0.win 1).blk t).view.emb y)
    refine congrArg (V c main_v16) ?_
    funext ax; apply Fin.ext
    match ax with
    | ⟨0, _⟩ =>
      show win0_0.index t (0 : Fin 3) * 4 + 1 * (y 0).val = win0_1.index t (0 : Fin 3) * 4 + 1 * (y 0).val
      omega
    | ⟨1, _⟩ =>
      show win0_0.index t (1 : Fin 3) * 4096 + 1 * (y 1).val = win0_1.index t (1 : Fin 3) * 4096 + 1 * (y 1).val
      omega
    | ⟨2, _⟩ =>
      show win0_0.index t (2 : Fin 3) * 16 + 1 * (y 2).val = win0_1.index t (2 : Fin 3) * 16 + 1 * (y 2).val
      omega

/-- An index of the array is in point t's block iff each coordinate is in the block's range on its axis. -/
theorem mem_block (t : Fin cfg0.N) (i : S4x1003520x16.Idx) :
    i ∈ ((cfg0.win 1).blk t).view.set ↔ ∀ a : Fin 3, win0_1.index t a * S4x4096x16.size a ≤ (i a).val
      ∧ (i a).val < win0_1.index t a * S4x4096x16.size a + S4x4096x16.size a := by
  show i ∈ ((View.whole main_v17).slice (win0_1.rect t)).set ↔ _
  rw [View.set_slice_whole, Rect.mem_set_unit]
  exact Iff.rfl

/-- Every index of the array lies in the block of the point numbered by its row divided by 4096:
    245 blocks of 4096 rows make the 1003520 rows. -/
theorem rows_covered (i : S4x1003520x16.Idx) :
    ∃ t : Fin cfg0.N, (cfg0.win 1).flush t = true ∧ i ∈ ((cfg0.win 1).blk t).view.set := by
  have hi0 : (i 0).val < 4 := (i 0).isLt
  have hi1 : (i 1).val < 1003520 := (i 1).isLt
  have hi2 : (i 2).val < 16 := (i 2).isLt
  have hN : grid0.N = 245 := Gen.N_0
  have ht : (i 1).val / 4096 < grid0.N := by omega
  obtain ⟨e0, e1, e2, e3, e4, e5⟩ := block_index ⟨(i 1).val / 4096, ht⟩
  refine ⟨⟨(i 1).val / 4096, ht⟩, Gen.flush0_1 _, ?_⟩
  rw [mem_block]
  intro a
  match a with
  | ⟨0, _⟩ =>
    show win0_1.index ⟨(i 1).val / 4096, ht⟩ (0 : Fin 3) * 4 ≤ (i 0).val
      ∧ (i 0).val < win0_1.index ⟨(i 1).val / 4096, ht⟩ (0 : Fin 3) * 4 + 4
    omega
  | ⟨1, _⟩ =>
    show win0_1.index ⟨(i 1).val / 4096, ht⟩ (1 : Fin 3) * 4096 ≤ (i 1).val
      ∧ (i 1).val < win0_1.index ⟨(i 1).val / 4096, ht⟩ (1 : Fin 3) * 4096 + 4096
    have e4' : win0_1.index ⟨(i 1).val / 4096, ht⟩ (1 : Fin 3) = (i 1).val / 4096 := e4
    omega
  | ⟨2, _⟩ =>
    show win0_1.index ⟨(i 1).val / 4096, ht⟩ (2 : Fin 3) * 16 ≤ (i 2).val
      ∧ (i 2).val < win0_1.index ⟨(i 1).val / 4096, ht⟩ (2 : Fin 3) * 16 + 16
    omega

/-- The output array of the region after its 245 points: the function tailOut of the input array as the region
    finds it. -/
theorem tail_final (c : Dev nD) :
    (Gen.dat0 (F := Ideal) V c).arrAt 1 cfg0.N = tailOut (V c main_v16) :=
  (Gen.dat0 (F := Ideal) V c).arrAt_eq_of_cover 1 (tailOut (V c main_v16)) (fun t _ => block_written V c t) rows_covered

end Cert.KernelIdeal.RegionTail

end
-- ==== Proof.RegionUpdate.lean ====
import proofs.«141132_j64287070486722_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionUpdate

open Idealize.ShloMosaic Idealize.ShloMosaic.ValueIdx Idealize.ShloMosaic.TcCoe Cert.KernelIdeal
open Idealize.ShloMosaic.Pipeline (Dat Cfg Window)

/-! ## Layout steps of the body, read at coordinates -/

/-- A [4, 4096] vector viewed as a [4, 4096, 1] column reads, at (k, r, u), the vector at (k, r). -/
theorem col_apply {α : Type} (v : S4x4096.Idx → α) (h : S4x4096.ShapeCasts S4x4096x1)
    (k : Fin 4) (r : Fin 4096) (u : Fin 1) :
    shapeCast S4x4096x1 v h (ix3 k r u) = v (ix2 k r) :=
  shapeCast_apply v h _ _ (by
    have hu : u.val = 0 := by omega
    rw [Shape.rowMajor_val_three, Shape.rowMajor_val_two]
    show k.val * 4096 + r.val = (k.val * 4096 + r.val) * 1 + u.val
    omega)

/-- A [4, 4096, 1] column broadcast along the lanes reads, at (k, r, a), the column at (k, r, 0). -/
theorem lanes_apply {α : Type} (v : S4x4096x1.Idx → α) (h : S4x4096x1.Broadcasts S4x4096x16)
    (k : Fin 4) (r : Fin 4096) (a : Fin 16) :
    broadcastTo S4x4096x16 v h (ix3 k r a) = v (ix3 k r (0 : Fin 1)) := by
  refine broadcastTo_apply v h (ix3 k r a) (ix3 k r (0 : Fin 1)) fun ax => ?_
  match ax with
  | ⟨0, _⟩ => rfl
  | ⟨1, _⟩ => rfl
  | ⟨2, _⟩ => rfl

/-- The sum over the 16 lanes of a [4, 4096, 16] vector, read at (k, r). -/
theorem laneSum_apply (src : FVec Ideal S4x4096x16 .f32) (h : S4x4096x16.Reduces [2] S4x4096)
    (hφ : FKind.Formats .f32) (hacc : (0x00000000#32 : BitVec 32) = 0x00000000#32)
    (k : Fin 4) (r : Fin 4096) :
    multiReduction (F := Ideal) .add [2] S4x4096 src 0x00000000#32 h hφ hacc (ix2 k r)
      = ∑ c : Fin 16, src (ix3 k r c) := by
  refine (Ideal.multiReduction_add_single src 0x00000000#32 h hφ hacc (ix2 k r)).trans ?_
  refine Finset.sum_congr rfl fun c _ => congrArg src ?_
  funext ax
  match ax with
  | ⟨0, _⟩ => rfl
  | ⟨1, _⟩ => rfl
  | ⟨2, _⟩ => rfl

/-- A sum started from the zero word's value is the sum. -/
theorem acc_zero (s : EReal) : Ideal.ofBits .f32 0x00000000#32 + s = s := by
  rw [Ideal.ofBits_zero_f32, zero_add]

/-! ## The body's value at one element -/

/-- What the body stores at row (k, r) from blocks x0, x1: the sum over the 16 lanes of x0's element, divided by
    the larger of x0's row norm over its lanes and the guard word's value, times x1's element. Both lane sums
    start from the zero word. -/
theorem pay_apply (x0 x1 : Vec Ideal S4x4096x16 .f32) (k : Fin 4) (r : Fin 4096) :
    Gen.k2_pay1 (F := Ideal) x0 x1 (ix2 k r)
      = Ideal.ofBits .f32 0x00000000#32 + ∑ c : Fin 16,
          Ideal.div (x0 (ix3 k r c))
            (max (Ideal.sqrt (Ideal.ofBits .f32 0x00000000#32 + ∑ d : Fin 16, x0 (ix3 k r d) * x0 (ix3 k r d)))
              (Ideal.ofBits .f32 0x2B8CBCCC#32)) * x1 (ix3 k r c) := by
  unfold Gen.k2_pay1
  simp only [shapeCast_self, acc_zero]
  refine (laneSum_apply _ _ _ _ k r).trans ?_
  refine Finset.sum_congr rfl fun c _ => ?_
  refine congrArg (fun z => Ideal.div (x0 (ix3 k r c)) z * x1 (ix3 k r c)) ?_
  refine (lanes_apply _ _ k r c).trans ?_
  refine congrArg (fun z => max (Ideal.sqrt z) (Ideal.ofBits .f32 0x2B8CBCCC#32)) ?_
  refine (col_apply _ _ k r 0).trans ?_
  exact laneSum_apply _ _ _ _ k r

/-! ## The whole output array as one function of the two input arrays -/

/-- The output at row (k, e): the sum over the 16 lanes of hg's element, divided by the larger of hg's row norm
    over its lanes and the guard word's value, times tt's element. -/
def updAt (hg tt : S4x1003520x16.Idx → EReal) (k : Fin 4) (e : Fin 1003520) : EReal :=
  Ideal.ofBits .f32 0x00000000#32 + ∑ c : Fin 16,
    Ideal.div (hg (ix3 k e c))
      (max (Ideal.sqrt (Ideal.ofBits .f32 0x00000000#32 + ∑ d : Fin 16, hg (ix3 k e d) * hg (ix3 k e d)))
        (Ideal.ofBits .f32 0x2B8CBCCC#32)) * tt (ix3 k e c)

/-- The output array as a function of the two input arrays. -/
def updOut (hg tt : S4x1003520x16.Idx → EReal) : S4x1003520.Idx → EReal :=
  fun i => updAt hg tt (i 0) (i 1)

/-- The output array read at coordinates (k, e). -/
theorem updOut_apply (hg tt : S4x1003520x16.Idx → EReal) (k : Fin 4) (e : Fin 1003520) :
    updOut hg tt (ix2 k e)
      = Ideal.ofBits .f32 0x00000000#32 + ∑ c : Fin 16,
          Ideal.div (hg (ix3 k e c))
            (max (Ideal.sqrt (Ideal.ofBits .f32 0x00000000#32 + ∑ d : Fin 16, hg (ix3 k e d) * hg (ix3 k e d)))
              (Ideal.ofBits .f32 0x2B8CBCCC#32)) * tt (ix3 k e c) := rfl

/-- Blocks x0, x1 that hold, at y, the arrays at E y, where E keeps the leading and lane coordinates and shifts the
    row by T * 4096, carry the body's value at y to the arrays' function at Eo y, where Eo shifts the row likewise. -/
theorem pay_at (X0 X1 : S4x1003520x16.Idx → EReal) (x0 x1 : Vec Ideal S4x4096x16 .f32)
    (E : S4x4096x16.Idx → S4x1003520x16.Idx) (Eo : S4x4096.Idx → S4x1003520.Idx) (T : Nat)
    (hE : ∀ y : S4x4096x16.Idx, (E y 0).val = (y 0).val ∧ (E y 1).val = T * 4096 + (y 1).val ∧ (E y 2).val = (y 2).val)
    (hEo : ∀ y : S4x4096.Idx, (Eo y 0).val = (y 0).val ∧ (Eo y 1).val = T * 4096 + (y 1).val)
    (hx0 : ∀ y, x0 y = X0 (E y)) (hx1 : ∀ y, x1 y = X1 (E y)) (j : S4x4096.Idx) :
    Gen.k2_pay1 (F := Ideal) x0 x1 j = updOut X0 X1 (Eo j) := by
  obtain ⟨k, r, rfl⟩ : ∃ (k : Fin 4) (r : Fin 4096), j = ix2 k r := ⟨j 0, j 1, eq_ix2 j⟩
  have hq : T * 4096 + r.val < 1003520 := by
    have h1 : (Eo (ix2 k r) 1).val < 1003520 := (Eo (ix2 k r) 1).isLt
    have h2 := (hEo (ix2 k r)).2
    show T * 4096 + (ix2 k r 1).val < 1003520
    omega
  have hlane : ∀ c : Fin 16, E (ix3 k r c) = ix3 k (⟨T * 4096 + r.val, hq⟩ : Fin 1003520) c := by
    intro c
    obtain ⟨c0, c1, c2⟩ := hE (ix3 k r c)
    funext ax; apply Fin.ext
    match ax with
    | ⟨0, _⟩ => exact c0
    | ⟨1, _⟩ => exact c1
    | ⟨2, _⟩ => exact c2
  have hout : Eo (ix2 k r) = ix2 k (⟨T * 4096 + r.val, hq⟩ : Fin 1003520) := by
    obtain ⟨o0, o1⟩ := hEo (ix2 k r)
    funext ax; apply Fin.ext
    match ax with
    | ⟨0, _⟩ => exact o0
    | ⟨1, _⟩ => exact o1
  rw [pay_apply, hout, updOut_apply]
  simp only [hx0, hx1, hlane]

/-! ## From blocks to the array -/

/-- The zero offsets of a whole-block access, as a constant function: rank 3 … -/
theorem zero_offsets3 : (![0, 0, 0] : Fin 3 → Nat) = fun _ => 0 := funext fun a => by fin_cases a <;> rfl
/-- … and rank 2. -/
theorem zero_offsets2 : (![0, 0] : Fin 2 → Nat) = fun _ => 0 := funext fun a => by fin_cases a <;> rfl

/-- The windows' index maps over the grid: at point t the two input windows' block is block (0, t, 0) and the
    output window's is block (0, t). -/
theorem block_index : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = t.val ∧ win2_1.index t (2 : Fin 3) = 0
    ∧ win2_2.index t (0 : Fin 2) = 0 ∧ win2_2.index t (1 : Fin 2) = t.val :=
  (by decide +kernel : ∀ t : Fin grid2.N, _)

-- the buffer contents when the region is entered
variable (V : (c : Dev nD) → (b : Ref sig .tc) → Buf (Elt Ideal) ((c : Thread nD τ).loc b))

/-- What point t writes back is block t of updOut of the two input arrays: the body's blocks read the inputs' rows
    t * 4096 + r, and the output's block sits at the same rows. -/
theorem block_written (c : Dev nD) (t : Fin cfg2.N) :
    (Gen.dat2 (F := Ideal) V c).flushed 2 t
      = ((cfg2.win 2).blk t).view.read (Elt Ideal) (updOut (V c main_v62) (V c main_v17)) := by
  show (cfg2.win 2).cut (grid2.coords t) ((Gen.dat2 V c).after 2 t) = _
  rw [Gen.after2_2]
  unfold Gen.out2_2
  rw [View.canon_unit_zero zero_offsets2]
  simp only [View.ld_unit_zero (S := S4x4096x16) zero_offsets3]
  obtain ⟨e0, e1, e2, e3, e4, e5, e6, e7⟩ := block_index t
  funext j
  refine pay_at (V c main_v62) (V c main_v17) (Gen.iblk2 V c 0 t) (Gen.iblk2 V c 1 t)
    (fun y => ((cfg2.win 0).blk t).view.emb y) (fun y => ((cfg2.win 2).blk t).view.emb y) t.val ?_ ?_ ?_ ?_ j
  · intro y
    refine ⟨?_, ?_, ?_⟩
    · show win2_0.index t (0 : Fin 3) * 4 + 1 * (y 0).val = (y 0).val
      omega
    · show win2_0.index t (1 : Fin 3) * 4096 + 1 * (y 1).val = t.val * 4096 + (y 1).val
      omega
    · show win2_0.index t (2 : Fin 3) * 16 + 1 * (y 2).val = (y 2).val
      omega
  · intro y
    refine ⟨?_, ?_⟩
    · show win2_2.index t (0 : Fin 2) * 4 + 1 * (y 0).val = (y 0).val
      omega
    · show win2_2.index t (1 : Fin 2) * 4096 + 1 * (y 1).val = t.val * 4096 + (y 1).val
      omega
  · intro y
    rfl
  · intro y
    show V c main_v17 (((cfg2.win 1).blk t).view.emb y) = V c main_v17 (((cfg2.win 0).blk t).view.emb y)
    refine congrArg (V c main_v17) ?_
    funext ax; apply Fin.ext
    match ax with
    | ⟨0, _⟩ =>
      show win2_1.index t (0 : Fin 3) * 4 + 1 * (y 0).val = win2_0.index t (0 : Fin 3) * 4 + 1 * (y 0).val
      omega
    | ⟨1, _⟩ =>
      show win2_1.index t (1 : Fin 3) * 4096 + 1 * (y 1).val = win2_0.index t (1 : Fin 3) * 4096 + 1 * (y 1).val
      omega
    | ⟨2, _⟩ =>
      show win2_1.index t (2 : Fin 3) * 16 + 1 * (y 2).val = win2_0.index t (2 : Fin 3) * 16 + 1 * (y 2).val
      omega

/-- An index of the array is in point t's block iff each coordinate is in the block's range on its axis. -/
theorem mem_block (t : Fin cfg2.N) (i : S4x1003520.Idx) :
    i ∈ ((cfg2.win 2).blk t).view.set ↔ ∀ a : Fin 2, win2_2.index t a * S4x4096.size a ≤ (i a).val
      ∧ (i a).val < win2_2.index t a * S4x4096.size a + S4x4096.size a := by
  show i ∈ ((View.whole main_v63).slice (win2_2.rect t)).set ↔ _
  rw [View.set_slice_whole, Rect.mem_set_unit]
  exact Iff.rfl

/-- Every index of the array lies in the block of the point numbered by its row divided by 4096:
    245 blocks of 4096 rows make the 1003520 rows. -/
theorem rows_covered (i : S4x1003520.Idx) :
    ∃ t : Fin cfg2.N, (cfg2.win 2).flush t = true ∧ i ∈ ((cfg2.win 2).blk t).view.set := by
  have hi0 : (i 0).val < 4 := (i 0).isLt
  have hi1 : (i 1).val < 1003520 := (i 1).isLt
  have hN : grid2.N = 245 := Gen.N_2
  have ht : (i 1).val / 4096 < grid2.N := by omega
  obtain ⟨e0, e1, e2, e3, e4, e5, e6, e7⟩ := block_index ⟨(i 1).val / 4096, ht⟩
  refine ⟨⟨(i 1).val / 4096, ht⟩, Gen.flush2_2 _, ?_⟩
  rw [mem_block]
  intro a
  match a with
  | ⟨0, _⟩ =>
    show win2_2.index ⟨(i 1).val / 4096, ht⟩ (0 : Fin 2) * 4 ≤ (i 0).val
      ∧ (i 0).val < win2_2.index ⟨(i 1).val / 4096, ht⟩ (0 : Fin 2) * 4 + 4
    omega
  | ⟨1, _⟩ =>
    show win2_2.index ⟨(i 1).val / 4096, ht⟩ (1 : Fin 2) * 4096 ≤ (i 1).val
      ∧ (i 1).val < win2_2.index ⟨(i 1).val / 4096, ht⟩ (1 : Fin 2) * 4096 + 4096
    have e7' : win2_2.index ⟨(i 1).val / 4096, ht⟩ (1 : Fin 2) = (i 1).val / 4096 := e7
    omega

/-- The output array of the region after its 245 points: the function updOut of the two input arrays as the region
    finds them. -/
theorem upd_final (c : Dev nD) :
    (Gen.dat2 (F := Ideal) V c).arrAt 2 cfg2.N = updOut (V c main_v62) (V c main_v17) :=
  (Gen.dat2 (F := Ideal) V c).arrAt_eq_of_cover 2 (updOut (V c main_v62) (V c main_v17))
    (fun t _ => block_written V c t) rows_covered

end Cert.KernelIdeal.RegionUpdate

end
-- ==== Proof.RegionMsgA.lean ====
/-
  The value of the scaling region (first of its two occurrences).

  The region runs over 245 grid points. At point `t` it takes block `t` (4096 consecutive entries of the long axis)
  of a `[4, 1003520]` array `s` and of a `[4, 1003520, 16]` array `g`, and writes block `t` of a `[4, 1003520, 16]`
  array: each of the sixteen lanes of row `(k, e)` of `g` multiplied by the single entry `s (k, e)`. The blocks are
  disjoint and fill the long axis (245 * 4096 = 1003520), so after the run the output array is, index by index,
  `s (k, e) * g (k, e, a)` — whatever the buffers held when the region was entered. The product is the extended
  reals' own; no algebraic law is used, so nothing here needs finiteness.
-/
import proofs.«141132_j64287070486722_2_alg».proof.Proof.Gen.KernelIdeal.Frame
import Idealize.ShloMosaic.Lib.Pipeline.Value
import Idealize.ShloMosaic.Lib.ValueLayout

noncomputable section

namespace Cert.KernelIdeal.RegionMsgA

open Cert.KernelIdeal Cert.KernelIdeal.Gen Idealize.ShloMosaic Idealize.ShloMosaic.TcCoe Idealize.SL.Sem
open Idealize.ShloMosaic.Pipeline (Dat)
open Idealize.ShloMosaic.ValueIdx

/-! ## A trailing unit axis added, and copied over many lanes -/

section Layout
variable {α : Type}

/-- An `[a, b]` array cast to `[a, b, 1]` reads, at `(i, j, u)`, the operand at `(i, j)`, whatever the unit
coordinate `u`: the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The region's result as one function of its two input arrays -/

/-- Each of the sixteen lanes of row `(k, e)` of `g` scaled by the one entry `s (k, e)`. -/
def msgOut (s : S4x1003520.Idx → EReal) (g : S4x1003520x16.Idx → EReal) : S4x1003520x16.Idx → EReal :=
  fun i => s (ix2 (i 0) (i 1)) * g i

/-- `msgOut` at coordinates `(k, e, a)`. -/
theorem msgOut_apply (s : S4x1003520.Idx → EReal) (g : S4x1003520x16.Idx → EReal)
    (k : Fin 4) (e : Fin 1003520) (a : Fin 16) :
    msgOut s g (ix3 k e a) = s (ix2 k e) * g (ix3 k e a) := rfl

/-! ## One block -/

/-- The body's result at `(k, r, a)` of a block: the `[4, 4096]` block with a unit lane axis added and copied over
the sixteen lanes, times the `[4, 4096, 16]` block. -/
theorem payload_apply (x0 : Vec Ideal S4x4096 .f32) (x1 : Vec Ideal S4x4096x16 .f32)
    (k : Fin 4) (r : Fin 4096) (a : Fin 16) :
    k1_pay1 x0 x1 (ix3 k r a) = x0 (ix2 k r) * x1 (ix3 k r a) := by
  unfold k1_pay1
  rw [shapeCast_self, shapeCast_self, mulf_apply, broadcastTo_ab1_abc_apply, shapeCast_ab_ab1_apply]

/-! ## From blocks to the array -/

section Blocks
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three index maps over the grid: every block sits at row block 0 and lane block 0, and point `t` takes the
`t`-th block of 4096 entries along the long axis, in all three windows. -/
theorem block_index : ∀ t : Fin cfg1.N,
    win1_0.index t (0 : Fin 2) = 0 ∧ win1_0.index t (1 : Fin 2) = t.val
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- What point `t` writes back is block `t` of `msgOut` of the two arrays as the region finds them: entry
`(k, r, a)` of every block sits at `(k, 4096 t + r, a)` of its array. -/
theorem writeback_eq (c : Dev nD) (t : Fin cfg1.N) :
    (dat1 V c).flushed 2 t = ((cfg1.win 2).blk t).view.read (Elt Ideal) (msgOut (V c main_v30) (V c main_v47)) := by
  show (cfg1.win 2).cut (grid1.coords t) ((dat1 V c).after 2 t) = _
  rw [after1_2]
  unfold out1_2
  rw [View.canon_unit_zero zeros3]
  simp only [View.ld_unit_zero (S := S4x4096) zeros2, View.ld_unit_zero (S := S4x4096x16) zeros3]
  obtain ⟨e0, e1, e2, e3, e4, e5, e6, e7⟩ := block_index t
  have ht : t.val < 245 := lt_of_lt_of_eq t.isLt N_1
  funext j
  obtain ⟨k, r, a, rfl⟩ : ∃ (k : Fin 4) (r : Fin 4096) (a : Fin 16), j = ix3 k r a := ⟨j 0, j 1, j 2, eq_ix3 j⟩
  show k1_pay1 (iblk1 V c 0 t) (iblk1 V c 1 t) (ix3 k r a)
    = msgOut (V c main_v30) (V c main_v47) (((cfg1.win 2).blk t).view.emb (ix3 k r a))
  refine (payload_apply (iblk1 V c 0 t) (iblk1 V c 1 t) k r a).trans ?_
  have hb : t.val * 4096 + r.val < 1003520 := by have := r.isLt; omega
  have h2 : ((cfg1.win 2).blk t).view.emb (ix3 k r a) = ix3 k (⟨t.val * 4096 + r.val, hb⟩ : Fin 1003520) a := by
    funext d; apply Fin.ext
    match d with
    | ⟨0, _⟩ => show win1_2.index t (0 : Fin 3) * 4 + 1 * k.val = k.val; omega
    | ⟨1, _⟩ => show win1_2.index t (1 : Fin 3) * 4096 + 1 * r.val = t.val * 4096 + r.val; omega
    | ⟨2, _⟩ => show win1_2.index t (2 : Fin 3) * 16 + 1 * a.val = a.val; omega
  have h0 : iblk1 V c 0 t (ix2 k r) = V c main_v30 (ix2 k (⟨t.val * 4096 + r.val, hb⟩ : Fin 1003520)) := by
    show V c main_v30 (((cfg1.win 0).blk t).view.emb (ix2 k r)) = _
    refine congrArg (V c main_v30) ?_
    funext d; apply Fin.ext
    match d with
    | ⟨0, _⟩ => show win1_0.index t (0 : Fin 2) * 4 + 1 * k.val = k.val; omega
    | ⟨1, _⟩ => show win1_0.index t (1 : Fin 2) * 4096 + 1 * r.val = t.val * 4096 + r.val; omega
  have h1 : iblk1 V c 1 t (ix3 k r a) = V c main_v47 (ix3 k (⟨t.val * 4096 + r.val, hb⟩ : Fin 1003520) a) := by
    show V c main_v47 (((cfg1.win 1).blk t).view.emb (ix3 k r a)) = _
    refine congrArg (V c main_v47) ?_
    funext d; apply Fin.ext
    match d with
    | ⟨0, _⟩ => show win1_1.index t (0 : Fin 3) * 4 + 1 * k.val = k.val; omega
    | ⟨1, _⟩ => show win1_1.index t (1 : Fin 3) * 4096 + 1 * r.val = t.val * 4096 + r.val; omega
    | ⟨2, _⟩ => show win1_1.index t (2 : Fin 3) * 16 + 1 * a.val = a.val; omega
  rw [h2, msgOut_apply, h0, h1]

/-- An index of the output array is in point `t`'s block iff each coordinate is in the block's range on its axis. -/
theorem mem_block (t : Fin cfg1.N) (i : S4x1003520x16.Idx) :
    i ∈ ((cfg1.win 2).blk t).view.set ↔ ∀ a : Fin 3, win1_2.index t a * S4x4096x16.size a ≤ (i a).val
      ∧ (i a).val < win1_2.index t a * S4x4096x16.size a + S4x4096x16.size a := by
  show i ∈ ((View.whole main_v48).slice (win1_2.rect t)).set ↔ _
  rw [View.set_slice_whole, Rect.mem_set_unit]
  exact Iff.rfl

/-- Every index of the output array is in the block of the point numbered by its long coordinate divided by 4096
(there are 245 points and 245 * 4096 = 1003520). -/
theorem blocks_cover (i : S4x1003520x16.Idx) :
    ∃ t : Fin cfg1.N, (cfg1.win 2).flush t = true ∧ i ∈ ((cfg1.win 2).blk t).view.set := by
  have hi0 : (i 0).val < 4 := (i 0).isLt
  have hi1 : (i 1).val < 1003520 := (i 1).isLt
  have hi2 : (i 2).val < 16 := (i 2).isLt
  obtain ⟨t, ht⟩ : ∃ t : Fin cfg1.N, t.val = (i 1).val / 4096 :=
    ⟨⟨(i 1).val / 4096, lt_of_lt_of_eq (show (i 1).val / 4096 < 245 by omega) N_1.symm⟩, rfl⟩
  obtain ⟨e0, e1, e2, e3, e4, e5, e6, e7⟩ := block_index t
  refine ⟨t, flush1_2 t, ?_⟩
  rw [mem_block]
  intro a
  match a with
  | ⟨0, _⟩ => show win1_2.index t (0 : Fin 3) * 4 ≤ (i 0).val ∧ (i 0).val < win1_2.index t (0 : Fin 3) * 4 + 4; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 16 ≤ (i 2).val ∧ (i 2).val < win1_2.index t (2 : Fin 3) * 16 + 16; omega

/-- The region's output array after the run, whatever the region finds on entry: `msgOut` of its two input arrays. -/
theorem msg_final (c : Dev nD) :
    (dat1 V c).arrAt 2 cfg1.N = msgOut (V c main_v30) (V c main_v47) :=
  (dat1 V c).arrAt_eq_of_cover 2 (msgOut (V c main_v30) (V c main_v47)) (fun t _ => writeback_eq V c t) blocks_cover

end Blocks

end Cert.KernelIdeal.RegionMsgA

end
-- ==== Proof.RegionMsgB.lean ====
/-
  The value of the scaling region (second of its two occurrences).

  The region runs over 245 grid points. At point `t` it takes block `t` (4096 consecutive entries of the long axis)
  of a `[4, 1003520]` array `s` and of a `[4, 1003520, 16]` array `g`, and writes block `t` of a `[4, 1003520, 16]`
  array: each of the sixteen lanes of row `(k, e)` of `g` multiplied by the single entry `s (k, e)`. The blocks are
  disjoint and fill the long axis (245 * 4096 = 1003520), so after the run the output array is, index by index,
  `s (k, e) * g (k, e, a)` — whatever the buffers held when the region was entered. The product is the extended
  reals' own; no algebraic law is used, so nothing here needs finiteness.
-/
import proofs.«141132_j64287070486722_2_alg».proof.Proof.Gen.KernelIdeal.Frame
import Idealize.ShloMosaic.Lib.Pipeline.Value
import Idealize.ShloMosaic.Lib.ValueLayout

noncomputable section

namespace Cert.KernelIdeal.RegionMsgB

open Cert.KernelIdeal Cert.KernelIdeal.Gen Idealize.ShloMosaic Idealize.ShloMosaic.TcCoe Idealize.SL.Sem
open Idealize.ShloMosaic.Pipeline (Dat)
open Idealize.ShloMosaic.ValueIdx

/-! ## A trailing unit axis added, and copied over many lanes -/

section Layout
variable {α : Type}

/-- An `[a, b]` array cast to `[a, b, 1]` reads, at `(i, j, u)`, the operand at `(i, j)`, whatever the unit
coordinate `u`: the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The region's result as one function of its two input arrays -/

/-- Each of the sixteen lanes of row `(k, e)` of `g` scaled by the one entry `s (k, e)`. -/
def msgOut (s : S4x1003520.Idx → EReal) (g : S4x1003520x16.Idx → EReal) : S4x1003520x16.Idx → EReal :=
  fun i => s (ix2 (i 0) (i 1)) * g i

/-- `msgOut` at coordinates `(k, e, a)`. -/
theorem msgOut_apply (s : S4x1003520.Idx → EReal) (g : S4x1003520x16.Idx → EReal)
    (k : Fin 4) (e : Fin 1003520) (a : Fin 16) :
    msgOut s g (ix3 k e a) = s (ix2 k e) * g (ix3 k e a) := rfl

/-! ## One block -/

/-- The body's result at `(k, r, a)` of a block: the `[4, 4096]` block with a unit lane axis added and copied over
the sixteen lanes, times the `[4, 4096, 16]` block. -/
theorem payload_apply (x0 : Vec Ideal S4x4096 .f32) (x1 : Vec Ideal S4x4096x16 .f32)
    (k : Fin 4) (r : Fin 4096) (a : Fin 16) :
    k3_pay1 x0 x1 (ix3 k r a) = x0 (ix2 k r) * x1 (ix3 k r a) := by
  unfold k3_pay1
  rw [shapeCast_self, shapeCast_self, mulf_apply, broadcastTo_ab1_abc_apply, shapeCast_ab_ab1_apply]

/-! ## From blocks to the array -/

section Blocks
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three index maps over the grid: every block sits at row block 0 and lane block 0, and point `t` takes the
`t`-th block of 4096 entries along the long axis, in all three windows. -/
theorem block_index : ∀ t : Fin cfg3.N,
    win3_0.index t (0 : Fin 2) = 0 ∧ win3_0.index t (1 : Fin 2) = t.val
    ∧ win3_1.index t (0 : Fin 3) = 0 ∧ win3_1.index t (1 : Fin 3) = t.val ∧ win3_1.index t (2 : Fin 3) = 0
    ∧ win3_2.index t (0 : Fin 3) = 0 ∧ win3_2.index t (1 : Fin 3) = t.val ∧ win3_2.index t (2 : Fin 3) = 0 :=
  (by decide +kernel : ∀ t : Fin grid3.N, _)

/-- What point `t` writes back is block `t` of `msgOut` of the two arrays as the region finds them: entry
`(k, r, a)` of every block sits at `(k, 4096 t + r, a)` of its array. -/
theorem writeback_eq (c : Dev nD) (t : Fin cfg3.N) :
    (dat3 V c).flushed 2 t = ((cfg3.win 2).blk t).view.read (Elt Ideal) (msgOut (V c main_v79) (V c main_v96)) := by
  show (cfg3.win 2).cut (grid3.coords t) ((dat3 V c).after 2 t) = _
  rw [after3_2]
  unfold out3_2
  rw [View.canon_unit_zero zeros3]
  simp only [View.ld_unit_zero (S := S4x4096) zeros2, View.ld_unit_zero (S := S4x4096x16) zeros3]
  obtain ⟨e0, e1, e2, e3, e4, e5, e6, e7⟩ := block_index t
  have ht : t.val < 245 := lt_of_lt_of_eq t.isLt N_3
  funext j
  obtain ⟨k, r, a, rfl⟩ : ∃ (k : Fin 4) (r : Fin 4096) (a : Fin 16), j = ix3 k r a := ⟨j 0, j 1, j 2, eq_ix3 j⟩
  show k3_pay1 (iblk3 V c 0 t) (iblk3 V c 1 t) (ix3 k r a)
    = msgOut (V c main_v79) (V c main_v96) (((cfg3.win 2).blk t).view.emb (ix3 k r a))
  refine (payload_apply (iblk3 V c 0 t) (iblk3 V c 1 t) k r a).trans ?_
  have hb : t.val * 4096 + r.val < 1003520 := by have := r.isLt; omega
  have h2 : ((cfg3.win 2).blk t).view.emb (ix3 k r a) = ix3 k (⟨t.val * 4096 + r.val, hb⟩ : Fin 1003520) a := by
    funext d; apply Fin.ext
    match d with
    | ⟨0, _⟩ => show win3_2.index t (0 : Fin 3) * 4 + 1 * k.val = k.val; omega
    | ⟨1, _⟩ => show win3_2.index t (1 : Fin 3) * 4096 + 1 * r.val = t.val * 4096 + r.val; omega
    | ⟨2, _⟩ => show win3_2.index t (2 : Fin 3) * 16 + 1 * a.val = a.val; omega
  have h0 : iblk3 V c 0 t (ix2 k r) = V c main_v79 (ix2 k (⟨t.val * 4096 + r.val, hb⟩ : Fin 1003520)) := by
    show V c main_v79 (((cfg3.win 0).blk t).view.emb (ix2 k r)) = _
    refine congrArg (V c main_v79) ?_
    funext d; apply Fin.ext
    match d with
    | ⟨0, _⟩ => show win3_0.index t (0 : Fin 2) * 4 + 1 * k.val = k.val; omega
    | ⟨1, _⟩ => show win3_0.index t (1 : Fin 2) * 4096 + 1 * r.val = t.val * 4096 + r.val; omega
  have h1 : iblk3 V c 1 t (ix3 k r a) = V c main_v96 (ix3 k (⟨t.val * 4096 + r.val, hb⟩ : Fin 1003520) a) := by
    show V c main_v96 (((cfg3.win 1).blk t).view.emb (ix3 k r a)) = _
    refine congrArg (V c main_v96) ?_
    funext d; apply Fin.ext
    match d with
    | ⟨0, _⟩ => show win3_1.index t (0 : Fin 3) * 4 + 1 * k.val = k.val; omega
    | ⟨1, _⟩ => show win3_1.index t (1 : Fin 3) * 4096 + 1 * r.val = t.val * 4096 + r.val; omega
    | ⟨2, _⟩ => show win3_1.index t (2 : Fin 3) * 16 + 1 * a.val = a.val; omega
  rw [h2, msgOut_apply, h0, h1]

/-- An index of the output array is in point `t`'s block iff each coordinate is in the block's range on its axis. -/
theorem mem_block (t : Fin cfg3.N) (i : S4x1003520x16.Idx) :
    i ∈ ((cfg3.win 2).blk t).view.set ↔ ∀ a : Fin 3, win3_2.index t a * S4x4096x16.size a ≤ (i a).val
      ∧ (i a).val < win3_2.index t a * S4x4096x16.size a + S4x4096x16.size a := by
  show i ∈ ((View.whole main_v97).slice (win3_2.rect t)).set ↔ _
  rw [View.set_slice_whole, Rect.mem_set_unit]
  exact Iff.rfl

/-- Every index of the output array is in the block of the point numbered by its long coordinate divided by 4096
(there are 245 points and 245 * 4096 = 1003520). -/
theorem blocks_cover (i : S4x1003520x16.Idx) :
    ∃ t : Fin cfg3.N, (cfg3.win 2).flush t = true ∧ i ∈ ((cfg3.win 2).blk t).view.set := by
  have hi0 : (i 0).val < 4 := (i 0).isLt
  have hi1 : (i 1).val < 1003520 := (i 1).isLt
  have hi2 : (i 2).val < 16 := (i 2).isLt
  obtain ⟨t, ht⟩ : ∃ t : Fin cfg3.N, t.val = (i 1).val / 4096 :=
    ⟨⟨(i 1).val / 4096, lt_of_lt_of_eq (show (i 1).val / 4096 < 245 by omega) N_3.symm⟩, rfl⟩
  obtain ⟨e0, e1, e2, e3, e4, e5, e6, e7⟩ := block_index t
  refine ⟨t, flush3_2 t, ?_⟩
  rw [mem_block]
  intro a
  match a with
  | ⟨0, _⟩ => show win3_2.index t (0 : Fin 3) * 4 ≤ (i 0).val ∧ (i 0).val < win3_2.index t (0 : Fin 3) * 4 + 4; omega
  | ⟨1, _⟩ => show win3_2.index t (1 : Fin 3) * 4096 ≤ (i 1).val ∧ (i 1).val < win3_2.index t (1 : Fin 3) * 4096 + 4096; omega
  | ⟨2, _⟩ => show win3_2.index t (2 : Fin 3) * 16 ≤ (i 2).val ∧ (i 2).val < win3_2.index t (2 : Fin 3) * 16 + 16; omega

/-- The region's output array after the run, whatever the region finds on entry: `msgOut` of its two input arrays. -/
theorem msg_final (c : Dev nD) :
    (dat3 V c).arrAt 2 cfg3.N = msgOut (V c main_v79) (V c main_v96) :=
  (dat3 V c).arrAt_eq_of_cover 2 (msgOut (V c main_v79) (V c main_v96)) (fun t _ => writeback_eq V c t) blocks_cover

end Blocks

end Cert.KernelIdeal.RegionMsgB

end
-- ==== Proof.Bridge.lean ====
/-
  The padded program against the unpadded one, stage by stage.

  Read a padded per-edge array on the true edges only (`res2`, `res3`). Every stage of the padded program, so restricted,
  is the unpadded program's stage of the restricted arrays; the masked stages (scores, messages) vanish on the padded
  edges, and a sum over the edges into a node that gains only zero terms is unchanged. Hence the per-node arrays of the
  two programs — degree normaliser, factor embedding — are EQUAL, round after round.
-/
import proofs.«141132_j64287070486722_2_alg».proof.Proof.ReadsK
import proofs.«141132_j64287070486722_2_alg».proof.Proof.ReadsR
import proofs.«141132_j64287070486722_2_alg».proof.Proof.RegionTail
import proofs.«141132_j64287070486722_2_alg».proof.Proof.RegionUpdate
import proofs.«141132_j64287070486722_2_alg».proof.Proof.RegionMsgA
import proofs.«141132_j64287070486722_2_alg».proof.Proof.RegionMsgB

noncomputable section

open scoped BigOperators

namespace Cert.Bridge

open Cert.EdgeMath Idealize.ShloMosaic Idealize.ShloMosaic.ValueIdx
open Cert.KernelIdeal.RegionTail Cert.KernelIdeal.RegionUpdate

/-- Per-edge float arrays of the padded program, of the reference, and the per-node arrays both share. -/
abbrev E2' := Cert.KernelIdeal.S4x1003520.Idx → EReal
abbrev E3' := Cert.KernelIdeal.S4x1003520x16.Idx → EReal
abbrev E2 := Cert.ReferenceIdeal.S4x1000000.Idx → EReal
abbrev E3 := Cert.ReferenceIdeal.S4x1000000x16.Idx → EReal
abbrev N3 := Cert.ReferenceIdeal.S4x200000x16.Idx → EReal
abbrev I1 := Cert.ReferenceIdeal.S1000000.Idx → BitVec 32

/-- A padded (factor, edge) array on the true edges. -/
def res2 (x : E2') : E2 := fun i => x (ix2 (n0 := 4) (n1 := 1003520) (i 0) (up (i 1)))
/-- A padded (factor, edge, lane) array on the true edges. -/
def res3 (x : E3') : E3 := fun i => x (ix3 (n0 := 4) (n1 := 1003520) (n2 := 16) (i 0) (up (i 1)) (i 2))

theorem res2_apply (x : E2') (k : Fin 4) (e : Fin 1000000) : res2 x (ix2 k e) = x (ix2 k (up e)) := rfl
theorem res3_apply (x : E3') (k : Fin 4) (e : Fin 1000000) (a : Fin 16) : res3 x (ix3 k e a) = x (ix3 k (up e) a) := rfl

/-- Zero on every padded edge. -/
def ZeroPad2 (x : E2') : Prop := ∀ (k : Fin 4) (e' : Fin 1003520), 1000000 ≤ e'.val → x (ix2 k e') = 0
def ZeroPad3 (x : E3') : Prop := ∀ (k : Fin 4) (e' : Fin 1003520) (a : Fin 16), 1000000 ≤ e'.val → x (ix3 k e' a) = 0

theorem ext2 {x y : E2} (h : ∀ (k : Fin 4) (e : Fin 1000000), x (ix2 k e) = y (ix2 k e)) : x = y :=
  funext fun i => by rw [eq_ix2 i]; exact h _ _
theorem ext3 {x y : E3} (h : ∀ (k : Fin 4) (e : Fin 1000000) (a : Fin 16), x (ix3 k e a) = y (ix3 k e a)) : x = y :=
  funext fun i => by rw [eq_ix3 i]; exact h _ _ _

/-! ## The stages -/

theorem ones_res : res2 (Cert.KernelIdeal.Stage.ones (F := Ideal)) = Cert.ReferenceIdeal.Stage.ones (F := Ideal) :=
  ext2 fun k e => by rw [res2_apply, Cert.KernelIdeal.Reads.ones_read, Cert.ReferenceIdeal.Reads.ones_read]

theorem scores_res (fv : E2') : res2 (Cert.KernelIdeal.Stage.scores (F := Ideal) fv) = Cert.ReferenceIdeal.Stage.softmax (F := Ideal) (res2 fv) :=
  ext2 fun k e => by rw [res2_apply, Cert.KernelIdeal.Reads.scores_true, Cert.ReferenceIdeal.Reads.softmax_read]; rfl

theorem scores_zero (fv : E2') : ZeroPad2 (Cert.KernelIdeal.Stage.scores (F := Ideal) fv) := fun k e' h => Cert.KernelIdeal.Reads.scores_pad fv k e' h

theorem next_res (fv d : E2') : res2 (Cert.KernelIdeal.Stage.nextLogits (F := Ideal) fv d) = addf (F := Ideal) (φ := .f32) (res2 fv) (res2 d) :=
  ext2 fun k e => by rw [res2_apply, Cert.KernelIdeal.Reads.nextLogits_true]; rfl

theorem rows_res (x : N3) (w : I1) : res3 (Cert.KernelIdeal.Stage.rowsAt (F := Ideal) x (Cert.KernelIdeal.Stage.padIdx (F := Ideal) w)) = Cert.ReferenceIdeal.Stage.rowsAt (F := Ideal) x w :=
  ext3 fun k e a => by rw [res3_apply, Cert.KernelIdeal.Reads.rowsAt_read, Cert.KernelIdeal.Reads.padIdx_read, Cert.ReferenceIdeal.Reads.rowsAt_read]

theorem msg_res (s : E2') (g : E3') : res3 (Cert.KernelIdeal.RegionMsgA.msgOut s g) = Cert.ReferenceIdeal.Stage.msg (F := Ideal) (res2 s) (res3 g) :=
  ext3 fun k e a => by rw [res3_apply, Cert.KernelIdeal.RegionMsgA.msgOut_apply, Cert.ReferenceIdeal.Reads.msg_read]; rfl

theorem msg_zero (s : E2') (g : E3') (hz : ZeroPad2 s) : ZeroPad3 (Cert.KernelIdeal.RegionMsgA.msgOut s g) := fun k e' a h => by
  rw [Cert.KernelIdeal.RegionMsgA.msgOut_apply, hz k e' h, zero_mul]

theorem msgB_eq : Cert.KernelIdeal.RegionMsgB.msgOut = Cert.KernelIdeal.RegionMsgA.msgOut := rfl

theorem delta_res (hg tt : E3') : res2 (updOut hg (tailOut tt)) = Cert.ReferenceIdeal.Stage.delta (F := Ideal) (res3 hg) (res3 tt) :=
  ext2 fun k e => by
    rw [res2_apply, updOut_apply, Cert.ReferenceIdeal.Reads.delta_read]
    simp only [tailOut_apply]
    rfl

/-- The sums over the edges into a node: padding with zero updates changes nothing. -/
theorem seg2_pad (hd : I1) (u : E2') (hz : ZeroPad2 u) :
    Cert.KernelIdeal.Stage.seg2 (F := Ideal) (Cert.KernelIdeal.Stage.padIdx (F := Ideal) hd) u = Cert.ReferenceIdeal.Stage.seg2 (F := Ideal) hd (res2 u) := by
  unfold Cert.KernelIdeal.Stage.seg2 Cert.ReferenceIdeal.Stage.seg2
  exact MidAxis.scatterAdd2_pad (B := 4) (N := 200000) (E := 1000000) (E' := 1003520) (by decide)
    Cert.ReferenceIdeal.Facts₀.scatter_S4x200000_S1000000x1_S4x1000000_0_1_1_1_wf Cert.KernelIdeal.Facts₀.scatter_S4x200000_S1003520x1_S4x1003520_0_1_1_1_wf
    _ (Cert.ReferenceIdeal.Stage.col (F := Ideal) hd) (Cert.KernelIdeal.Stage.col (F := Ideal) (Cert.KernelIdeal.Stage.padIdx (F := Ideal) hd)) (res2 u) u
    (fun e => by rw [Cert.KernelIdeal.Reads.col_read, Cert.KernelIdeal.Reads.padIdx_read, Cert.ReferenceIdeal.Reads.col_read])
    (fun k e => (res2_apply u k e).symm) hz

theorem seg3_pad (hd : I1) (u : E3') (hz : ZeroPad3 u) :
    Cert.KernelIdeal.Stage.seg3 (F := Ideal) (Cert.KernelIdeal.Stage.padIdx (F := Ideal) hd) u = Cert.ReferenceIdeal.Stage.seg3 (F := Ideal) hd (res3 u) := by
  unfold Cert.KernelIdeal.Stage.seg3 Cert.ReferenceIdeal.Stage.seg3
  exact MidAxis.scatterAdd3_pad (B := 4) (N := 200000) (A := 16) (E := 1000000) (E' := 1003520) (by decide)
    Cert.ReferenceIdeal.Facts₀.scatter_S4x200000x16_S1000000x1_S4x1000000x16_02_1_1_1_wf Cert.KernelIdeal.Facts₀.scatter_S4x200000x16_S1003520x1_S4x1003520x16_02_1_1_1_wf
    _ (Cert.ReferenceIdeal.Stage.col (F := Ideal) hd) (Cert.KernelIdeal.Stage.col (F := Ideal) (Cert.KernelIdeal.Stage.padIdx (F := Ideal) hd)) (res3 u) u
    (fun e => by rw [Cert.KernelIdeal.Reads.col_read, Cert.KernelIdeal.Reads.padIdx_read, Cert.ReferenceIdeal.Reads.col_read])
    (fun k e a => (res3_apply u k e a).symm) hz

/-! ## One round -/

/-- The padded program's factor embedding of a round, from its masked scores: degree normaliser, message region,
    sum into the nodes, normaliser again. -/
def kFactor (hd tl : I1) (eg : N3) (s : E2') : N3 :=
  Cert.KernelIdeal.Stage.scale (F := Ideal) (Cert.KernelIdeal.Stage.dcol (F := Ideal) (Cert.KernelIdeal.Stage.padIdx (F := Ideal) hd) s)
    (Cert.KernelIdeal.Stage.seg3 (F := Ideal) (Cert.KernelIdeal.Stage.padIdx (F := Ideal) hd)
      (Cert.KernelIdeal.RegionMsgA.msgOut s
        (Cert.KernelIdeal.Stage.rowsAt (F := Ideal) (Cert.KernelIdeal.Stage.scale (F := Ideal) (Cert.KernelIdeal.Stage.dcol (F := Ideal) (Cert.KernelIdeal.Stage.padIdx (F := Ideal) hd) s) eg) (Cert.KernelIdeal.Stage.padIdx (F := Ideal) tl))))

theorem dcol_pad (hd : I1) (s : E2') (hz : ZeroPad2 s) :
    Cert.KernelIdeal.Stage.dcol (F := Ideal) (Cert.KernelIdeal.Stage.padIdx (F := Ideal) hd) s = Cert.ReferenceIdeal.Stage.dcol (F := Ideal) hd (res2 s) := by
  unfold Cert.KernelIdeal.Stage.dcol Cert.ReferenceIdeal.Stage.dcol
  rw [seg2_pad hd s hz]
  rfl

theorem kFactor_eq (hd tl : I1) (eg : N3) (s : E2') (hz : ZeroPad2 s) :
    kFactor hd tl eg s = Cert.ReferenceIdeal.Stage.factorOf (F := Ideal) hd tl eg (res2 s) := by
  unfold kFactor Cert.ReferenceIdeal.Stage.factorOf
  rw [dcol_pad hd s hz, seg3_pad hd _ (msg_zero s _ hz), msg_res, rows_res]
  rfl

/-! ## Two rounds -/

/-- The padded program's logits after the first round. -/
def kLogits1 (hd tl : I1) (eg : N3) : E2' :=
  Cert.KernelIdeal.Stage.nextLogits (F := Ideal) (Cert.KernelIdeal.Stage.ones (F := Ideal))
    (updOut (Cert.KernelIdeal.Stage.rowsAt (F := Ideal) (kFactor hd tl eg (Cert.KernelIdeal.Stage.scores (F := Ideal) (Cert.KernelIdeal.Stage.ones (F := Ideal)))) (Cert.KernelIdeal.Stage.padIdx (F := Ideal) hd))
      (tailOut (Cert.KernelIdeal.Stage.rowsAt (F := Ideal) eg (Cert.KernelIdeal.Stage.padIdx (F := Ideal) tl))))

/-- The padded program's factor embedding after the second round. -/
def kFactor2 (hd tl : I1) (eg : N3) : N3 := kFactor hd tl eg (Cert.KernelIdeal.Stage.scores (F := Ideal) (kLogits1 hd tl eg))

theorem kLogits1_res (a0 a1 : Cert.ReferenceIdeal.S100000x64.Idx → EReal) (hd tl : I1) :
    res2 (kLogits1 hd tl (Cert.ReferenceIdeal.Stage.ego (F := Ideal) (Cert.ReferenceIdeal.Stage.allEmb (F := Ideal) a0 a1))) = Cert.ReferenceIdeal.Stage.logits1 (F := Ideal) a0 a1 hd tl := by
  unfold kLogits1 Cert.ReferenceIdeal.Stage.logits1
  rw [next_res, ones_res, delta_res, rows_res, rows_res, kFactor_eq _ _ _ _ (scores_zero _), scores_res, ones_res]

/-- THE TWO PROGRAMS' SECOND-ROUND FACTOR EMBEDDINGS ARE EQUAL. -/
theorem kFactor2_eq (a0 a1 : Cert.ReferenceIdeal.S100000x64.Idx → EReal) (hd tl : I1) :
    kFactor2 hd tl (Cert.ReferenceIdeal.Stage.ego (F := Ideal) (Cert.ReferenceIdeal.Stage.allEmb (F := Ideal) a0 a1)) = Cert.ReferenceIdeal.Stage.factor2 (F := Ideal) a0 a1 hd tl := by
  unfold kFactor2 Cert.ReferenceIdeal.Stage.factor2
  rw [kFactor_eq _ _ _ _ (scores_zero _), scores_res, kLogits1_res]

end Cert.Bridge

end
-- ==== Proof.KernelValue.lean ====
/-
  The idealized kernel's run, with its two results as the reference's stage composition of the kernel's own arguments.

  Each region's output array is the region's whole-array function of the arrays the region was entered with; those are
  the host stages of the arguments and of the earlier regions' outputs. So the second round's factor embedding is the
  padded program's composition, which equals the unpadded one's.
-/
import proofs.«141132_j64287070486722_2_alg».proof.Proof.KernelRun
import proofs.«141132_j64287070486722_2_alg».proof.Proof.KernelRead
import proofs.«141132_j64287070486722_2_alg».proof.Proof.Bridge

noncomputable section

namespace Cert.KernelIdeal.Whole

open Cert.KernelIdeal Cert.KernelIdeal.Gen Cert.KernelIdeal.Read Idealize.ShloMosaic Idealize.ShloMosaic.TcCoe Idealize.SL.Sem

variable (m : (ℓ : Loc nD τ sig) → Buf (Elt Ideal) ℓ) (ρ : Dev nD → PrngReg) (c : Dev nD)

/-- The first region leaves the tanh of the normalised tail rows. -/
theorem t17_eq : T17 m ρ c = RegionTail.tailOut (Stage.rowsAt (eg m ρ c) (tlP m ρ c)) := by
  unfold T17
  rw [RegionTail.tail_final (Gen.V5 m ρ) c, entry0 m ρ c]

/-- The first round's factor embedding is the padded round of the all-ones logits' scores. -/
theorem f1_eq : F1 m ρ c = Cert.Bridge.kFactor (A2 m ρ c) (A3 m ρ c) (eg m ρ c) (S1 (F := Ideal)) := by
  unfold F1 T48
  rw [RegionMsgA.msg_final (Gen.V7 m ρ) c, (entry1 m ρ c).1, (entry1 m ρ c).2]
  rfl

/-- The logits after the first round. -/
theorem fv1_eq : fv1 m ρ c = Cert.Bridge.kLogits1 (A2 m ρ c) (A3 m ρ c) (eg m ρ c) := by
  unfold fv1 T63
  rw [RegionUpdate.upd_final (Gen.V9 m ρ) c, (entry2 m ρ c).1, (entry2 m ρ c).2, t17_eq, f1_eq]
  rfl

/-- The second round's factor embedding is the padded program's second round. -/
theorem f2_eq : F2 m ρ c = Cert.Bridge.kFactor2 (A2 m ρ c) (A3 m ρ c) (eg m ρ c) := by
  unfold F2 T97
  rw [RegionMsgB.msg_final (Gen.V11 m ρ) c, (entry3 m ρ c).1, (entry3 m ρ c).2, Cert.Bridge.msgB_eq]
  unfold D2 S2
  rw [fv1_eq]
  rfl

/-- The second round's factor embedding is the reference's, of the kernel's arguments. -/
theorem f2_ref : F2 m ρ c = Cert.ReferenceIdeal.Stage.factor2 (F := Ideal) (A0 m ρ c) (A1 m ρ c) (A2 m ρ c) (A3 m ρ c) := by
  rw [f2_eq]
  exact Cert.Bridge.kFactor2_eq (A0 m ρ c) (A1 m ρ c) (A2 m ρ c) (A3 m ρ c)

/-- The mean embedding both results are cut from, of four argument arrays. -/
def meanOf (a0 a1 : Cert.ReferenceIdeal.S100000x64.Idx → EReal) (hd tl : Cert.ReferenceIdeal.S1000000.Idx → BitVec 32) :
    Cert.ReferenceIdeal.S200000x64.Idx → EReal :=
  Cert.ReferenceIdeal.Stage.outMean (F := Ideal) (Cert.ReferenceIdeal.Stage.allEmb (F := Ideal) a0 a1)
    (Cert.ReferenceIdeal.Stage.factor2 (F := Ideal) a0 a1 hd tl)

theorem users_eq : Gen.W15 m ρ c (Proc.devRef .tc main_v124)
    = Cert.ReferenceIdeal.Stage.outUsers (F := Ideal) (meanOf (A0 m ρ c) (A1 m ρ c) (A2 m ρ c) (A3 m ρ c)) := by
  rw [(result m ρ c).1, f2_ref]
  rfl

theorem items_eq : Gen.W15 m ρ c (Proc.devRef .tc main_v125)
    = Cert.ReferenceIdeal.Stage.outItems (F := Ideal) (meanOf (A0 m ρ c) (A1 m ρ c) (A2 m ρ c) (A3 m ρ c)) := by
  rw [(result m ρ c).2, f2_ref]
  rfl

/-- THE KERNEL'S RUN: every weakly fair execution terminates with the two results at the halves of the mean embedding of
    the arguments, and the arguments unchanged. -/
theorem run : θ_run defs (onTc (τ := τ) (main (F := Ideal))) ⟨m, fun _ => 0, ρ⟩ (fun r => ∀ c : Dev nD,
      r.2.mem ((c.tc : Thread nD τ).loc main_v124) = Cert.ReferenceIdeal.Stage.outUsers (F := Ideal) (meanOf (A0 m ρ c) (A1 m ρ c) (A2 m ρ c) (A3 m ρ c))
      ∧ r.2.mem ((c.tc : Thread nD τ).loc main_v125) = Cert.ReferenceIdeal.Stage.outItems (F := Ideal) (meanOf (A0 m ρ c) (A1 m ρ c) (A2 m ρ c) (A3 m ρ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (users_eq m ρ c), (h c).2.1.trans (items_eq m ρ c), (h c).2.2⟩)
    (run_results m ρ)

end Cert.KernelIdeal.Whole

end
-- ==== Proof.RefValue.lean ====
/-
  The idealized reference's run, with its two results as the halves of the mean embedding of its arguments.
-/
import proofs.«141132_j64287070486722_2_alg».proof.Proof.StagesR
import Idealize.ShloMosaic.PureOps.Ideal

noncomputable section

namespace Cert.ReferenceIdeal.Whole

open Cert.ReferenceIdeal Cert.ReferenceIdeal.Gen Idealize.ShloMosaic Idealize.ShloMosaic.TcCoe Idealize.SL.Sem Idealize.ShloMosaic.StableHlo

/-- The mean embedding both results are cut from, of four argument arrays. -/
def meanOf (a0 a1 : S100000x64.Idx → EReal) (hd tl : S1000000.Idx → BitVec 32) : S200000x64.Idx → EReal :=
  Stage.outMean (F := Ideal) (Stage.allEmb (F := Ideal) a0 a1) (Stage.factor2 (F := Ideal) a0 a1 hd tl)

/-- THE REFERENCE'S RUN: every weakly fair execution terminates with the two results at the halves of the mean embedding
    of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v156) = Stage.outUsers (F := Ideal) (meanOf (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v157) = Stage.outItems (F := Ideal) (meanOf (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (by rw [Stage.res_eq]; rfl), (h c).2.1.trans (by rw [Stage.res_eq]; rfl), (h c).2.2⟩)
    (Value.run (F := Ideal) m ρ)

end Cert.ReferenceIdeal.Whole

end
-- ==== Proof.lean ====
/-
  A disentangled graph-convolution layer (four factors of sixteen lanes, one layer, two routing rounds) over a
  bipartite graph with 200,000 nodes and 1,000,000 directed edges: the kernel program against its plain reference,
  as extended reals.

  Both programs run the same two rounds. A round turns per-edge logits into scores by a softmax over the four factors,
  normalises by one over the square root of the scores summed into each edge's head node, sends along each edge the
  score times the normalised embedding of its tail, sums the messages into the head nodes and normalises again; the
  logits then gain, per edge and factor, the lane sum of the normalised head row times the tanh of the normalised tail
  row. The result is the mean of the input embedding and the second round's factor embedding, cut into users and items.

  The kernel program differs in two ways. It computes the three per-edge dense maps in tiled kernel regions, each of
  which leaves, row block by row block, one whole-array function of its input arrays. And it pads the edge list to
  1,003,520 entries with edges at node 0, multiplying scores and logit updates by a mask that is 1 on the true edges and
  0 on the padded ones. On a true edge every per-edge quantity of the kernel program is the reference's, because each
  is a function of that edge's own column of values and x * 1 = x. On a padded edge the scores are x * 0 = 0, so the
  messages are 0 * y = 0, and a sum into a node that gains only zero terms is unchanged: x + 0 = x. These three laws hold
  on all extended reals, infinities included, so no finiteness of the inputs is used. Hence the per-node arrays of the two
  programs are equal round after round, and so are the results.
-/
import proofs.«141132_j64287070486722_2_alg».proof.Defs
import proofs.«141132_j64287070486722_2_alg».proof.Proof.Gen.Kernel
import proofs.«141132_j64287070486722_2_alg».proof.Proof.Gen.Kernel.Skeleton
import proofs.«141132_j64287070486722_2_alg».proof.Proof.Gen.Kernel.Launch
import proofs.«141132_j64287070486722_2_alg».proof.Proof.Gen.Kernel.Points
import proofs.«141132_j64287070486722_2_alg».proof.Proof.Gen.Kernel.Frame
import proofs.«141132_j64287070486722_2_alg».proof.Proof.Gen.KernelIdeal
import proofs.«141132_j64287070486722_2_alg».proof.Proof.Gen.KernelIdeal.Skeleton
import proofs.«141132_j64287070486722_2_alg».proof.Proof.Gen.KernelIdeal.Launch
import proofs.«141132_j64287070486722_2_alg».proof.Proof.Gen.KernelIdeal.Points
import proofs.«141132_j64287070486722_2_alg».proof.Proof.Gen.KernelIdeal.Frame
import proofs.«141132_j64287070486722_2_alg».proof.Proof.Gen.ReferenceIdeal
import proofs.«141132_j64287070486722_2_alg».proof.Proof.Gen.Pre_finite_inputs
import proofs.«141132_j64287070486722_2_alg».proof.Proof.Gen.ReferenceIdeal.Run
import proofs.«141132_j64287070486722_2_alg».proof.Proof.KernelValue
import proofs.«141132_j64287070486722_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the halves of one mean embedding. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ⟨(h c).1.trans ?_, (h c).2.1.trans ?_, (h c).2.2⟩)
    (Cert.ReferenceIdeal.Whole.run m' ρ')
  · rw [(hagree c).1, (hagree c).2.1, (hagree c).2.2.1, (hagree c).2.2.2]; rfl
  · rw [(hagree c).1, (hagree c).2.1, (hagree c).2.2.1, (hagree c).2.2.2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
